-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S128 .f32) (main_arg16 : FVec F S128 .f32) (main_arg17 : FVec F S32x128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S32x128 .f32 := Host.absf main_arg17
  let main_cst_30 : FVec F S_ .f32 := constant S_ .f32 0x7F800000#32
  let main_v80 : FVec F S32x128 .f32 := broadcastInDim S32x128 ![] bcast_S_S32x128 main_cst_30
  let main_v81 : IVec S32x128 1 := cmpf .olt main_v79 main_v80
  let main_c_31 : IVec S_ 1 := constantI S_ 1 1#1
  let main_v82 : IVec S_ 1 := (fun x v => Host.reduce IntOp.andi x v reducesTo_S32x128_S_d0_1 h_S_) main_v81 main_c_31
  let main_v83 : IVec S_ 1 := andi main_v78 main_v82
  let main_v84 : FVec F S128x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_arg17 : FVec F S32x128 .f32) (main_arg18 : FVec F S128x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S32x128 .f32) (main_arg18 : FVec F S128x1 .f32) (main_arg19 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S32x128 .f32) (main_arg18 : FVec F S128x1 .f32) (main_arg19 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x32 .f32) (main_arg1 : IVec S2x1600000 32) (main_arg2 : FVec F S32x128 .f32) (main_arg3 : FVec F S128 .f32) (main_arg4 : FVec F S32x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S32x128 .f32) (main_arg18 : FVec F S128x1 .f32) (main_arg19 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1600000x32 : Shape := ⟨2, ![1600000, 32]⟩
abbrev S100000x128 : Shape := ⟨2, ![100000, 128]⟩
abbrev S2000x32 : Shape := ⟨2, ![2000, 32]⟩
abbrev S2000x128 : Shape := ⟨2, ![2000, 128]⟩
abbrev S2000 : Shape := ⟨1, ![2000]⟩
abbrev S2000x1 : Shape := ⟨2, ![2000, 1]⟩
abbrev S1600000x128 : Shape := ⟨2, ![1600000, 128]⟩
abbrev S1x1 : Shape := ⟨2, ![1, 1]⟩

abbrev nBuf : Space → Nat
  | .hbm => 106
  | .vmem => 36
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S32x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S32x128, .f32⟩
  | .hbm, ⟨18, _⟩ => ⟨S128x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S128x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x32, .f32⟩
  | .hbm, ⟨62, _⟩ => ⟨S_, .f32⟩
  | .hbm, ⟨63, _⟩ => ⟨S100000x32, .f32⟩
  | .hbm, ⟨64, _⟩ => ⟨S1600000x1, .i32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S100000x1, .f32⟩
  | .hbm, ⟨102, _⟩ => ⟨S1x1, .f32⟩
  | .hbm, ⟨103, _⟩ => ⟨S100000x1, .f32⟩
  | .hbm, ⟨104, _⟩ => ⟨S100000x1, .f32⟩
  | .hbm, ⟨105, _⟩ => ⟨S100000, .f32⟩
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S32x128, .f32⟩
  | .local _ .vmem, ⟨5, _⟩ => ⟨S1x128, .f32⟩
  | .local _ .vmem, ⟨6, _⟩ => ⟨S32x128, .f32⟩
  | .local _ .vmem, ⟨7, _⟩ => ⟨S1x128, .f32⟩
  | .local _ .vmem, ⟨8, _⟩ => ⟨S1x128, .f32⟩
  | .local _ .vmem, ⟨9, _⟩ => ⟨S32x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_6 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_9 : Ref sig .tc := ⟨.hbm, 85, rfl⟩
abbrev main_v54 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S128x128 : S_.BroadcastsInDim S128x128 (![] : Fin 0 → Fin S128x128.rank)
  shapeCasts_S128_S1x128 : S128.ShapeCasts S1x128
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x32_S32x128_S2000x128_1_0_0_1_n_n_wf : DotDims.WF S2000x32 S32x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S100000x128_S128x1_S100000x1_1_0_0_1_n_n_wf : DotDims.WF S100000x128 S128x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

abbrev win0_0 : Pipeline.Window sig grid0 :=
  Pipeline.Window.ofSpec (Memref.whole main_v39) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg17) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v52) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v53) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v65) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v66) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x1 : Shape := ⟨2, ![1, 1]⟩

abbrev nBuf : Space → Nat
  | .hbm => 222
  | .vmem => 0
  | .smem => 0
  | _ => 0

abbrev hbmTy0_0 (i : Nat) : BufTy := match i % 128 with
  | 0 => ⟨S100000x32, .f32⟩
  | 1 => ⟨S2x1600000, .i32⟩
  | 2 => ⟨S32x128, .f32⟩
  | 3 => ⟨S128, .f32⟩
  | 4 => ⟨S32x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S32x128, .f32⟩
  | 18 => ⟨S128x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x32, .f32⟩
  | 48 => ⟨S100000x32, .f32⟩
  | 49 => ⟨S100000x128, .f32⟩
  | 50 => ⟨S1x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S100000, .f32⟩
  | 57 => ⟨S100000x1, .f32⟩
  | 58 => ⟨S_, .f32⟩
  | 59 => ⟨S100000x1, .f32⟩
  | 60 => ⟨S100000x1, .f32⟩
  | 61 => ⟨S100000x128, .f32⟩
  | 62 => ⟨S100000x128, .f32⟩
  | 63 => ⟨S100000x128, .f32⟩
  | 64 => ⟨S_, .f32⟩
  | 65 => ⟨S100000, .f32⟩
  | 66 => ⟨S100000x1, .f32⟩
  | 67 => ⟨S_, .f32⟩
  | 68 => ⟨S100000x1, .f32⟩
  | 69 => ⟨S100000x1, .f32⟩
  | 70 => ⟨S100000x128, .f32⟩
  | 71 => ⟨S100000x128, .f32⟩
  | 72 => ⟨S_, .f32⟩
  | 73 => ⟨S100000x1, .f32⟩
  | 74 => ⟨S100000x1, .f32⟩
  | 75 => ⟨S100000x1, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S100000x128, .f32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S100000x128, .f32⟩
  | 127 => ⟨S100000x128, .f32⟩
  | _ => ⟨S100000x32, .f32⟩

abbrev hbmTy0_1 (i : Nat) : BufTy := match i % 128 with
  | 0 => ⟨S100000x128, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S_, .f32⟩
  | 10 => ⟨S100000x1, .f32⟩
  | 11 => ⟨S100000x1, .f32⟩
  | 12 => ⟨S100000x1, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S100000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .f32⟩
  | 39 => ⟨S1600000, .f32⟩
  | 40 => ⟨S_, .f32⟩
  | 41 => ⟨S100000, .f32⟩
  | 42 => ⟨S1600000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S100000x128, .f32⟩
  | 65 => ⟨S_, .f32⟩
  | 66 => ⟨S100000, .f32⟩
  | 67 => ⟨S100000x1, .f32⟩
  | 68 => ⟨S_, .f32⟩
  | 69 => ⟨S100000x1, .f32⟩
  | 70 => ⟨S100000x1, .f32⟩
  | 71 => ⟨S100000x128, .f32⟩
  | 72 => ⟨S100000x128, .f32⟩
  | 73 => ⟨S_, .f32⟩
  | 74 => ⟨S100000x1, .f32⟩
  | 75 => ⟨S100000x1, .f32⟩
  | 76 => ⟨S100000x1, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | 89 => ⟨S100000x1, .f32⟩
  | 90 => ⟨S1x1, .f32⟩
  | 91 => ⟨S100000x1, .f32⟩
  | 92 => ⟨S100000x1, .f32⟩
  | 93 => ⟨S100000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call0_cst : Ref sig .tc := ⟨.hbm, 84, rfl⟩
abbrev main_call0_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_9 : Ref sig .tc := ⟨.hbm, 89, rfl⟩
abbrev main_v56 : Ref sig .tc := ⟨.hbm, 90, rfl⟩
abbrev main_v57 : Ref sig .tc := ⟨.hbm, 91, rfl⟩
abbrev main_c_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_11 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_cst_13 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_15 : Ref sig .tc := ⟨.hbm, 120, rfl⟩
abbrev main_v81 : Ref sig .tc := ⟨.hbm, 121, rfl⟩
abbrev main_v82 : Ref sig .tc := ⟨.hbm, 122, rfl⟩
abbrev main_cst_16 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_v89 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_19 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call1_cst : Ref sig .tc := ⟨.hbm, 149, rfl⟩
abbrev main_call1_v0 : Ref sig .tc := ⟨.hbm, 150, rfl⟩
abbrev main_v105 : Ref sig .tc := ⟨.hbm, 151, rfl⟩
abbrev main_v106 : Ref sig .tc := ⟨.hbm, 152, rfl⟩
abbrev main_c_20 : Ref sig .tc := ⟨.hbm, 153, rfl⟩
abbrev main_v107 : Ref sig .tc := ⟨.hbm, 154, rfl⟩
abbrev main_v108 : Ref sig .tc := ⟨.hbm, 155, rfl⟩
abbrev main_c_21 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_22 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_23 : Ref sig .tc := ⟨.hbm, 166, rfl⟩
abbrev main_v117 : Ref sig .tc := ⟨.hbm, 167, rfl⟩
abbrev main_cst_24 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_25 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_26 : Ref sig .tc := ⟨.hbm, 184, rfl⟩
abbrev main_v132 : Ref sig .tc := ⟨.hbm, 185, rfl⟩
abbrev main_v133 : Ref sig .tc := ⟨.hbm, 186, rfl⟩
abbrev main_cst_27 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_28 : Ref sig .tc := ⟨.hbm, 193, rfl⟩
abbrev main_v139 : Ref sig .tc := ⟨.hbm, 194, rfl⟩
abbrev main_v140 : Ref sig .tc := ⟨.hbm, 195, rfl⟩
abbrev main_cst_29 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_30 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call2_cst : Ref sig .tc := ⟨.hbm, 213, rfl⟩
abbrev main_call2_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.NamedRun.lean ====
/-
  The idealized kernel's run with EVERY unscoped buffer named: every weakly fair execution of @main terminates
  without a fault, and in the final state each unscoped buffer of each core holds what the program's last boundary
  holds there — the fold of the segments (host stretches and pipelined regions) from the launch memory, `Gen.W7`.
  The frame claim reads only the argument arrays out of that final state; the value claim also reads the two result
  buffers, so the run is stated here once with the whole final valuation in its post.
-/
import proofs.«172658_j14405320311484_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's seven segments, the last thread state read against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.NamedRun

end
-- ==== Proof.Assembly.lean ====
/-
  The certificate's claims, assembled.

  Each of the three programs runs to completion from any memory and leaves its twenty argument arrays as launched; the
  idealized kernel is the kernel's own text read at the extended reals; and at the extended reals, from memories that
  agree on the argument arrays, the idealized kernel and the reference end with equal results. The last claim is
  derived here from three facts, taken as hypotheses:
    * the reference's run ends with its two result arrays at two named functions of its argument arrays (the first of
      all twenty, the second of the first eighteen), its arguments unchanged (`RefRunSpec`);
    * what the idealized kernel's last boundary holds in its first result array is the first of those functions of
      the kernel's argument arrays (`Result0`), and in its second result array the second (`Result1`).
  From them: the kernel's run ends with every unscoped buffer at its last boundary's contents, so its two results are
  that boundary's two arrays and its arguments are as launched; the reference's results are the two functions of its
  own arguments, which are the kernel's, so they are the same two arrays.
-/
import proofs.«172658_j14405320311484_1_alg».proof.Defs
import proofs.«172658_j14405320311484_1_alg».proof.Proof.Gen.Kernel.Frame
import proofs.«172658_j14405320311484_1_alg».proof.Proof.Gen.KernelIdeal.Frame
import proofs.«172658_j14405320311484_1_alg».proof.Proof.Gen.Kernel
import proofs.«172658_j14405320311484_1_alg».proof.Proof.Gen.KernelIdeal
import proofs.«172658_j14405320311484_1_alg».proof.Proof.Gen.ReferenceIdeal
import proofs.«172658_j14405320311484_1_alg».proof.Proof.Gen.Pre_finite_inputs
import proofs.«172658_j14405320311484_1_alg».proof.Proof.NamedRun
import proofs.«172658_j14405320311484_1_alg».proof.Proof.ReadP

noncomputable section

namespace Cert.Proof.Assembly

open Idealize.ShloMosaic Idealize.ShloMosaic.TcCoe Idealize.SL.Sem

/-! ## The three facts the assembly stands on -/

/-- The reference's run: from any memory, every execution terminates without a fault, its first result array ends at
    the first stage function of the twenty argument arrays, its second at the second stage function of the first
    eighteen, and the argument arrays end as launched. -/
def RefRunSpec : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v162) = Cert.ReferenceIdeal.ReadP.val_main_v162 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))
      ∧ r.2.mem ((c.tc : Thread Cert.ReferenceIdeal.nD Cert.ReferenceIdeal.τ).loc Cert.ReferenceIdeal.main_v157) = Cert.ReferenceIdeal.ReadP.val_main_v157 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

/-- The idealized kernel's first result array, as its last boundary holds it, is the reference's first stage function
    of the kernel's own twenty argument arrays. -/
def Result0 : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.KernelIdeal.Gen.W7 m ρ c (Proc.devRef .tc Cert.KernelIdeal.main_v71)
      = Cert.ReferenceIdeal.ReadP.val_main_v162 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))

/-- The idealized kernel's second result array, as its last boundary holds it, is the reference's second stage
    function of the kernel's own first eighteen argument arrays. -/
def Result1 : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.KernelIdeal.Gen.W7 m ρ c (Proc.devRef .tc Cert.KernelIdeal.main_v66)
      = Cert.ReferenceIdeal.ReadP.val_main_v157 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))

/-! ## The claims -/

/-- The kernel runs and leaves its argument arrays as launched. -/
theorem frame_k : Cert.frame_Kernel := fun m ρ _ => Cert.Kernel.Gen.frame m ρ

/-- The idealized kernel runs and leaves its argument arrays as launched. -/
theorem frame_ki : Cert.frame_KernelIdeal := fun m ρ _ => Cert.KernelIdeal.Gen.frame m ρ

/-- The reference runs and leaves its argument arrays as launched: the last twenty conjuncts of its run's post. -/
theorem frame_ri (hR : RefRunSpec) : Cert.frame_ReferenceIdeal := fun m ρ _ =>
  (θ_run Cert.ReferenceIdeal.defs _ _).mono (fun _ h c => (h c).2.2) (hR m ρ)

/-- The idealization rewrote no operation: the idealized kernel is the kernel's text read at the extended reals. -/
theorem preserves : Cert.preserves_Kernel_KernelIdeal := trivial

/-- At the extended reals, from memories that agree on the argument arrays, both programs run, end with equal results
    and leave their arguments unchanged. The common results are the two arrays the kernel's last boundary holds: the
    kernel's final state has every unscoped buffer at that boundary's contents; the reference's results are the two
    stage functions of its arguments, which are the kernel's arguments, and those are the boundary's two arrays. -/
theorem algebraic (hR : RefRunSpec) (h0 : Result0) (h1 : Result1) : Cert.algebraic_KernelIdeal_ReferenceIdeal := by
  intro m ρ m' ρ' _ hagree
  refine ⟨fun c => Cert.KernelIdeal.Gen.W7 m ρ c (Proc.devRef .tc Cert.KernelIdeal.main_v71),
    fun c => Cert.KernelIdeal.Gen.W7 m ρ c (Proc.devRef .tc Cert.KernelIdeal.main_v66), ?_, ?_⟩
  · exact (θ_run Cert.KernelIdeal.defs _ _).mono (fun _ h c =>
      ⟨h c _ (Cert.KernelIdeal.Gen.mem_uc Cert.KernelIdeal.main_v71 (by decide)),
       h c _ (Cert.KernelIdeal.Gen.mem_uc Cert.KernelIdeal.main_v66 (by decide)),
       (h c _ (Cert.KernelIdeal.Gen.mem_uc Cert.KernelIdeal.main_arg0 (by decide))).trans (Cert.KernelIdeal.Gen.W7_main_arg0 m ρ c),
       (h c _ (Cert.KernelIdeal.Gen.mem_uc Cert.KernelIdeal.main_arg1 (by decide))).trans (Cert.KernelIdeal.Gen.W7_main_arg1 m ρ c),
       (h c _ (Cert.KernelIdeal.Gen.mem_uc Cert.KernelIdeal.main_arg2 (by decide))).trans (Cert.KernelIdeal.Gen.W7_main_arg2 m ρ c),
       (h c _ (Cert.KernelIdeal.Gen.mem_uc Cert.KernelIdeal.main_arg3 (by decide))).trans (Cert.KernelIdeal.Gen.W7_main_arg3 m ρ c),
       (h c _ (Cert.KernelIdeal.Gen.mem_uc Cert.KernelIdeal.main_arg4 (by decide))).trans (Cert.KernelIdeal.Gen.W7_main_arg4 m ρ c),
       (h c _ (Cert.KernelIdeal.Gen.mem_uc Cert.KernelIdeal.main_arg5 (by decide))).trans (Cert.KernelIdeal.Gen.W7_main_arg5 m ρ c),
       (h c _ (Cert.KernelIdeal.Gen.mem_uc Cert.KernelIdeal.main_arg6 (by decide))).trans (Cert.KernelIdeal.Gen.W7_main_arg6 m ρ c),
       (h c _ (Cert.KernelIdeal.Gen.mem_uc Cert.KernelIdeal.main_arg7 (by decide))).trans (Cert.KernelIdeal.Gen.W7_main_arg7 m ρ c),
       (h c _ (Cert.KernelIdeal.Gen.mem_uc Cert.KernelIdeal.main_arg8 (by decide))).trans (Cert.KernelIdeal.Gen.W7_main_arg8 m ρ c),
       (h c _ (Cert.KernelIdeal.Gen.mem_uc Cert.KernelIdeal.main_arg9 (by decide))).trans (Cert.KernelIdeal.Gen.W7_main_arg9 m ρ c),
       (h c _ (Cert.KernelIdeal.Gen.mem_uc Cert.KernelIdeal.main_arg10 (by decide))).trans (Cert.KernelIdeal.Gen.W7_main_arg10 m ρ c),
       (h c _ (Cert.KernelIdeal.Gen.mem_uc Cert.KernelIdeal.main_arg11 (by decide))).trans (Cert.KernelIdeal.Gen.W7_main_arg11 m ρ c),
       (h c _ (Cert.KernelIdeal.Gen.mem_uc Cert.KernelIdeal.main_arg12 (by decide))).trans (Cert.KernelIdeal.Gen.W7_main_arg12 m ρ c),
       (h c _ (Cert.KernelIdeal.Gen.mem_uc Cert.KernelIdeal.main_arg13 (by decide))).trans (Cert.KernelIdeal.Gen.W7_main_arg13 m ρ c),
       (h c _ (Cert.KernelIdeal.Gen.mem_uc Cert.KernelIdeal.main_arg14 (by decide))).trans (Cert.KernelIdeal.Gen.W7_main_arg14 m ρ c),
       (h c _ (Cert.KernelIdeal.Gen.mem_uc Cert.KernelIdeal.main_arg15 (by decide))).trans (Cert.KernelIdeal.Gen.W7_main_arg15 m ρ c),
       (h c _ (Cert.KernelIdeal.Gen.mem_uc Cert.KernelIdeal.main_arg16 (by decide))).trans (Cert.KernelIdeal.Gen.W7_main_arg16 m ρ c),
       (h c _ (Cert.KernelIdeal.Gen.mem_uc Cert.KernelIdeal.main_arg17 (by decide))).trans (Cert.KernelIdeal.Gen.W7_main_arg17 m ρ c),
       (h c _ (Cert.KernelIdeal.Gen.mem_uc Cert.KernelIdeal.main_arg18 (by decide))).trans (Cert.KernelIdeal.Gen.W7_main_arg18 m ρ c),
       (h c _ (Cert.KernelIdeal.Gen.mem_uc Cert.KernelIdeal.main_arg19 (by decide))).trans (Cert.KernelIdeal.Gen.W7_main_arg19 m ρ c)⟩) (Cert.KernelIdeal.NamedRun.run m ρ)
  · refine (θ_run Cert.ReferenceIdeal.defs _ _).mono (fun _ h c => ⟨(h c).1.trans ?_, (h c).2.1.trans ?_, (h c).2.2⟩) (hR m' ρ')
    · obtain ⟨a0, a1, a2, a3, a4, a5, a6, a7, a8, a9, a10, a11, a12, a13, a14, a15, a16, a17, a18, a19⟩ := hagree c
      rw [a0, a1, a2, a3, a4, a5, a6, a7, a8, a9, a10, a11, a12, a13, a14, a15, a16, a17, a18, a19]
      exact (h0 m ρ c).symm
    · obtain ⟨a0, a1, a2, a3, a4, a5, a6, a7, a8, a9, a10, a11, a12, a13, a14, a15, a16, a17, a18, a19⟩ := hagree c
      rw [a0, a1, a2, a3, a4, a5, a6, a7, a8, a9, a10, a11, a12, a13, a14, a15, a16, a17]
      exact (h1 m ρ c).symm

/-- Everything the certificate claims, from the three facts. -/
theorem claim_of (hR : RefRunSpec) (h0 : Result0) (h1 : Result1) : Cert.Claim :=
  ⟨Cert.Kernel.Gen.facts, Cert.KernelIdeal.Gen.facts, Cert.ReferenceIdeal.Gen.facts, Cert.Pre_finite_inputs.Gen.facts,
    frame_k, frame_ki, frame_ri hR, preserves, algebraic hR h0 h1⟩

end Cert.Proof.Assembly

end
-- ==== Proof.LibHostLine.lean ====
/-
  A straight line of host operations each of which writes one buffer of its own.

  When the operations of a line write pairwise different buffers, what a buffer holds after the line (or after a
  prefix of it) is decided locally: a buffer nobody writes keeps its contents (`after_take_unwritten`), and the
  buffer written at position `n` holds the result of operation `n` over the contents just before it, whatever
  follows (`after_take_at`). The corollaries name the four builders a printed reference uses, so that the
  operation at a literal position is recovered by unification (`hop` by `rfl`) and the statement speaks of its
  function and operand buffers directly.
-/
import Idealize.ShloMosaic.Lib.StableHlo.Run

noncomputable section

namespace Idealize.ShloMosaic.StableHlo

open Idealize.ShloMosaic.TcCoe

variable {τ : Topo} {sig : RefSig} {Val : EltTy → Type}

/-- Running two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The operations `ops` write the buffers `W`, one each, in order. -/
def WritesOne (ops : List (HloOp τ sig Val)) (W : List (Ref sig .tc)) : Prop :=
  List.Forall₂ (fun op y => op.writes = {Proc.devRef (τ := τ) .tc y}) ops W

theorem WritesOne.append {l₁ l₂ : List (HloOp τ sig Val)} {W₁ W₂ : List (Ref sig .tc)} (h₁ : WritesOne l₁ W₁)
    (h₂ : WritesOne l₂ W₂) : WritesOne (l₁ ++ l₂) (W₁ ++ W₂) := by
  induction h₁ with
  | nil => exact h₂
  | cons hw _ ih => exact List.Forall₂.cons hw ih

theorem WritesOne.take {ops : List (HloOp τ sig Val)} {W : List (Ref sig .tc)} (h : WritesOne ops W) (N : Nat) :
    WritesOne (ops.take N) (W.take N) := by
  induction h generalizing N with
  | nil => simp only [List.take_nil]; exact List.Forall₂.nil
  | cons hw _ ih =>
    cases N with
    | zero => exact List.Forall₂.nil
    | succ N => exact List.Forall₂.cons hw (ih N)

theorem WritesOne.length_eq {ops : List (HloOp τ sig Val)} {W : List (Ref sig .tc)} (h : WritesOne ops W) :
    ops.length = W.length := List.Forall₂.length_eq h

/-- A buffer that is none of the written ones keeps its contents through the line. -/
theorem after_unwritten {ops : List (HloOp τ sig Val)} {W : List (Ref sig .tc)} (h : WritesOne ops W) {b : Ref sig .tc}
    (hb : b ∉ W) (V : Valuation τ sig Val) : after ops V (Proc.devRef .tc b) = V (Proc.devRef .tc b) := by
  induction h generalizing V with
  | nil => rfl
  | @cons op y ops W hw _ ih =>
    have hby : b ≠ y := fun e => hb (e ▸ List.mem_cons_self)
    rw [after_cons, ih (fun hm => hb (List.mem_cons_of_mem _ hm)),
      op.result_of_not_mem V (by rw [hw, Finset.mem_singleton]; exact fun e => hby (Proc.devRef_injective _ e))]

/-- And through any prefix of it. -/
theorem after_take_unwritten {ops : List (HloOp τ sig Val)} {W : List (Ref sig .tc)} (h : WritesOne ops W) {b : Ref sig .tc}
    (hb : b ∉ W) (V : Valuation τ sig Val) (N : Nat) :
    after (ops.take N) V (Proc.devRef .tc b) = V (Proc.devRef .tc b) :=
  after_unwritten (h.take N) (fun hm => hb (List.mem_of_mem_take hm)) V

/-- **The buffer written at position `n`**, after any prefix that includes that position, holds operation `n`'s
    result over the contents just before it: no later operation writes it again. -/
theorem after_take_at {ops : List (HloOp τ sig Val)} {W : List (Ref sig .tc)} (h : WritesOne ops W) (hnd : W.Nodup)
    (V : Valuation τ sig Val) (n N : Nat) (hnN : n < N) (hn : n < ops.length) (hn' : n < W.length) :
    after (ops.take N) V (Proc.devRef .tc W[n]) = (ops[n]).result (after (ops.take n) V) (Proc.devRef .tc W[n]) := by
  induction h generalizing V n N with
  | nil => exact absurd hn (Nat.not_lt_zero _)
  | @cons op y ops W hw hrest ih =>
    obtain ⟨N, rfl⟩ : ∃ N', N = N' + 1 := ⟨N - 1, by omega⟩
    have hy : y ∉ W := (List.nodup_cons.1 hnd).1
    cases n with
    | zero =>
      show after (ops.take N) (op.result V) (Proc.devRef .tc y) = op.result V (Proc.devRef .tc y)
      exact after_take_unwritten hrest hy _ N
    | succ n =>
      have hn0 : n < ops.length := by simpa using hn
      have hn0' : n < W.length := by simpa using hn'
      show after (ops.take N) (op.result V) (Proc.devRef .tc W[n]) = (ops[n]).result (after (ops.take n) (op.result V)) (Proc.devRef .tc W[n])
      exact ih (List.nodup_cons.1 hnd).2 (op.result V) n N (by omega) hn0 hn0'

section Builders

variable {ops : List (HloOp τ sig Val)} {W : List (Ref sig .tc)}

/-- Position `n` is a constant: its buffer holds the constant. -/
theorem after_take_nullary (h : WritesOne ops W) (hnd : W.Nodup) (V : Valuation τ sig Val) (n N : Nat) (hnN : n < N)
    (hn : n < ops.length) (hn' : n < W.length) (y : Ref sig .tc) (v : y.ty.Contents Val) (hy)
    (hop : ops[n] = nullary y v hy) (hW : W[n] = y) :
    after (ops.take N) V (Proc.devRef .tc y) = v := by
  have e := after_take_at h hnd V n N hnN hn hn'
  rw [hop, hW] at e
  exact e.trans (nullary_result y v hy _)

/-- Position `n` applies `f` to the buffer `x`: its buffer holds `f` of what `x` held just before. -/
theorem after_take_unary (h : WritesOne ops W) (hnd : W.Nodup) (V : Valuation τ sig Val) (n N : Nat) (hnN : n < N)
    (hn : n < ops.length) (hn' : n < W.length) (x y : Ref sig .tc) (f : x.ty.Contents Val → y.ty.Contents Val) (hx hy)
    (hop : ops[n] = unary x y f hx hy) (hW : W[n] = y) :
    after (ops.take N) V (Proc.devRef .tc y) = f (after (ops.take n) V (Proc.devRef .tc x)) := by
  have e := after_take_at h hnd V n N hnN hn hn'
  rw [hop, hW] at e
  exact e.trans (unary_result x y f hx hy _)

/-- Position `n` applies `f` to the buffers `a` and `b`. -/
theorem after_take_binary (h : WritesOne ops W) (hnd : W.Nodup) (V : Valuation τ sig Val) (n N : Nat) (hnN : n < N)
    (hn : n < ops.length) (hn' : n < W.length) (a b y : Ref sig .tc)
    (f : a.ty.Contents Val → b.ty.Contents Val → y.ty.Contents Val) (ha hb hy)
    (hop : ops[n] = binary a b y f ha hb hy) (hW : W[n] = y) :
    after (ops.take N) V (Proc.devRef .tc y)
      = f (after (ops.take n) V (Proc.devRef .tc a)) (after (ops.take n) V (Proc.devRef .tc b)) := by
  have e := after_take_at h hnd V n N hnN hn hn'
  rw [hop, hW] at e
  exact e.trans (binary_result a b y f ha hb hy _)

/-- Position `n` applies `f` to a family of buffers. -/
theorem after_take_nary (h : WritesOne ops W) (hnd : W.Nodup) (V : Valuation τ sig Val) (n N : Nat) (hnN : n < N)
    (hn : n < ops.length) (hn' : n < W.length) {k : Nat} (xs : Fin k → Ref sig .tc) (y : Ref sig .tc)
    (f : ((i : Fin k) → (xs i).ty.Contents Val) → y.ty.Contents Val) (hxs hy)
    (hop : ops[n] = nary xs y f hxs hy) (hW : W[n] = y) :
    after (ops.take N) V (Proc.devRef .tc y) = f (fun i => after (ops.take n) V (Proc.devRef .tc (xs i))) := by
  have e := after_take_at h hnd V n N hnN hn hn'
  rw [hop, hW] at e
  exact e.trans (nary_result xs y f hxs hy _)

end Builders

end Idealize.ShloMosaic.StableHlo

end
-- ==== Proof.LibHostFinal.lean ====
/-
  A straight line of host operations each of which writes one buffer of its own, read at its END.

  When the operations write pairwise different buffers and every operation reads only buffers that no operation from
  its own position on writes (a program in single-assignment form, in order), the contents after the whole line satisfy
  the program's equations: the buffer written at position `n` holds operation `n`'s function of what its operand
  buffers hold AT THE END, because nothing after position `n` touches either. So a value is read off the final
  contents one operation at a time, in program order, each step using only the steps of its operands.
-/
import proofs.«172658_j14405320311484_1_alg».proof.Proof.LibHostLine

noncomputable section

namespace Idealize.ShloMosaic.StableHlo

open Idealize.ShloMosaic.TcCoe

variable {τ : Topo} {sig : RefSig} {Val : EltTy → Type}

theorem WritesOne.drop {ops : List (HloOp τ sig Val)} {W : List (Ref sig .tc)} (h : WritesOne ops W) (N : Nat) :
    WritesOne (ops.drop N) (W.drop N) := by
  induction h generalizing N with
  | nil => simp only [List.drop_nil]; exact List.Forall₂.nil
  | cons hw hrest ih =>
    cases N with
    | zero => exact List.Forall₂.cons hw hrest
    | succ N => exact ih N

/-- The buffer written at position `n` holds, after the whole line, operation `n`'s result over the contents just
    before it. -/
theorem after_at {ops : List (HloOp τ sig Val)} {W : List (Ref sig .tc)} (h : WritesOne ops W) (hnd : W.Nodup)
    (V : Valuation τ sig Val) (n : Nat) (hn : n < ops.length) (hn' : n < W.length) :
    after ops V (Proc.devRef .tc W[n]) = (ops[n]).result (after (ops.take n) V) (Proc.devRef .tc W[n]) := by
  have e := after_take_at h hnd V n ops.length hn hn hn'
  rwa [List.take_length] at e

/-- A buffer that no operation from position `n` on writes holds before position `n` what it holds at the end. -/
theorem after_take_eq {ops : List (HloOp τ sig Val)} {W : List (Ref sig .tc)} (h : WritesOne ops W)
    (V : Valuation τ sig Val) (x : Ref sig .tc) (n : Nat) (hx : x ∉ W.drop n) :
    after (ops.take n) V (Proc.devRef .tc x) = after ops V (Proc.devRef .tc x) := by
  have e : after ops V = after (ops.drop n) (after (ops.take n) V) := by
    rw [← after_append, List.take_append_drop]
  rw [e]
  exact (after_unwritten (h.drop n) hx _).symm

section Builders

variable {ops : List (HloOp τ sig Val)} {W : List (Ref sig .tc)}

/-- Position `n` is a constant: at the end its buffer holds the constant. -/
theorem end_nullary (h : WritesOne ops W) (hnd : W.Nodup) (V : Valuation τ sig Val) (n : Nat)
    (hn : n < ops.length) (hn' : n < W.length) (y : Ref sig .tc) (v : y.ty.Contents Val) (hy)
    (hop : ops[n] = nullary y v hy) (hW : W[n] = y) :
    after ops V (Proc.devRef .tc y) = v := by
  have e := after_at h hnd V n hn hn'
  rw [hop, hW] at e
  exact e.trans (nullary_result y v hy _)

/-- Position `n` applies `f` to the buffer `x`: at the end its buffer holds `f` of what `x` holds at the end. -/
theorem end_unary (h : WritesOne ops W) (hnd : W.Nodup) (V : Valuation τ sig Val) (n : Nat)
    (hn : n < ops.length) (hn' : n < W.length) (x y : Ref sig .tc) (f : x.ty.Contents Val → y.ty.Contents Val) (hx hy)
    (hop : ops[n] = unary x y f hx hy) (hW : W[n] = y) (hx' : x ∉ W.drop n) :
    after ops V (Proc.devRef .tc y) = f (after ops V (Proc.devRef .tc x)) := by
  have e := after_at h hnd V n hn hn'
  rw [hop, hW] at e
  rw [e, unary_result, after_take_eq h V x n hx']

/-- Position `n` applies `f` to the buffers `a` and `b`. -/
theorem end_binary (h : WritesOne ops W) (hnd : W.Nodup) (V : Valuation τ sig Val) (n : Nat)
    (hn : n < ops.length) (hn' : n < W.length) (a b y : Ref sig .tc)
    (f : a.ty.Contents Val → b.ty.Contents Val → y.ty.Contents Val) (ha hb hy)
    (hop : ops[n] = binary a b y f ha hb hy) (hW : W[n] = y) (ha' : a ∉ W.drop n) (hb' : b ∉ W.drop n) :
    after ops V (Proc.devRef .tc y) = f (after ops V (Proc.devRef .tc a)) (after ops V (Proc.devRef .tc b)) := by
  have e := after_at h hnd V n hn hn'
  rw [hop, hW] at e
  rw [e, binary_result, after_take_eq h V a n ha', after_take_eq h V b n hb']

/-- Position `n` applies `f` to the buffers `c`, `a` and `b`. -/
theorem end_ternary (h : WritesOne ops W) (hnd : W.Nodup) (V : Valuation τ sig Val) (n : Nat)
    (hn : n < ops.length) (hn' : n < W.length) (c a b y : Ref sig .tc)
    (f : c.ty.Contents Val → a.ty.Contents Val → b.ty.Contents Val → y.ty.Contents Val) (hc ha hb hy)
    (hop : ops[n] = ternary c a b y f hc ha hb hy) (hW : W[n] = y) (hc' : c ∉ W.drop n) (ha' : a ∉ W.drop n)
    (hb' : b ∉ W.drop n) :
    after ops V (Proc.devRef .tc y)
      = f (after ops V (Proc.devRef .tc c)) (after ops V (Proc.devRef .tc a)) (after ops V (Proc.devRef .tc b)) := by
  have e := after_at h hnd V n hn hn'
  rw [hop, hW] at e
  rw [e, ternary_result, after_take_eq h V c n hc', after_take_eq h V a n ha', after_take_eq h V b n hb']

/-- Position `n` re-lays the buffer `x` out in another shape, element for element in row-major order. -/
theorem end_reshape (h : WritesOne ops W) (hnd : W.Nodup) (V : Valuation τ sig Val) (n : Nat)
    (hn : n < ops.length) (hn' : n < W.length) (x y : Ref sig .tc) (he : x.ty.elt = y.ty.elt)
    (hs : x.ty.shape.ShapeCasts y.ty.shape) (hx hy)
    (hop : ops[n] = reshape x y he hs hx hy) (hW : W[n] = y) (hx' : x ∉ W.drop n) :
    after ops V (Proc.devRef .tc y) = fun i => he ▸ shapeCast y.ty.shape (after ops V (Proc.devRef .tc x)) hs i := by
  have e := after_at h hnd V n hn hn'
  rw [hop, hW] at e
  rw [e, reshape_result, after_take_eq h V x n hx']

end Builders

end Idealize.ShloMosaic.StableHlo

end
-- ==== Proof.RefRunOps.lean ====
/-
  The reference program as one straight line of 202 host operations, with the facts about the line that reading
  its final contents needs: operation `k` writes exactly one buffer, `W[k]` (`hW`); the written buffers are
  pairwise different (`hnd`), so the program is in single-assignment form; and none of them is one of the twenty
  argument buffers, which therefore hold at the end what they held at launch (`a_main_argK`).
-/
import proofs.«172658_j14405320311484_1_alg».proof.Proof.Gen.ReferenceIdeal
import Idealize.ShloMosaic.Lib.StableHlo.Run
import proofs.«172658_j14405320311484_1_alg».proof.Proof.LibHostFinal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 202 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst (constant S_ .f32 0x00000000#32),
    unary main_cst main_v11 (broadcastInDim S100000x32 ![] bcast_S_S100000x32 : (⟨S_, .f32⟩ : BufTy).Contents (Elt F) → (⟨S100000x32, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x32 ![0, 1] bcast_S100000x1_S100000x32_0_1 : (⟨S100000x1, .f32⟩ : BufTy).Contents (Elt F) → (⟨S100000x32, .f32⟩ : BufTy).Contents (Elt F)),
    binary main_v13 main_v21 main_v22 (Host.divf : (⟨S100000x32, .f32⟩ : BufTy).Contents (Elt F) → (⟨S100000x32, .f32⟩ : BufTy).Contents (Elt F) → (⟨S100000x32, .f32⟩ : BufTy).Contents (Elt F)),
    binary main_v22 main_arg2 main_v23 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x00000000#32),
    binary main_v28 main_cst_4 main_v29 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43000000#32),
    unary main_cst_5 main_v31 (broadcastInDim S100000x1 ![] bcast_S_S100000x1 : (⟨S_, .f32⟩ : BufTy).Contents (Elt F) → (⟨S100000x1, .f32⟩ : BufTy).Contents (Elt F)),
    binary main_v30 main_v31 main_v32 (Host.divf : (⟨S100000x1, .f32⟩ : BufTy).Contents (Elt F) → (⟨S100000x1, .f32⟩ : BufTy).Contents (Elt F) → (⟨S100000x1, .f32⟩ : BufTy).Contents (Elt F)),
    unary main_v32 main_v33 (broadcastInDim S100000x128 ![0, 1] bcast_S100000x1_S100000x128_0_1 : (⟨S100000x1, .f32⟩ : BufTy).Contents (Elt F) → (⟨S100000x128, .f32⟩ : BufTy).Contents (Elt F)),
    binary main_v28 main_v33 main_v34 (subf : (⟨S100000x128, .f32⟩ : BufTy).Contents (Elt F) → (⟨S100000x128, .f32⟩ : BufTy).Contents (Elt F) → (⟨S100000x128, .f32⟩ : BufTy).Contents (Elt F)),
    binary main_v34 main_v34 main_v35 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v35 main_cst_6 main_v36 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v38 (broadcastInDim S100000x1 ![] bcast_S_S100000x1 : (⟨S_, .f32⟩ : BufTy).Contents (Elt F) → (⟨S100000x1, .f32⟩ : BufTy).Contents (Elt F)),
    binary main_v37 main_v38 main_v39 (Host.divf : (⟨S100000x1, .f32⟩ : BufTy).Contents (Elt F) → (⟨S100000x1, .f32⟩ : BufTy).Contents (Elt F) → (⟨S100000x1, .f32⟩ : BufTy).Contents (Elt F)),
    unary main_v32 main_v40 (broadcastInDim S100000x128 ![0, 1] bcast_S100000x1_S100000x128_0_1 : (⟨S100000x1, .f32⟩ : BufTy).Contents (Elt F) → (⟨S100000x128, .f32⟩ : BufTy).Contents (Elt F)),
    binary main_v28 main_v40 main_v41 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v42 (broadcastInDim S100000x1 ![] bcast_S_S100000x1 : (⟨S_, .f32⟩ : BufTy).Contents (Elt F) → (⟨S100000x1, .f32⟩ : BufTy).Contents (Elt F)),
    binary main_v39 main_v42 main_v43 (addf : (⟨S100000x1, .f32⟩ : BufTy).Contents (Elt F) → (⟨S100000x1, .f32⟩ : BufTy).Contents (Elt F) → (⟨S100000x1, .f32⟩ : BufTy).Contents (Elt F)),
    unary main_v43 main_v44 (Host.rsqrt : (⟨S100000x1, .f32⟩ : BufTy).Contents (Elt F) → (⟨S100000x1, .f32⟩ : BufTy).Contents (Elt F)),
    unary main_v44 main_v45 (broadcastInDim S100000x128 ![0, 1] bcast_S100000x1_S100000x128_0_1 : (⟨S100000x1, .f32⟩ : BufTy).Contents (Elt F) → (⟨S100000x128, .f32⟩ : BufTy).Contents (Elt F)),
    binary main_v41 main_v45 main_v46 (mulf : (⟨S100000x128, .f32⟩ : BufTy).Contents (Elt F) → (⟨S100000x128, .f32⟩ : BufTy).Contents (Elt F) → (⟨S100000x128, .f32⟩ : BufTy).Contents (Elt F)),
    unary main_arg5 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (mulf : (⟨S100000x128, .f32⟩ : BufTy).Contents (Elt F) → (⟨S100000x128, .f32⟩ : BufTy).Contents (Elt F) → (⟨S100000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v52) (TRef.of (T := ⟨S100000x128, .f32⟩) main_call0_v0) (TRef.of (T := ⟨S100000x128, .f32⟩) main_v53) maximumf,
    binary main_arg0 main_arg17 main_v54 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    binary main_v53 main_v54 main_v55 (addf : (⟨S100000x128, .f32⟩ : BufTy).Contents (Elt F) → (⟨S100000x128, .f32⟩ : BufTy).Contents (Elt F) → (⟨S100000x128, .f32⟩ : BufTy).Contents (Elt F)),
    nullary main_c_9 (constantI S_ 32 0#32),
    unary main_c_9 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_11 (constant S_ .f32 0x00000000#32),
    unary main_cst_11 main_v63 (broadcastInDim S100000x128 ![] bcast_S_S100000x128 : (⟨S_, .f32⟩ : BufTy).Contents (Elt F) → (⟨S100000x128, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_12 (constant S_ .f32 0x3F800000#32),
    unary main_cst_12 main_v66 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v67 (broadcastInDim S100000 ![] bcast_S_S100000 : (⟨S_, .f32⟩ : BufTy).Contents (Elt F) → (⟨S100000, .f32⟩ : BufTy).Contents (Elt F)),
    unary main_v3 main_v68 (broadcastInDim S1600000x1 ![0] bcast_S1600000_S1600000x1_0 : (⟨S1600000, .i32⟩ : BufTy).Contents (Elt F) → (⟨S1600000x1, .i32⟩ : BufTy).Contents (Elt F)),
    ternary main_v67 main_v68 main_v66 main_v69 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v70 (broadcastInDim S100000 ![] bcast_S_S100000 : (⟨S_, .f32⟩ : BufTy).Contents (Elt F) → (⟨S100000, .f32⟩ : BufTy).Contents (Elt F)),
    binary main_v69 main_v70 main_v71 (maximumf : (⟨S100000, .f32⟩ : BufTy).Contents (Elt F) → (⟨S100000, .f32⟩ : BufTy).Contents (Elt F) → (⟨S100000, .f32⟩ : BufTy).Contents (Elt F)),
    unary main_v71 main_v72 (broadcastInDim S100000x1 ![0] bcast_S100000_S100000x1_0 : (⟨S100000, .f32⟩ : BufTy).Contents (Elt F) → (⟨S100000x1, .f32⟩ : BufTy).Contents (Elt F)),
    unary main_v72 main_v73 (broadcastInDim S100000x128 ![0, 1] bcast_S100000x1_S100000x128_0_1 : (⟨S100000x1, .f32⟩ : BufTy).Contents (Elt F) → (⟨S100000x128, .f32⟩ : BufTy).Contents (Elt F)),
    binary main_v65 main_v73 main_v74 (Host.divf : (⟨S100000x128, .f32⟩ : BufTy).Contents (Elt F) → (⟨S100000x128, .f32⟩ : BufTy).Contents (Elt F) → (⟨S100000x128, .f32⟩ : BufTy).Contents (Elt F)),
    binary main_v74 main_arg7 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    binary main_v55 main_arg9 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v78 main_v79 main_v80 (addf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x00000000#32),
    binary main_v80 main_cst_15 main_v81 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v81 main_v82 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v83 (broadcastInDim S100000x1 ![] bcast_S_S100000x1 : (⟨S_, .f32⟩ : BufTy).Contents (Elt F) → (⟨S100000x1, .f32⟩ : BufTy).Contents (Elt F)),
    binary main_v82 main_v83 main_v84 (Host.divf : (⟨S100000x1, .f32⟩ : BufTy).Contents (Elt F) → (⟨S100000x1, .f32⟩ : BufTy).Contents (Elt F) → (⟨S100000x1, .f32⟩ : BufTy).Contents (Elt F)),
    unary main_v84 main_v85 (broadcastInDim S100000x128 ![0, 1] bcast_S100000x1_S100000x128_0_1 : (⟨S100000x1, .f32⟩ : BufTy).Contents (Elt F) → (⟨S100000x128, .f32⟩ : BufTy).Contents (Elt F)),
    binary main_v80 main_v85 main_v86 (subf : (⟨S100000x128, .f32⟩ : BufTy).Contents (Elt F) → (⟨S100000x128, .f32⟩ : BufTy).Contents (Elt F) → (⟨S100000x128, .f32⟩ : BufTy).Contents (Elt F)),
    binary main_v86 main_v86 main_v87 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v87 main_cst_17 main_v88 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v88 main_v89 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v90 (broadcastInDim S100000x1 ![] bcast_S_S100000x1 : (⟨S_, .f32⟩ : BufTy).Contents (Elt F) → (⟨S100000x1, .f32⟩ : BufTy).Contents (Elt F)),
    binary main_v89 main_v90 main_v91 (Host.divf : (⟨S100000x1, .f32⟩ : BufTy).Contents (Elt F) → (⟨S100000x1, .f32⟩ : BufTy).Contents (Elt F) → (⟨S100000x1, .f32⟩ : BufTy).Contents (Elt F)),
    unary main_v84 main_v92 (broadcastInDim S100000x128 ![0, 1] bcast_S100000x1_S100000x128_0_1 : (⟨S100000x1, .f32⟩ : BufTy).Contents (Elt F) → (⟨S100000x128, .f32⟩ : BufTy).Contents (Elt F)),
    binary main_v80 main_v92 main_v93 (subf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v94 (broadcastInDim S100000x1 ![] bcast_S_S100000x1 : (⟨S_, .f32⟩ : BufTy).Contents (Elt F) → (⟨S100000x1, .f32⟩ : BufTy).Contents (Elt F)),
    binary main_v91 main_v94 main_v95 (addf : (⟨S100000x1, .f32⟩ : BufTy).Contents (Elt F) → (⟨S100000x1, .f32⟩ : BufTy).Contents (Elt F) → (⟨S100000x1, .f32⟩ : BufTy).Contents (Elt F)),
    unary main_v95 main_v96 (Host.rsqrt : (⟨S100000x1, .f32⟩ : BufTy).Contents (Elt F) → (⟨S100000x1, .f32⟩ : BufTy).Contents (Elt F)),
    unary main_v96 main_v97 (broadcastInDim S100000x128 ![0, 1] bcast_S100000x1_S100000x128_0_1 : (⟨S100000x1, .f32⟩ : BufTy).Contents (Elt F) → (⟨S100000x128, .f32⟩ : BufTy).Contents (Elt F)),
    binary main_v93 main_v97 main_v98 (mulf : (⟨S100000x128, .f32⟩ : BufTy).Contents (Elt F) → (⟨S100000x128, .f32⟩ : BufTy).Contents (Elt F) → (⟨S100000x128, .f32⟩ : BufTy).Contents (Elt F)),
    unary main_arg10 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v98 main_v100 main_v101 (mulf : (⟨S100000x128, .f32⟩ : BufTy).Contents (Elt F) → (⟨S100000x128, .f32⟩ : BufTy).Contents (Elt F) → (⟨S100000x128, .f32⟩ : BufTy).Contents (Elt F)),
    unary main_arg11 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v104) (TRef.of (T := ⟨S100000x128, .f32⟩) main_call1_v0) (TRef.of (T := ⟨S100000x128, .f32⟩) main_v105) maximumf,
    binary main_v105 main_v55 main_v106 (addf : (⟨S100000x128, .f32⟩ : BufTy).Contents (Elt F) → (⟨S100000x128, .f32⟩ : BufTy).Contents (Elt F) → (⟨S100000x128, .f32⟩ : BufTy).Contents (Elt F)),
    nullary main_c_20 (constantI S_ 32 0#32),
    unary main_c_20 main_v107 (broadcastInDim S1600000 ![] bcast_S_S1600000 : (⟨S_, .i32⟩ : BufTy).Contents (Elt F) → (⟨S1600000, .i32⟩ : BufTy).Contents (Elt F)),
    binary main_v1 main_v107 main_v108 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v109 (broadcastInDim S1600000 ![] bcast_S_S1600000 : (⟨S_, .i32⟩ : BufTy).Contents (Elt F) → (⟨S1600000, .i32⟩ : BufTy).Contents (Elt F)),
    binary main_v1 main_v109 main_v110 (addi : (⟨S1600000, .i32⟩ : BufTy).Contents (Elt F) → (⟨S1600000, .i32⟩ : BufTy).Contents (Elt F) → (⟨S1600000, .i32⟩ : BufTy).Contents (Elt F)),
    ternary main_v108 main_v110 main_v1 main_v111 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v111 main_v112 (broadcastInDim S1600000x1 ![0] bcast_S1600000_S1600000x1_0 : (⟨S1600000, .i32⟩ : BufTy).Contents (Elt F) → (⟨S1600000x1, .i32⟩ : BufTy).Contents (Elt F)),
    binary main_v106 main_v112 main_v113 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_22 (constant S_ .f32 0x00000000#32),
    unary main_cst_22 main_v114 (broadcastInDim S100000x128 ![] bcast_S_S100000x128 : (⟨S_, .f32⟩ : BufTy).Contents (Elt F) → (⟨S100000x128, .f32⟩ : BufTy).Contents (Elt F)),
    unary main_v3 main_v115 (broadcastInDim S1600000x1 ![0] bcast_S1600000_S1600000x1_0 : (⟨S1600000, .i32⟩ : BufTy).Contents (Elt F) → (⟨S1600000x1, .i32⟩ : BufTy).Contents (Elt F)),
    ternary main_v114 main_v115 main_v113 main_v116 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_23 (constant S_ .f32 0x3F800000#32),
    unary main_cst_23 main_v117 (broadcastInDim S1600000 ![] bcast_S_S1600000 : (⟨S_, .f32⟩ : BufTy).Contents (Elt F) → (⟨S1600000, .f32⟩ : BufTy).Contents (Elt F)),
    nullary main_cst_24 (constant S_ .f32 0x00000000#32),
    unary main_cst_24 main_v118 (broadcastInDim S100000 ![] bcast_S_S100000 : (⟨S_, .f32⟩ : BufTy).Contents (Elt F) → (⟨S100000, .f32⟩ : BufTy).Contents (Elt F)),
    unary main_v3 main_v119 (broadcastInDim S1600000x1 ![0] bcast_S1600000_S1600000x1_0 : (⟨S1600000, .i32⟩ : BufTy).Contents (Elt F) → (⟨S1600000x1, .i32⟩ : BufTy).Contents (Elt F)),
    ternary main_v118 main_v119 main_v117 main_v120 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_25 (constant S_ .f32 0x3F800000#32),
    unary main_cst_25 main_v121 (broadcastInDim S100000 ![] bcast_S_S100000 : (⟨S_, .f32⟩ : BufTy).Contents (Elt F) → (⟨S100000, .f32⟩ : BufTy).Contents (Elt F)),
    binary main_v120 main_v121 main_v122 (maximumf : (⟨S100000, .f32⟩ : BufTy).Contents (Elt F) → (⟨S100000, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    unary main_v123 main_v124 (broadcastInDim S100000x128 ![0, 1] bcast_S100000x1_S100000x128_0_1 : (⟨S100000x1, .f32⟩ : BufTy).Contents (Elt F) → (⟨S100000x128, .f32⟩ : BufTy).Contents (Elt F)),
    binary main_v116 main_v124 main_v125 (Host.divf : (⟨S100000x128, .f32⟩ : BufTy).Contents (Elt F) → (⟨S100000x128, .f32⟩ : BufTy).Contents (Elt F) → (⟨S100000x128, .f32⟩ : BufTy).Contents (Elt F)),
    binary main_v125 main_arg12 main_v126 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v126 main_v128 main_v129 (addf : (⟨S100000x128, .f32⟩ : BufTy).Contents (Elt F) → (⟨S100000x128, .f32⟩ : BufTy).Contents (Elt F) → (⟨S100000x128, .f32⟩ : BufTy).Contents (Elt F)),
    binary main_v106 main_arg14 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v129 main_v130 main_v131 (addf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v131 main_cst_26 main_v132 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v132 main_v133 (broadcastInDim S100000x1 ![0] bcast_S100000_S100000x1_0 : (⟨S100000, .f32⟩ : BufTy).Contents (Elt F) → (⟨S100000x1, .f32⟩ : BufTy).Contents (Elt F)),
    nullary main_cst_27 (constant S_ .f32 0x43000000#32),
    unary main_cst_27 main_v134 (broadcastInDim S100000x1 ![] bcast_S_S100000x1 : (⟨S_, .f32⟩ : BufTy).Contents (Elt F) → (⟨S100000x1, .f32⟩ : BufTy).Contents (Elt F)),
    binary main_v133 main_v134 main_v135 (Host.divf : (⟨S100000x1, .f32⟩ : BufTy).Contents (Elt F) → (⟨S100000x1, .f32⟩ : BufTy).Contents (Elt F) → (⟨S100000x1, .f32⟩ : BufTy).Contents (Elt F)),
    unary main_v135 main_v136 (broadcastInDim S100000x128 ![0, 1] bcast_S100000x1_S100000x128_0_1 : (⟨S100000x1, .f32⟩ : BufTy).Contents (Elt F) → (⟨S100000x128, .f32⟩ : BufTy).Contents (Elt F)),
    binary main_v131 main_v136 main_v137 (subf : (⟨S100000x128, .f32⟩ : BufTy).Contents (Elt F) → (⟨S100000x128, .f32⟩ : BufTy).Contents (Elt F) → (⟨S100000x128, .f32⟩ : BufTy).Contents (Elt F)),
    binary main_v137 main_v137 main_v138 (mulf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    binary main_v138 main_cst_28 main_v139 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v139 main_v140 (broadcastInDim S100000x1 ![0] bcast_S100000_S100000x1_0 : (⟨S100000, .f32⟩ : BufTy).Contents (Elt F) → (⟨S100000x1, .f32⟩ : BufTy).Contents (Elt F)),
    nullary main_cst_29 (constant S_ .f32 0x43000000#32),
    unary main_cst_29 main_v141 (broadcastInDim S100000x1 ![] bcast_S_S100000x1 : (⟨S_, .f32⟩ : BufTy).Contents (Elt F) → (⟨S100000x1, .f32⟩ : BufTy).Contents (Elt F)),
    binary main_v140 main_v141 main_v142 (Host.divf : (⟨S100000x1, .f32⟩ : BufTy).Contents (Elt F) → (⟨S100000x1, .f32⟩ : BufTy).Contents (Elt F) → (⟨S100000x1, .f32⟩ : BufTy).Contents (Elt F)),
    unary main_v135 main_v143 (broadcastInDim S100000x128 ![0, 1] bcast_S100000x1_S100000x128_0_1 : (⟨S100000x1, .f32⟩ : BufTy).Contents (Elt F) → (⟨S100000x128, .f32⟩ : BufTy).Contents (Elt F)),
    binary main_v131 main_v143 main_v144 (subf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v145 (broadcastInDim S100000x1 ![] bcast_S_S100000x1 : (⟨S_, .f32⟩ : BufTy).Contents (Elt F) → (⟨S100000x1, .f32⟩ : BufTy).Contents (Elt F)),
    binary main_v142 main_v145 main_v146 (addf : (⟨S100000x1, .f32⟩ : BufTy).Contents (Elt F) → (⟨S100000x1, .f32⟩ : BufTy).Contents (Elt F) → (⟨S100000x1, .f32⟩ : BufTy).Contents (Elt F)),
    unary main_v146 main_v147 (Host.rsqrt : (⟨S100000x1, .f32⟩ : BufTy).Contents (Elt F) → (⟨S100000x1, .f32⟩ : BufTy).Contents (Elt F)),
    unary main_v147 main_v148 (broadcastInDim S100000x128 ![0, 1] bcast_S100000x1_S100000x128_0_1 : (⟨S100000x1, .f32⟩ : BufTy).Contents (Elt F) → (⟨S100000x128, .f32⟩ : BufTy).Contents (Elt F)),
    binary main_v144 main_v148 main_v149 (mulf : (⟨S100000x128, .f32⟩ : BufTy).Contents (Elt F) → (⟨S100000x128, .f32⟩ : BufTy).Contents (Elt F) → (⟨S100000x128, .f32⟩ : BufTy).Contents (Elt F)),
    unary main_arg15 main_v150 (broadcastInDim S1x128 ![1] bcast_S128_S1x128_1 : (⟨S128, .f32⟩ : BufTy).Contents (Elt F) → (⟨S1x128, .f32⟩ : BufTy).Contents (Elt F)),
    unary main_v150 main_v151 (broadcastInDim S100000x128 ![0, 1] bcast_S1x128_S100000x128_0_1 : (⟨S1x128, .f32⟩ : BufTy).Contents (Elt F) → (⟨S100000x128, .f32⟩ : BufTy).Contents (Elt F)),
    binary main_v149 main_v151 main_v152 (mulf : (⟨S100000x128, .f32⟩ : BufTy).Contents (Elt F) → (⟨S100000x128, .f32⟩ : BufTy).Contents (Elt F) → (⟨S100000x128, .f32⟩ : BufTy).Contents (Elt F)),
    unary main_arg16 main_v153 (broadcastInDim S1x128 ![1] bcast_S128_S1x128_1 : (⟨S128, .f32⟩ : BufTy).Contents (Elt F) → (⟨S1x128, .f32⟩ : BufTy).Contents (Elt F)),
    unary main_v153 main_v154 (broadcastInDim S100000x128 ![0, 1] bcast_S1x128_S100000x128_0_1 : (⟨S1x128, .f32⟩ : BufTy).Contents (Elt F) → (⟨S100000x128, .f32⟩ : BufTy).Contents (Elt F)),
    binary main_v152 main_v154 main_v155 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v155) (TRef.of (T := ⟨S100000x128, .f32⟩) main_call2_v0) (TRef.of (T := ⟨S100000x128, .f32⟩) main_v156) maximumf,
    binary main_v156 main_v106 main_v157 (addf : (⟨S100000x128, .f32⟩ : BufTy).Contents (Elt F) → (⟨S100000x128, .f32⟩ : BufTy).Contents (Elt F) → (⟨S100000x128, .f32⟩ : BufTy).Contents (Elt F)),
    binary main_v157 main_arg18 main_v158 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg19 main_v159 (broadcastInDim S1x1 ![1] bcast_S1_S1x1_1 : (⟨S1, .f32⟩ : BufTy).Contents (Elt F) → (⟨S1x1, .f32⟩ : BufTy).Contents (Elt F)),
    unary main_v159 main_v160 (broadcastInDim S100000x1 ![0, 1] bcast_S1x1_S100000x1_0_1 : (⟨S1x1, .f32⟩ : BufTy).Contents (Elt F) → (⟨S100000x1, .f32⟩ : BufTy).Contents (Elt F)),
    binary main_v158 main_v160 main_v161 (addf : (⟨S100000x1, .f32⟩ : BufTy).Contents (Elt F) → (⟨S100000x1, .f32⟩ : BufTy).Contents (Elt F) → (⟨S100000x1, .f32⟩ : BufTy).Contents (Elt F)),
    reshape main_v161 main_v162 rfl shapeCasts_S100000x1_S100000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., reshape_bufs_sub ..⟩

/-- The buffer each operation writes, in program order. -/
noncomputable def W : List (Ref sig .tc) :=
  [main_v0, main_v1, main_v2, main_v3, main_c, main_v4, main_v5, main_c_0,
    main_v6, main_v7, main_v8, main_v9, main_v10, main_cst, main_v11, main_v12,
    main_v13, main_cst_1, main_v14, main_cst_2, main_v15, main_v16, main_v17, main_cst_3,
    main_v18, main_v19, main_v20, main_v21, main_v22, main_v23, main_v24, main_v25,
    main_v26, main_v27, main_v28, main_cst_4, main_v29, main_v30, main_cst_5, main_v31,
    main_v32, main_v33, main_v34, main_v35, main_cst_6, main_v36, main_v37, main_cst_7,
    main_v38, main_v39, main_v40, main_v41, main_cst_8, main_v42, main_v43, main_v44,
    main_v45, main_v46, main_v47, main_v48, main_v49, main_v50, main_v51, main_v52,
    main_call0_cst, main_call0_v0, main_v53, main_v54, main_v55, main_c_9, main_v56, main_v57,
    main_c_10, main_v58, main_v59, main_v60, main_v61, main_v62, main_cst_11, main_v63,
    main_v64, main_v65, main_cst_12, main_v66, main_cst_13, main_v67, main_v68, main_v69,
    main_cst_14, main_v70, main_v71, main_v72, main_v73, main_v74, main_v75, main_v76,
    main_v77, main_v78, main_v79, main_v80, main_cst_15, main_v81, main_v82, main_cst_16,
    main_v83, main_v84, main_v85, main_v86, main_v87, main_cst_17, main_v88, main_v89,
    main_cst_18, main_v90, main_v91, main_v92, main_v93, main_cst_19, main_v94, main_v95,
    main_v96, main_v97, main_v98, main_v99, main_v100, main_v101, main_v102, main_v103,
    main_v104, main_call1_cst, main_call1_v0, main_v105, main_v106, main_c_20, main_v107, main_v108,
    main_c_21, main_v109, main_v110, main_v111, main_v112, main_v113, main_cst_22, main_v114,
    main_v115, main_v116, main_cst_23, main_v117, main_cst_24, main_v118, main_v119, main_v120,
    main_cst_25, main_v121, main_v122, main_v123, main_v124, main_v125, main_v126, main_v127,
    main_v128, main_v129, main_v130, main_v131, main_cst_26, main_v132, main_v133, main_cst_27,
    main_v134, main_v135, main_v136, main_v137, main_v138, main_cst_28, main_v139, main_v140,
    main_cst_29, main_v141, main_v142, main_v143, main_v144, main_cst_30, main_v145, main_v146,
    main_v147, main_v148, main_v149, main_v150, main_v151, main_v152, main_v153, main_v154,
    main_v155, main_call2_cst, main_call2_v0, main_v156, main_v157, main_v158, main_v159, main_v160,
    main_v161, main_v162]

theorem ops_len : (ops (F := F)).length = 202 := rfl
theorem W_len : W.length = 202 := rfl

/-- Operation `k` of the line writes exactly the buffer `W[k]`. -/
theorem hW : WritesOne (ops (F := F)) W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- The written buffers are pairwise different (their indices in the signature are). -/
theorem hnd : W.Nodup :=
  List.Nodup.of_map (fun r : Ref sig .tc => r.idx.val) (by decide +kernel)

/-- What a buffer holds at launch. -/
abbrev inp (V : Valuation τ sig (Elt F)) (b : Ref sig .tc) : (Proc.devRef (τ := τ) .tc b).ty.Contents (Elt F) := V (Proc.devRef .tc b)

section Stages

variable (V : Valuation τ sig (Elt F))

theorem a_main_arg0 : after (ops (F := F)) V (Proc.devRef .tc main_arg0) = inp V main_arg0 :=
  after_unwritten hW (by decide +kernel) V
theorem a_main_arg1 : after (ops (F := F)) V (Proc.devRef .tc main_arg1) = inp V main_arg1 :=
  after_unwritten hW (by decide +kernel) V
theorem a_main_arg2 : after (ops (F := F)) V (Proc.devRef .tc main_arg2) = inp V main_arg2 :=
  after_unwritten hW (by decide +kernel) V
theorem a_main_arg3 : after (ops (F := F)) V (Proc.devRef .tc main_arg3) = inp V main_arg3 :=
  after_unwritten hW (by decide +kernel) V
theorem a_main_arg4 : after (ops (F := F)) V (Proc.devRef .tc main_arg4) = inp V main_arg4 :=
  after_unwritten hW (by decide +kernel) V
theorem a_main_arg5 : after (ops (F := F)) V (Proc.devRef .tc main_arg5) = inp V main_arg5 :=
  after_unwritten hW (by decide +kernel) V
theorem a_main_arg6 : after (ops (F := F)) V (Proc.devRef .tc main_arg6) = inp V main_arg6 :=
  after_unwritten hW (by decide +kernel) V
theorem a_main_arg7 : after (ops (F := F)) V (Proc.devRef .tc main_arg7) = inp V main_arg7 :=
  after_unwritten hW (by decide +kernel) V
theorem a_main_arg8 : after (ops (F := F)) V (Proc.devRef .tc main_arg8) = inp V main_arg8 :=
  after_unwritten hW (by decide +kernel) V
theorem a_main_arg9 : after (ops (F := F)) V (Proc.devRef .tc main_arg9) = inp V main_arg9 :=
  after_unwritten hW (by decide +kernel) V
theorem a_main_arg10 : after (ops (F := F)) V (Proc.devRef .tc main_arg10) = inp V main_arg10 :=
  after_unwritten hW (by decide +kernel) V
theorem a_main_arg11 : after (ops (F := F)) V (Proc.devRef .tc main_arg11) = inp V main_arg11 :=
  after_unwritten hW (by decide +kernel) V
theorem a_main_arg12 : after (ops (F := F)) V (Proc.devRef .tc main_arg12) = inp V main_arg12 :=
  after_unwritten hW (by decide +kernel) V
theorem a_main_arg13 : after (ops (F := F)) V (Proc.devRef .tc main_arg13) = inp V main_arg13 :=
  after_unwritten hW (by decide +kernel) V
theorem a_main_arg14 : after (ops (F := F)) V (Proc.devRef .tc main_arg14) = inp V main_arg14 :=
  after_unwritten hW (by decide +kernel) V
theorem a_main_arg15 : after (ops (F := F)) V (Proc.devRef .tc main_arg15) = inp V main_arg15 :=
  after_unwritten hW (by decide +kernel) V
theorem a_main_arg16 : after (ops (F := F)) V (Proc.devRef .tc main_arg16) = inp V main_arg16 :=
  after_unwritten hW (by decide +kernel) V
theorem a_main_arg17 : after (ops (F := F)) V (Proc.devRef .tc main_arg17) = inp V main_arg17 :=
  after_unwritten hW (by decide +kernel) V
theorem a_main_arg18 : after (ops (F := F)) V (Proc.devRef .tc main_arg18) = inp V main_arg18 :=
  after_unwritten hW (by decide +kernel) V
theorem a_main_arg19 : after (ops (F := F)) V (Proc.devRef .tc main_arg19) = inp V main_arg19 :=
  after_unwritten hW (by decide +kernel) V

end Stages

end Cert.ReferenceIdeal.RefRun

end
-- ==== Proof.RefRun.lean ====
/-
  The reference program's final contents, read one operation at a time.

  The program is a straight line in single-assignment form: every operation writes one buffer of its own and reads
  only buffers written before it (or arguments). So the contents at the end satisfy the program's equations, and the
  buffer of each operation holds the operation's function of what its operand buffers hold at the end. Going through
  the 202 operations in order, `e_<buffer>` says that the buffer holds the stage value `ReadP.val_<buffer>` of the
  arguments' launch contents: each step rewrites its operands' steps and is then the stage's definition. The values
  are shared between steps by name and never expanded into one composed term. `run` is the statement about every
  weakly fair execution.
-/
import proofs.«172658_j14405320311484_1_alg».proof.Proof.ReadP
import proofs.«172658_j14405320311484_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

section Stages

variable (V : Valuation τ sig (Elt F))

theorem e_main_v0 : after (ops (F := F)) V (Proc.devRef .tc main_v0) = ReadP.val_main_v0 (F := F) (inp V main_arg1) := by
  refine (end_unary hW hnd V 0 (lt_of_lt_of_eq (by decide : 0 < 202) ops_len.symm) (lt_of_lt_of_eq (by decide : 0 < 202) W_len.symm) main_arg1 main_v0 _ _ _ (rfl : _ = (unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)) : HloOp τ sig (Elt F))) rfl (by decide +kernel)).trans ?_
  rw [a_main_arg1 V]
  rfl

theorem e_main_v1 : after (ops (F := F)) V (Proc.devRef .tc main_v1) = ReadP.val_main_v1 (F := F) (inp V main_arg1) := by
  refine (end_reshape hW hnd V 1 (lt_of_lt_of_eq (by decide : 1 < 202) ops_len.symm) (lt_of_lt_of_eq (by decide : 1 < 202) W_len.symm) main_v0 main_v1 rfl shapeCasts_S1x1600000_S1600000 _ _ (rfl : _ = (reshape main_v0 main_v1 rfl shapeCasts_S1x1600000_S1600000 : HloOp τ sig (Elt F))) rfl (by decide +kernel)).trans ?_
  rw [e_main_v0 V]
  rfl

theorem e_main_v2 : after (ops (F := F)) V (Proc.devRef .tc main_v2) = ReadP.val_main_v2 (F := F) (inp V main_arg1) := by
  refine (end_unary hW hnd V 2 (lt_of_lt_of_eq (by decide : 2 < 202) ops_len.symm) (lt_of_lt_of_eq (by decide : 2 < 202) W_len.symm) main_arg1 main_v2 _ _ _ (rfl : _ = (unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)) : HloOp τ sig (Elt F))) rfl (by decide +kernel)).trans ?_
  rw [a_main_arg1 V]
  rfl

theorem e_main_v3 : after (ops (F := F)) V (Proc.devRef .tc main_v3) = ReadP.val_main_v3 (F := F) (inp V main_arg1) := by
  refine (end_reshape hW hnd V 3 (lt_of_lt_of_eq (by decide : 3 < 202) ops_len.symm) (lt_of_lt_of_eq (by decide : 3 < 202) W_len.symm) main_v2 main_v3 rfl shapeCasts_S1x1600000_S1600000 _ _ (rfl : _ = (reshape main_v2 main_v3 rfl shapeCasts_S1x1600000_S1600000 : HloOp τ sig (Elt F))) rfl (by decide +kernel)).trans ?_
  rw [e_main_v2 V]
  rfl

theorem e_main_c : after (ops (F := F)) V (Proc.devRef .tc main_c) = ReadP.val_main_c (F := F) := by
  refine (end_nullary hW hnd V 4 (lt_of_lt_of_eq (by decide : 4 < 202) ops_len.symm) (lt_of_lt_of_eq (by decide : 4 < 202) W_len.symm) main_c _ _ (rfl : _ = (nullary main_c (constantI S_ 32 0#32) : HloOp τ sig (Elt F))) rfl).trans ?_
  rfl

theorem e_main_v4 : after (ops (F := F)) V (Proc.devRef .tc main_v4) = ReadP.val_main_v4 (F := F) := by
  refine (end_unary hW hnd V 5 (lt_of_lt_of_eq (by decide : 5 < 202) ops_len.symm) (lt_of_lt_of_eq (by decide : 5 < 202) W_len.symm) main_c main_v4 _ _ _ (rfl : _ = (unary main_c main_v4 (broadcastInDim S1600000 ![] bcast_S_S1600000 : (⟨S_, .i32⟩ : BufTy).Contents (Elt F) → (⟨S1600000, .i32⟩ : BufTy).Contents (Elt F)) : HloOp τ sig (Elt F))) rfl (by decide +kernel)).trans ?_
  rw [e_main_c V]
  rfl

theorem e_main_v5 : after (ops (F := F)) V (Proc.devRef .tc main_v5) = ReadP.val_main_v5 (F := F) (inp V main_arg1) := by
  refine (end_binary hW hnd V 6 (lt_of_lt_of_eq (by decide : 6 < 202) ops_len.symm) (lt_of_lt_of_eq (by decide : 6 < 202) W_len.symm) main_v1 main_v4 main_v5 _ _ _ _ (rfl : _ = (binary main_v1 main_v4 main_v5 (cmpi .slt : (⟨S1600000, .i32⟩ : BufTy).Contents (Elt F) → (⟨S1600000, .i32⟩ : BufTy).Contents (Elt F) → (⟨S1600000, .i1⟩ : BufTy).Contents (Elt F)) : HloOp τ sig (Elt F))) rfl (by decide +kernel) (by decide +kernel)).trans ?_
  rw [e_main_v1 V, e_main_v4 V]
  rfl

theorem e_main_c_0 : after (ops (F := F)) V (Proc.devRef .tc main_c_0) = ReadP.val_main_c_0 (F := F) := by
  refine (end_nullary hW hnd V 7 (lt_of_lt_of_eq (by decide : 7 < 202) ops_len.symm) (lt_of_lt_of_eq (by decide : 7 < 202) W_len.symm) main_c_0 _ _ (rfl : _ = (nullary main_c_0 (constantI S_ 32 100000#32) : HloOp τ sig (Elt F))) rfl).trans ?_
  rfl

theorem e_main_v6 : after (ops (F := F)) V (Proc.devRef .tc main_v6) = ReadP.val_main_v6 (F := F) := by
  refine (end_unary hW hnd V 8 (lt_of_lt_of_eq (by decide : 8 < 202) ops_len.symm) (lt_of_lt_of_eq (by decide : 8 < 202) W_len.symm) main_c_0 main_v6 _ _ _ (rfl : _ = (unary main_c_0 main_v6 (broadcastInDim S1600000 ![] bcast_S_S1600000 : (⟨S_, .i32⟩ : BufTy).Contents (Elt F) → (⟨S1600000, .i32⟩ : BufTy).Contents (Elt F)) : HloOp τ sig (Elt F))) rfl (by decide +kernel)).trans ?_
  rw [e_main_c_0 V]
  rfl

theorem e_main_v7 : after (ops (F := F)) V (Proc.devRef .tc main_v7) = ReadP.val_main_v7 (F := F) (inp V main_arg1) := by
  refine (end_binary hW hnd V 9 (lt_of_lt_of_eq (by decide : 9 < 202) ops_len.symm) (lt_of_lt_of_eq (by decide : 9 < 202) W_len.symm) main_v1 main_v6 main_v7 _ _ _ _ (rfl : _ = (binary main_v1 main_v6 main_v7 (addi : (⟨S1600000, .i32⟩ : BufTy).Contents (Elt F) → (⟨S1600000, .i32⟩ : BufTy).Contents (Elt F) → (⟨S1600000, .i32⟩ : BufTy).Contents (Elt F)) : HloOp τ sig (Elt F))) rfl (by decide +kernel) (by decide +kernel)).trans ?_
  rw [e_main_v1 V, e_main_v6 V]
  rfl

theorem e_main_v8 : after (ops (F := F)) V (Proc.devRef .tc main_v8) = ReadP.val_main_v8 (F := F) (inp V main_arg1) := by
  refine (end_ternary hW hnd V 10 (lt_of_lt_of_eq (by decide : 10 < 202) ops_len.symm) (lt_of_lt_of_eq (by decide : 10 < 202) W_len.symm) main_v5 main_v7 main_v1 main_v8 _ _ _ _ _ (rfl : _ = (ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F))) rfl (by decide +kernel) (by decide +kernel) (by decide +kernel)).trans ?_
  rw [e_main_v5 V, e_main_v7 V, e_main_v1 V]
  rfl

theorem e_main_v9 : after (ops (F := F)) V (Proc.devRef .tc main_v9) = ReadP.val_main_v9 (F := F) (inp V main_arg1) := by
  refine (end_unary hW hnd V 11 (lt_of_lt_of_eq (by decide : 11 < 202) ops_len.symm) (lt_of_lt_of_eq (by decide : 11 < 202) W_len.symm) main_v8 main_v9 _ _ _ (rfl : _ = (unary main_v8 main_v9 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v8 V]
  rfl

theorem e_main_v10 : after (ops (F := F)) V (Proc.devRef .tc main_v10) = ReadP.val_main_v10 (F := F) (inp V main_arg0) (inp V main_arg1) := by
  refine (end_binary hW hnd V 12 (lt_of_lt_of_eq (by decide : 12 < 202) ops_len.symm) (lt_of_lt_of_eq (by decide : 12 < 202) W_len.symm) main_arg0 main_v9 main_v10 _ _ _ _ (rfl : _ = (binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) : HloOp τ sig (Elt F))) rfl (by decide +kernel) (by decide +kernel)).trans ?_
  rw [a_main_arg0 V, e_main_v9 V]
  rfl

theorem e_main_cst : after (ops (F := F)) V (Proc.devRef .tc main_cst) = ReadP.val_main_cst (F := F) := by
  refine (end_nullary hW hnd V 13 (lt_of_lt_of_eq (by decide : 13 < 202) ops_len.symm) (lt_of_lt_of_eq (by decide : 13 < 202) W_len.symm) main_cst _ _ (rfl : _ = (nullary main_cst (constant S_ .f32 0x00000000#32) : HloOp τ sig (Elt F))) rfl).trans ?_
  rfl

theorem e_main_v11 : after (ops (F := F)) V (Proc.devRef .tc main_v11) = ReadP.val_main_v11 (F := F) := by
  refine (end_unary hW hnd V 14 (lt_of_lt_of_eq (by decide : 14 < 202) ops_len.symm) (lt_of_lt_of_eq (by decide : 14 < 202) W_len.symm) main_cst main_v11 _ _ _ (rfl : _ = (unary main_cst main_v11 (broadcastInDim S100000x32 ![] bcast_S_S100000x32 : (⟨S_, .f32⟩ : BufTy).Contents (Elt F) → (⟨S100000x32, .f32⟩ : BufTy).Contents (Elt F)) : HloOp τ sig (Elt F))) rfl (by decide +kernel)).trans ?_
  rw [e_main_cst V]
  rfl

theorem e_main_v12 : after (ops (F := F)) V (Proc.devRef .tc main_v12) = ReadP.val_main_v12 (F := F) (inp V main_arg1) := by
  refine (end_unary hW hnd V 15 (lt_of_lt_of_eq (by decide : 15 < 202) ops_len.symm) (lt_of_lt_of_eq (by decide : 15 < 202) W_len.symm) main_v3 main_v12 _ _ _ (rfl : _ = (unary main_v3 main_v12 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v3 V]
  rfl

theorem e_main_v13 : after (ops (F := F)) V (Proc.devRef .tc main_v13) = ReadP.val_main_v13 (F := F) (inp V main_arg0) (inp V main_arg1) := by
  refine (end_ternary hW hnd V 16 (lt_of_lt_of_eq (by decide : 16 < 202) ops_len.symm) (lt_of_lt_of_eq (by decide : 16 < 202) W_len.symm) main_v11 main_v12 main_v10 main_v13 _ _ _ _ _ (rfl : _ = (ternary main_v11 main_v12 main_v10 main_v13 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) : HloOp τ sig (Elt F))) rfl (by decide +kernel) (by decide +kernel) (by decide +kernel)).trans ?_
  rw [e_main_v11 V, e_main_v12 V, e_main_v10 V]
  rfl

theorem e_main_cst_1 : after (ops (F := F)) V (Proc.devRef .tc main_cst_1) = ReadP.val_main_cst_1 (F := F) := by
  refine (end_nullary hW hnd V 17 (lt_of_lt_of_eq (by decide : 17 < 202) ops_len.symm) (lt_of_lt_of_eq (by decide : 17 < 202) W_len.symm) main_cst_1 _ _ (rfl : _ = (nullary main_cst_1 (constant S_ .f32 0x3F800000#32) : HloOp τ sig (Elt F))) rfl).trans ?_
  rfl

theorem e_main_v14 : after (ops (F := F)) V (Proc.devRef .tc main_v14) = ReadP.val_main_v14 (F := F) := by
  refine (end_unary hW hnd V 18 (lt_of_lt_of_eq (by decide : 18 < 202) ops_len.symm) (lt_of_lt_of_eq (by decide : 18 < 202) W_len.symm) main_cst_1 main_v14 _ _ _ (rfl : _ = (unary main_cst_1 main_v14 (broadcastInDim S1600000 ![] bcast_S_S1600000 : (⟨S_, .f32⟩ : BufTy).Contents (Elt F) → (⟨S1600000, .f32⟩ : BufTy).Contents (Elt F)) : HloOp τ sig (Elt F))) rfl (by decide +kernel)).trans ?_
  rw [e_main_cst_1 V]
  rfl

theorem e_main_cst_2 : after (ops (F := F)) V (Proc.devRef .tc main_cst_2) = ReadP.val_main_cst_2 (F := F) := by
  refine (end_nullary hW hnd V 19 (lt_of_lt_of_eq (by decide : 19 < 202) ops_len.symm) (lt_of_lt_of_eq (by decide : 19 < 202) W_len.symm) main_cst_2 _ _ (rfl : _ = (nullary main_cst_2 (constant S_ .f32 0x00000000#32) : HloOp τ sig (Elt F))) rfl).trans ?_
  rfl

theorem e_main_v15 : after (ops (F := F)) V (Proc.devRef .tc main_v15) = ReadP.val_main_v15 (F := F) := by
  refine (end_unary hW hnd V 20 (lt_of_lt_of_eq (by decide : 20 < 202) ops_len.symm) (lt_of_lt_of_eq (by decide : 20 < 202) W_len.symm) main_cst_2 main_v15 _ _ _ (rfl : _ = (unary main_cst_2 main_v15 (broadcastInDim S100000 ![] bcast_S_S100000 : (⟨S_, .f32⟩ : BufTy).Contents (Elt F) → (⟨S100000, .f32⟩ : BufTy).Contents (Elt F)) : HloOp τ sig (Elt F))) rfl (by decide +kernel)).trans ?_
  rw [e_main_cst_2 V]
  rfl

theorem e_main_v16 : after (ops (F := F)) V (Proc.devRef .tc main_v16) = ReadP.val_main_v16 (F := F) (inp V main_arg1) := by
  refine (end_unary hW hnd V 21 (lt_of_lt_of_eq (by decide : 21 < 202) ops_len.symm) (lt_of_lt_of_eq (by decide : 21 < 202) W_len.symm) main_v3 main_v16 _ _ _ (rfl : _ = (unary main_v3 main_v16 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v3 V]
  rfl

theorem e_main_v17 : after (ops (F := F)) V (Proc.devRef .tc main_v17) = ReadP.val_main_v17 (F := F) (inp V main_arg1) := by
  refine (end_ternary hW hnd V 22 (lt_of_lt_of_eq (by decide : 22 < 202) ops_len.symm) (lt_of_lt_of_eq (by decide : 22 < 202) W_len.symm) main_v15 main_v16 main_v14 main_v17 _ _ _ _ _ (rfl : _ = (ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) : HloOp τ sig (Elt F))) rfl (by decide +kernel) (by decide +kernel) (by decide +kernel)).trans ?_
  rw [e_main_v15 V, e_main_v16 V, e_main_v14 V]
  rfl

theorem e_main_cst_3 : after (ops (F := F)) V (Proc.devRef .tc main_cst_3) = ReadP.val_main_cst_3 (F := F) := by
  refine (end_nullary hW hnd V 23 (lt_of_lt_of_eq (by decide : 23 < 202) ops_len.symm) (lt_of_lt_of_eq (by decide : 23 < 202) W_len.symm) main_cst_3 _ _ (rfl : _ = (nullary main_cst_3 (constant S_ .f32 0x3F800000#32) : HloOp τ sig (Elt F))) rfl).trans ?_
  rfl

theorem e_main_v18 : after (ops (F := F)) V (Proc.devRef .tc main_v18) = ReadP.val_main_v18 (F := F) := by
  refine (end_unary hW hnd V 24 (lt_of_lt_of_eq (by decide : 24 < 202) ops_len.symm) (lt_of_lt_of_eq (by decide : 24 < 202) W_len.symm) main_cst_3 main_v18 _ _ _ (rfl : _ = (unary main_cst_3 main_v18 (broadcastInDim S100000 ![] bcast_S_S100000 : (⟨S_, .f32⟩ : BufTy).Contents (Elt F) → (⟨S100000, .f32⟩ : BufTy).Contents (Elt F)) : HloOp τ sig (Elt F))) rfl (by decide +kernel)).trans ?_
  rw [e_main_cst_3 V]
  rfl

theorem e_main_v19 : after (ops (F := F)) V (Proc.devRef .tc main_v19) = ReadP.val_main_v19 (F := F) (inp V main_arg1) := by
  refine (end_binary hW hnd V 25 (lt_of_lt_of_eq (by decide : 25 < 202) ops_len.symm) (lt_of_lt_of_eq (by decide : 25 < 202) W_len.symm) main_v17 main_v18 main_v19 _ _ _ _ (rfl : _ = (binary main_v17 main_v18 main_v19 (maximumf : (⟨S100000, .f32⟩ : BufTy).Contents (Elt F) → (⟨S100000, .f32⟩ : BufTy).Contents (Elt F) → (⟨S100000, .f32⟩ : BufTy).Contents (Elt F)) : HloOp τ sig (Elt F))) rfl (by decide +kernel) (by decide +kernel)).trans ?_
  rw [e_main_v17 V, e_main_v18 V]
  rfl

theorem e_main_v20 : after (ops (F := F)) V (Proc.devRef .tc main_v20) = ReadP.val_main_v20 (F := F) (inp V main_arg1) := by
  refine (end_unary hW hnd V 26 (lt_of_lt_of_eq (by decide : 26 < 202) ops_len.symm) (lt_of_lt_of_eq (by decide : 26 < 202) W_len.symm) main_v19 main_v20 _ _ _ (rfl : _ = (unary main_v19 main_v20 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v19 V]
  rfl

theorem e_main_v21 : after (ops (F := F)) V (Proc.devRef .tc main_v21) = ReadP.val_main_v21 (F := F) (inp V main_arg1) := by
  refine (end_unary hW hnd V 27 (lt_of_lt_of_eq (by decide : 27 < 202) ops_len.symm) (lt_of_lt_of_eq (by decide : 27 < 202) W_len.symm) main_v20 main_v21 _ _ _ (rfl : _ = (unary main_v20 main_v21 (broadcastInDim S100000x32 ![0, 1] bcast_S100000x1_S100000x32_0_1 : (⟨S100000x1, .f32⟩ : BufTy).Contents (Elt F) → (⟨S100000x32, .f32⟩ : BufTy).Contents (Elt F)) : HloOp τ sig (Elt F))) rfl (by decide +kernel)).trans ?_
  rw [e_main_v20 V]
  rfl

theorem e_main_v22 : after (ops (F := F)) V (Proc.devRef .tc main_v22) = ReadP.val_main_v22 (F := F) (inp V main_arg0) (inp V main_arg1) := by
  refine (end_binary hW hnd V 28 (lt_of_lt_of_eq (by decide : 28 < 202) ops_len.symm) (lt_of_lt_of_eq (by decide : 28 < 202) W_len.symm) main_v13 main_v21 main_v22 _ _ _ _ (rfl : _ = (binary main_v13 main_v21 main_v22 (Host.divf : (⟨S100000x32, .f32⟩ : BufTy).Contents (Elt F) → (⟨S100000x32, .f32⟩ : BufTy).Contents (Elt F) → (⟨S100000x32, .f32⟩ : BufTy).Contents (Elt F)) : HloOp τ sig (Elt F))) rfl (by decide +kernel) (by decide +kernel)).trans ?_
  rw [e_main_v13 V, e_main_v21 V]
  rfl

theorem e_main_v23 : after (ops (F := F)) V (Proc.devRef .tc main_v23) = ReadP.val_main_v23 (F := F) (inp V main_arg0) (inp V main_arg1) (inp V main_arg2) := by
  refine (end_binary hW hnd V 29 (lt_of_lt_of_eq (by decide : 29 < 202) ops_len.symm) (lt_of_lt_of_eq (by decide : 29 < 202) W_len.symm) main_v22 main_arg2 main_v23 _ _ _ _ (rfl : _ = (binary main_v22 main_arg2 main_v23 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)) : HloOp τ sig (Elt F))) rfl (by decide +kernel) (by decide +kernel)).trans ?_
  rw [e_main_v22 V, a_main_arg2 V]
  rfl

theorem e_main_v24 : after (ops (F := F)) V (Proc.devRef .tc main_v24) = ReadP.val_main_v24 (F := F) (inp V main_arg3) := by
  refine (end_unary hW hnd V 30 (lt_of_lt_of_eq (by decide : 30 < 202) ops_len.symm) (lt_of_lt_of_eq (by decide : 30 < 202) W_len.symm) main_arg3 main_v24 _ _ _ (rfl : _ = (unary main_arg3 main_v24 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg3 V]
  rfl

theorem e_main_v25 : after (ops (F := F)) V (Proc.devRef .tc main_v25) = ReadP.val_main_v25 (F := F) (inp V main_arg3) := by
  refine (end_unary hW hnd V 31 (lt_of_lt_of_eq (by decide : 31 < 202) ops_len.symm) (lt_of_lt_of_eq (by decide : 31 < 202) W_len.symm) main_v24 main_v25 _ _ _ (rfl : _ = (unary main_v24 main_v25 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v24 V]
  rfl

theorem e_main_v26 : after (ops (F := F)) V (Proc.devRef .tc main_v26) = ReadP.val_main_v26 (F := F) (inp V main_arg0) (inp V main_arg1) (inp V main_arg2) (inp V main_arg3) := by
  refine (end_binary hW hnd V 32 (lt_of_lt_of_eq (by decide : 32 < 202) ops_len.symm) (lt_of_lt_of_eq (by decide : 32 < 202) W_len.symm) main_v23 main_v25 main_v26 _ _ _ _ (rfl : _ = (binary main_v23 main_v25 main_v26 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v23 V, e_main_v25 V]
  rfl

theorem e_main_v27 : after (ops (F := F)) V (Proc.devRef .tc main_v27) = ReadP.val_main_v27 (F := F) (inp V main_arg0) (inp V main_arg4) := by
  refine (end_binary hW hnd V 33 (lt_of_lt_of_eq (by decide : 33 < 202) ops_len.symm) (lt_of_lt_of_eq (by decide : 33 < 202) W_len.symm) main_arg0 main_arg4 main_v27 _ _ _ _ (rfl : _ = (binary main_arg0 main_arg4 main_v27 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)) : HloOp τ sig (Elt F))) rfl (by decide +kernel) (by decide +kernel)).trans ?_
  rw [a_main_arg0 V, a_main_arg4 V]
  rfl

theorem e_main_v28 : after (ops (F := F)) V (Proc.devRef .tc main_v28) = ReadP.val_main_v28 (F := F) (inp V main_arg0) (inp V main_arg1) (inp V main_arg2) (inp V main_arg3) (inp V main_arg4) := by
  refine (end_binary hW hnd V 34 (lt_of_lt_of_eq (by decide : 34 < 202) ops_len.symm) (lt_of_lt_of_eq (by decide : 34 < 202) W_len.symm) main_v26 main_v27 main_v28 _ _ _ _ (rfl : _ = (binary main_v26 main_v27 main_v28 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v26 V, e_main_v27 V]
  rfl

theorem e_main_cst_4 : after (ops (F := F)) V (Proc.devRef .tc main_cst_4) = ReadP.val_main_cst_4 (F := F) := by
  refine (end_nullary hW hnd V 35 (lt_of_lt_of_eq (by decide : 35 < 202) ops_len.symm) (lt_of_lt_of_eq (by decide : 35 < 202) W_len.symm) main_cst_4 _ _ (rfl : _ = (nullary main_cst_4 (constant S_ .f32 0x00000000#32) : HloOp τ sig (Elt F))) rfl).trans ?_
  rfl

theorem e_main_v29 : after (ops (F := F)) V (Proc.devRef .tc main_v29) = ReadP.val_main_v29 (F := F) (inp V main_arg0) (inp V main_arg1) (inp V main_arg2) (inp V main_arg3) (inp V main_arg4) := by
  refine (end_binary hW hnd V 36 (lt_of_lt_of_eq (by decide : 36 < 202) ops_len.symm) (lt_of_lt_of_eq (by decide : 36 < 202) W_len.symm) main_v28 main_cst_4 main_v29 _ _ _ _ (rfl : _ = (binary main_v28 main_cst_4 main_v29 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) : HloOp τ sig (Elt F))) rfl (by decide +kernel) (by decide +kernel)).trans ?_
  rw [e_main_v28 V, e_main_cst_4 V]
  rfl

theorem e_main_v30 : after (ops (F := F)) V (Proc.devRef .tc main_v30) = ReadP.val_main_v30 (F := F) (inp V main_arg0) (inp V main_arg1) (inp V main_arg2) (inp V main_arg3) (inp V main_arg4) := by
  refine (end_unary hW hnd V 37 (lt_of_lt_of_eq (by decide : 37 < 202) ops_len.symm) (lt_of_lt_of_eq (by decide : 37 < 202) W_len.symm) main_v29 main_v30 _ _ _ (rfl : _ = (unary main_v29 main_v30 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v29 V]
  rfl

theorem e_main_cst_5 : after (ops (F := F)) V (Proc.devRef .tc main_cst_5) = ReadP.val_main_cst_5 (F := F) := by
  refine (end_nullary hW hnd V 38 (lt_of_lt_of_eq (by decide : 38 < 202) ops_len.symm) (lt_of_lt_of_eq (by decide : 38 < 202) W_len.symm) main_cst_5 _ _ (rfl : _ = (nullary main_cst_5 (constant S_ .f32 0x43000000#32) : HloOp τ sig (Elt F))) rfl).trans ?_
  rfl

theorem e_main_v31 : after (ops (F := F)) V (Proc.devRef .tc main_v31) = ReadP.val_main_v31 (F := F) := by
  refine (end_unary hW hnd V 39 (lt_of_lt_of_eq (by decide : 39 < 202) ops_len.symm) (lt_of_lt_of_eq (by decide : 39 < 202) W_len.symm) main_cst_5 main_v31 _ _ _ (rfl : _ = (unary main_cst_5 main_v31 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_5 V]
  rfl

theorem e_main_v32 : after (ops (F := F)) V (Proc.devRef .tc main_v32) = ReadP.val_main_v32 (F := F) (inp V main_arg0) (inp V main_arg1) (inp V main_arg2) (inp V main_arg3) (inp V main_arg4) := by
  refine (end_binary hW hnd V 40 (lt_of_lt_of_eq (by decide : 40 < 202) ops_len.symm) (lt_of_lt_of_eq (by decide : 40 < 202) W_len.symm) main_v30 main_v31 main_v32 _ _ _ _ (rfl : _ = (binary main_v30 main_v31 main_v32 (Host.divf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v30 V, e_main_v31 V]
  rfl

theorem e_main_v33 : after (ops (F := F)) V (Proc.devRef .tc main_v33) = ReadP.val_main_v33 (F := F) (inp V main_arg0) (inp V main_arg1) (inp V main_arg2) (inp V main_arg3) (inp V main_arg4) := by
  refine (end_unary hW hnd V 41 (lt_of_lt_of_eq (by decide : 41 < 202) ops_len.symm) (lt_of_lt_of_eq (by decide : 41 < 202) W_len.symm) main_v32 main_v33 _ _ _ (rfl : _ = (unary main_v32 main_v33 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v32 V]
  rfl

theorem e_main_v34 : after (ops (F := F)) V (Proc.devRef .tc main_v34) = ReadP.val_main_v34 (F := F) (inp V main_arg0) (inp V main_arg1) (inp V main_arg2) (inp V main_arg3) (inp V main_arg4) := by
  refine (end_binary hW hnd V 42 (lt_of_lt_of_eq (by decide : 42 < 202) ops_len.symm) (lt_of_lt_of_eq (by decide : 42 < 202) W_len.symm) main_v28 main_v33 main_v34 _ _ _ _ (rfl : _ = (binary main_v28 main_v33 main_v34 (subf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v28 V, e_main_v33 V]
  rfl

theorem e_main_v35 : after (ops (F := F)) V (Proc.devRef .tc main_v35) = ReadP.val_main_v35 (F := F) (inp V main_arg0) (inp V main_arg1) (inp V main_arg2) (inp V main_arg3) (inp V main_arg4) := by
  refine (end_binary hW hnd V 43 (lt_of_lt_of_eq (by decide : 43 < 202) ops_len.symm) (lt_of_lt_of_eq (by decide : 43 < 202) W_len.symm) main_v34 main_v34 main_v35 _ _ _ _ (rfl : _ = (binary main_v34 main_v34 main_v35 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v34 V]
  rfl

theorem e_main_cst_6 : after (ops (F := F)) V (Proc.devRef .tc main_cst_6) = ReadP.val_main_cst_6 (F := F) := by
  refine (end_nullary hW hnd V 44 (lt_of_lt_of_eq (by decide : 44 < 202) ops_len.symm) (lt_of_lt_of_eq (by decide : 44 < 202) W_len.symm) main_cst_6 _ _ (rfl : _ = (nullary main_cst_6 (constant S_ .f32 0x00000000#32) : HloOp τ sig (Elt F))) rfl).trans ?_
  rfl

theorem e_main_v36 : after (ops (F := F)) V (Proc.devRef .tc main_v36) = ReadP.val_main_v36 (F := F) (inp V main_arg0) (inp V main_arg1) (inp V main_arg2) (inp V main_arg3) (inp V main_arg4) := by
  refine (end_binary hW hnd V 45 (lt_of_lt_of_eq (by decide : 45 < 202) ops_len.symm) (lt_of_lt_of_eq (by decide : 45 < 202) W_len.symm) main_v35 main_cst_6 main_v36 _ _ _ _ (rfl : _ = (binary main_v35 main_cst_6 main_v36 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) : HloOp τ sig (Elt F))) rfl (by decide +kernel) (by decide +kernel)).trans ?_
  rw [e_main_v35 V, e_main_cst_6 V]
  rfl

theorem e_main_v37 : after (ops (F := F)) V (Proc.devRef .tc main_v37) = ReadP.val_main_v37 (F := F) (inp V main_arg0) (inp V main_arg1) (inp V main_arg2) (inp V main_arg3) (inp V main_arg4) := by
  refine (end_unary hW hnd V 46 (lt_of_lt_of_eq (by decide : 46 < 202) ops_len.symm) (lt_of_lt_of_eq (by decide : 46 < 202) W_len.symm) main_v36 main_v37 _ _ _ (rfl : _ = (unary main_v36 main_v37 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v36 V]
  rfl

theorem e_main_cst_7 : after (ops (F := F)) V (Proc.devRef .tc main_cst_7) = ReadP.val_main_cst_7 (F := F) := by
  refine (end_nullary hW hnd V 47 (lt_of_lt_of_eq (by decide : 47 < 202) ops_len.symm) (lt_of_lt_of_eq (by decide : 47 < 202) W_len.symm) main_cst_7 _ _ (rfl : _ = (nullary main_cst_7 (constant S_ .f32 0x43000000#32) : HloOp τ sig (Elt F))) rfl).trans ?_
  rfl

theorem e_main_v38 : after (ops (F := F)) V (Proc.devRef .tc main_v38) = ReadP.val_main_v38 (F := F) := by
  refine (end_unary hW hnd V 48 (lt_of_lt_of_eq (by decide : 48 < 202) ops_len.symm) (lt_of_lt_of_eq (by decide : 48 < 202) W_len.symm) main_cst_7 main_v38 _ _ _ (rfl : _ = (unary main_cst_7 main_v38 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_7 V]
  rfl

theorem e_main_v39 : after (ops (F := F)) V (Proc.devRef .tc main_v39) = ReadP.val_main_v39 (F := F) (inp V main_arg0) (inp V main_arg1) (inp V main_arg2) (inp V main_arg3) (inp V main_arg4) := by
  refine (end_binary hW hnd V 49 (lt_of_lt_of_eq (by decide : 49 < 202) ops_len.symm) (lt_of_lt_of_eq (by decide : 49 < 202) W_len.symm) main_v37 main_v38 main_v39 _ _ _ _ (rfl : _ = (binary main_v37 main_v38 main_v39 (Host.divf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v37 V, e_main_v38 V]
  rfl

theorem e_main_v40 : after (ops (F := F)) V (Proc.devRef .tc main_v40) = ReadP.val_main_v40 (F := F) (inp V main_arg0) (inp V main_arg1) (inp V main_arg2) (inp V main_arg3) (inp V main_arg4) := by
  refine (end_unary hW hnd V 50 (lt_of_lt_of_eq (by decide : 50 < 202) ops_len.symm) (lt_of_lt_of_eq (by decide : 50 < 202) W_len.symm) main_v32 main_v40 _ _ _ (rfl : _ = (unary main_v32 main_v40 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v32 V]
  rfl

theorem e_main_v41 : after (ops (F := F)) V (Proc.devRef .tc main_v41) = ReadP.val_main_v41 (F := F) (inp V main_arg0) (inp V main_arg1) (inp V main_arg2) (inp V main_arg3) (inp V main_arg4) := by
  refine (end_binary hW hnd V 51 (lt_of_lt_of_eq (by decide : 51 < 202) ops_len.symm) (lt_of_lt_of_eq (by decide : 51 < 202) W_len.symm) main_v28 main_v40 main_v41 _ _ _ _ (rfl : _ = (binary main_v28 main_v40 main_v41 (subf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v28 V, e_main_v40 V]
  rfl

theorem e_main_cst_8 : after (ops (F := F)) V (Proc.devRef .tc main_cst_8) = ReadP.val_main_cst_8 (F := F) := by
  refine (end_nullary hW hnd V 52 (lt_of_lt_of_eq (by decide : 52 < 202) ops_len.symm) (lt_of_lt_of_eq (by decide : 52 < 202) W_len.symm) main_cst_8 _ _ (rfl : _ = (nullary main_cst_8 (constant S_ .f32 0x3727C5AC#32) : HloOp τ sig (Elt F))) rfl).trans ?_
  rfl

theorem e_main_v42 : after (ops (F := F)) V (Proc.devRef .tc main_v42) = ReadP.val_main_v42 (F := F) := by
  refine (end_unary hW hnd V 53 (lt_of_lt_of_eq (by decide : 53 < 202) ops_len.symm) (lt_of_lt_of_eq (by decide : 53 < 202) W_len.symm) main_cst_8 main_v42 _ _ _ (rfl : _ = (unary main_cst_8 main_v42 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_8 V]
  rfl

theorem e_main_v43 : after (ops (F := F)) V (Proc.devRef .tc main_v43) = ReadP.val_main_v43 (F := F) (inp V main_arg0) (inp V main_arg1) (inp V main_arg2) (inp V main_arg3) (inp V main_arg4) := by
  refine (end_binary hW hnd V 54 (lt_of_lt_of_eq (by decide : 54 < 202) ops_len.symm) (lt_of_lt_of_eq (by decide : 54 < 202) W_len.symm) main_v39 main_v42 main_v43 _ _ _ _ (rfl : _ = (binary main_v39 main_v42 main_v43 (addf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v39 V, e_main_v42 V]
  rfl

theorem e_main_v44 : after (ops (F := F)) V (Proc.devRef .tc main_v44) = ReadP.val_main_v44 (F := F) (inp V main_arg0) (inp V main_arg1) (inp V main_arg2) (inp V main_arg3) (inp V main_arg4) := by
  refine (end_unary hW hnd V 55 (lt_of_lt_of_eq (by decide : 55 < 202) ops_len.symm) (lt_of_lt_of_eq (by decide : 55 < 202) W_len.symm) main_v43 main_v44 _ _ _ (rfl : _ = (unary main_v43 main_v44 (Host.rsqrt : (⟨S100000x1, .f32⟩ : BufTy).Contents (Elt F) → (⟨S100000x1, .f32⟩ : BufTy).Contents (Elt F)) : HloOp τ sig (Elt F))) rfl (by decide +kernel)).trans ?_
  rw [e_main_v43 V]
  rfl

theorem e_main_v45 : after (ops (F := F)) V (Proc.devRef .tc main_v45) = ReadP.val_main_v45 (F := F) (inp V main_arg0) (inp V main_arg1) (inp V main_arg2) (inp V main_arg3) (inp V main_arg4) := by
  refine (end_unary hW hnd V 56 (lt_of_lt_of_eq (by decide : 56 < 202) ops_len.symm) (lt_of_lt_of_eq (by decide : 56 < 202) W_len.symm) main_v44 main_v45 _ _ _ (rfl : _ = (unary main_v44 main_v45 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v44 V]
  rfl

theorem e_main_v46 : after (ops (F := F)) V (Proc.devRef .tc main_v46) = ReadP.val_main_v46 (F := F) (inp V main_arg0) (inp V main_arg1) (inp V main_arg2) (inp V main_arg3) (inp V main_arg4) := by
  refine (end_binary hW hnd V 57 (lt_of_lt_of_eq (by decide : 57 < 202) ops_len.symm) (lt_of_lt_of_eq (by decide : 57 < 202) W_len.symm) main_v41 main_v45 main_v46 _ _ _ _ (rfl : _ = (binary main_v41 main_v45 main_v46 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v41 V, e_main_v45 V]
  rfl

theorem e_main_v47 : after (ops (F := F)) V (Proc.devRef .tc main_v47) = ReadP.val_main_v47 (F := F) (inp V main_arg5) := by
  refine (end_unary hW hnd V 58 (lt_of_lt_of_eq (by decide : 58 < 202) ops_len.symm) (lt_of_lt_of_eq (by decide : 58 < 202) W_len.symm) main_arg5 main_v47 _ _ _ (rfl : _ = (unary main_arg5 main_v47 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg5 V]
  rfl

theorem e_main_v48 : after (ops (F := F)) V (Proc.devRef .tc main_v48) = ReadP.val_main_v48 (F := F) (inp V main_arg5) := by
  refine (end_unary hW hnd V 59 (lt_of_lt_of_eq (by decide : 59 < 202) ops_len.symm) (lt_of_lt_of_eq (by decide : 59 < 202) W_len.symm) main_v47 main_v48 _ _ _ (rfl : _ = (unary main_v47 main_v48 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v47 V]
  rfl

theorem e_main_v49 : after (ops (F := F)) V (Proc.devRef .tc main_v49) = ReadP.val_main_v49 (F := F) (inp V main_arg0) (inp V main_arg1) (inp V main_arg2) (inp V main_arg3) (inp V main_arg4) (inp V main_arg5) := by
  refine (end_binary hW hnd V 60 (lt_of_lt_of_eq (by decide : 60 < 202) ops_len.symm) (lt_of_lt_of_eq (by decide : 60 < 202) W_len.symm) main_v46 main_v48 main_v49 _ _ _ _ (rfl : _ = (binary main_v46 main_v48 main_v49 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v46 V, e_main_v48 V]
  rfl

theorem e_main_v50 : after (ops (F := F)) V (Proc.devRef .tc main_v50) = ReadP.val_main_v50 (F := F) (inp V main_arg6) := by
  refine (end_unary hW hnd V 61 (lt_of_lt_of_eq (by decide : 61 < 202) ops_len.symm) (lt_of_lt_of_eq (by decide : 61 < 202) W_len.symm) main_arg6 main_v50 _ _ _ (rfl : _ = (unary main_arg6 main_v50 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg6 V]
  rfl

theorem e_main_v51 : after (ops (F := F)) V (Proc.devRef .tc main_v51) = ReadP.val_main_v51 (F := F) (inp V main_arg6) := by
  refine (end_unary hW hnd V 62 (lt_of_lt_of_eq (by decide : 62 < 202) ops_len.symm) (lt_of_lt_of_eq (by decide : 62 < 202) W_len.symm) main_v50 main_v51 _ _ _ (rfl : _ = (unary main_v50 main_v51 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v50 V]
  rfl

theorem e_main_v52 : after (ops (F := F)) V (Proc.devRef .tc main_v52) = ReadP.val_main_v52 (F := F) (inp V main_arg0) (inp V main_arg1) (inp V main_arg2) (inp V main_arg3) (inp V main_arg4) (inp V main_arg5) (inp V main_arg6) := by
  refine (end_binary hW hnd V 63 (lt_of_lt_of_eq (by decide : 63 < 202) ops_len.symm) (lt_of_lt_of_eq (by decide : 63 < 202) W_len.symm) main_v49 main_v51 main_v52 _ _ _ _ (rfl : _ = (binary main_v49 main_v51 main_v52 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v49 V, e_main_v51 V]
  rfl

theorem e_main_call0_cst : after (ops (F := F)) V (Proc.devRef .tc main_call0_cst) = ReadP.val_main_call0_cst (F := F) := by
  refine (end_nullary hW hnd V 64 (lt_of_lt_of_eq (by decide : 64 < 202) ops_len.symm) (lt_of_lt_of_eq (by decide : 64 < 202) W_len.symm) main_call0_cst _ _ (rfl : _ = (TRef.nullary (TRef.of (T := ⟨S_, .f32⟩) main_call0_cst) (constant S_ .f32 0x00000000#32) : HloOp τ sig (Elt F))) rfl).trans ?_
  rfl

theorem e_main_call0_v0 : after (ops (F := F)) V (Proc.devRef .tc main_call0_v0) = ReadP.val_main_call0_v0 (F := F) := by
  refine (end_unary hW hnd V 65 (lt_of_lt_of_eq (by decide : 65 < 202) ops_len.symm) (lt_of_lt_of_eq (by decide : 65 < 202) W_len.symm) main_call0_cst main_call0_v0 _ _ _ (rfl : _ = (TRef.unary (TRef.of (T := ⟨S_, .f32⟩) main_call0_cst) (TRef.of (T := ⟨S100000x128, .f32⟩) main_call0_v0) (broadcastInDim S100000x128 ![] bcast_S_S100000x128) : HloOp τ sig (Elt F))) rfl (by decide +kernel)).trans ?_
  rw [e_main_call0_cst V]
  rfl

theorem e_main_v53 : after (ops (F := F)) V (Proc.devRef .tc main_v53) = ReadP.val_main_v53 (F := F) (inp V main_arg0) (inp V main_arg1) (inp V main_arg2) (inp V main_arg3) (inp V main_arg4) (inp V main_arg5) (inp V main_arg6) := by
  refine (end_binary hW hnd V 66 (lt_of_lt_of_eq (by decide : 66 < 202) ops_len.symm) (lt_of_lt_of_eq (by decide : 66 < 202) W_len.symm) main_v52 main_call0_v0 main_v53 _ _ _ _ (rfl : _ = (TRef.binary (TRef.of (T := ⟨S100000x128, .f32⟩) main_v52) (TRef.of (T := ⟨S100000x128, .f32⟩) main_call0_v0) (TRef.of (T := ⟨S100000x128, .f32⟩) main_v53) maximumf : HloOp τ sig (Elt F))) rfl (by decide +kernel) (by decide +kernel)).trans ?_
  rw [e_main_v52 V, e_main_call0_v0 V]
  rfl

theorem e_main_v54 : after (ops (F := F)) V (Proc.devRef .tc main_v54) = ReadP.val_main_v54 (F := F) (inp V main_arg0) (inp V main_arg17) := by
  refine (end_binary hW hnd V 67 (lt_of_lt_of_eq (by decide : 67 < 202) ops_len.symm) (lt_of_lt_of_eq (by decide : 67 < 202) W_len.symm) main_arg0 main_arg17 main_v54 _ _ _ _ (rfl : _ = (binary main_arg0 main_arg17 main_v54 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)) : HloOp τ sig (Elt F))) rfl (by decide +kernel) (by decide +kernel)).trans ?_
  rw [a_main_arg0 V, a_main_arg17 V]
  rfl

theorem e_main_v55 : after (ops (F := F)) V (Proc.devRef .tc main_v55) = ReadP.val_main_v55 (F := F) (inp V main_arg0) (inp V main_arg1) (inp V main_arg2) (inp V main_arg3) (inp V main_arg4) (inp V main_arg5) (inp V main_arg6) (inp V main_arg17) := by
  refine (end_binary hW hnd V 68 (lt_of_lt_of_eq (by decide : 68 < 202) ops_len.symm) (lt_of_lt_of_eq (by decide : 68 < 202) W_len.symm) main_v53 main_v54 main_v55 _ _ _ _ (rfl : _ = (binary main_v53 main_v54 main_v55 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v53 V, e_main_v54 V]
  rfl

theorem e_main_c_9 : after (ops (F := F)) V (Proc.devRef .tc main_c_9) = ReadP.val_main_c_9 (F := F) := by
  refine (end_nullary hW hnd V 69 (lt_of_lt_of_eq (by decide : 69 < 202) ops_len.symm) (lt_of_lt_of_eq (by decide : 69 < 202) W_len.symm) main_c_9 _ _ (rfl : _ = (nullary main_c_9 (constantI S_ 32 0#32) : HloOp τ sig (Elt F))) rfl).trans ?_
  rfl

theorem e_main_v56 : after (ops (F := F)) V (Proc.devRef .tc main_v56) = ReadP.val_main_v56 (F := F) := by
  refine (end_unary hW hnd V 70 (lt_of_lt_of_eq (by decide : 70 < 202) ops_len.symm) (lt_of_lt_of_eq (by decide : 70 < 202) W_len.symm) main_c_9 main_v56 _ _ _ (rfl : _ = (unary main_c_9 main_v56 (broadcastInDim S1600000 ![] bcast_S_S1600000 : (⟨S_, .i32⟩ : BufTy).Contents (Elt F) → (⟨S1600000, .i32⟩ : BufTy).Contents (Elt F)) : HloOp τ sig (Elt F))) rfl (by decide +kernel)).trans ?_
  rw [e_main_c_9 V]
  rfl

theorem e_main_v57 : after (ops (F := F)) V (Proc.devRef .tc main_v57) = ReadP.val_main_v57 (F := F) (inp V main_arg1) := by
  refine (end_binary hW hnd V 71 (lt_of_lt_of_eq (by decide : 71 < 202) ops_len.symm) (lt_of_lt_of_eq (by decide : 71 < 202) W_len.symm) main_v1 main_v56 main_v57 _ _ _ _ (rfl : _ = (binary main_v1 main_v56 main_v57 (cmpi .slt : (⟨S1600000, .i32⟩ : BufTy).Contents (Elt F) → (⟨S1600000, .i32⟩ : BufTy).Contents (Elt F) → (⟨S1600000, .i1⟩ : BufTy).Contents (Elt F)) : HloOp τ sig (Elt F))) rfl (by decide +kernel) (by decide +kernel)).trans ?_
  rw [e_main_v1 V, e_main_v56 V]
  rfl

theorem e_main_c_10 : after (ops (F := F)) V (Proc.devRef .tc main_c_10) = ReadP.val_main_c_10 (F := F) := by
  refine (end_nullary hW hnd V 72 (lt_of_lt_of_eq (by decide : 72 < 202) ops_len.symm) (lt_of_lt_of_eq (by decide : 72 < 202) W_len.symm) main_c_10 _ _ (rfl : _ = (nullary main_c_10 (constantI S_ 32 100000#32) : HloOp τ sig (Elt F))) rfl).trans ?_
  rfl

theorem e_main_v58 : after (ops (F := F)) V (Proc.devRef .tc main_v58) = ReadP.val_main_v58 (F := F) := by
  refine (end_unary hW hnd V 73 (lt_of_lt_of_eq (by decide : 73 < 202) ops_len.symm) (lt_of_lt_of_eq (by decide : 73 < 202) W_len.symm) main_c_10 main_v58 _ _ _ (rfl : _ = (unary main_c_10 main_v58 (broadcastInDim S1600000 ![] bcast_S_S1600000 : (⟨S_, .i32⟩ : BufTy).Contents (Elt F) → (⟨S1600000, .i32⟩ : BufTy).Contents (Elt F)) : HloOp τ sig (Elt F))) rfl (by decide +kernel)).trans ?_
  rw [e_main_c_10 V]
  rfl

theorem e_main_v59 : after (ops (F := F)) V (Proc.devRef .tc main_v59) = ReadP.val_main_v59 (F := F) (inp V main_arg1) := by
  refine (end_binary hW hnd V 74 (lt_of_lt_of_eq (by decide : 74 < 202) ops_len.symm) (lt_of_lt_of_eq (by decide : 74 < 202) W_len.symm) main_v1 main_v58 main_v59 _ _ _ _ (rfl : _ = (binary main_v1 main_v58 main_v59 (addi : (⟨S1600000, .i32⟩ : BufTy).Contents (Elt F) → (⟨S1600000, .i32⟩ : BufTy).Contents (Elt F) → (⟨S1600000, .i32⟩ : BufTy).Contents (Elt F)) : HloOp τ sig (Elt F))) rfl (by decide +kernel) (by decide +kernel)).trans ?_
  rw [e_main_v1 V, e_main_v58 V]
  rfl

theorem e_main_v60 : after (ops (F := F)) V (Proc.devRef .tc main_v60) = ReadP.val_main_v60 (F := F) (inp V main_arg1) := by
  refine (end_ternary hW hnd V 75 (lt_of_lt_of_eq (by decide : 75 < 202) ops_len.symm) (lt_of_lt_of_eq (by decide : 75 < 202) W_len.symm) main_v57 main_v59 main_v1 main_v60 _ _ _ _ _ (rfl : _ = (ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F))) rfl (by decide +kernel) (by decide +kernel) (by decide +kernel)).trans ?_
  rw [e_main_v57 V, e_main_v59 V, e_main_v1 V]
  rfl

theorem e_main_v61 : after (ops (F := F)) V (Proc.devRef .tc main_v61) = ReadP.val_main_v61 (F := F) (inp V main_arg1) := by
  refine (end_unary hW hnd V 76 (lt_of_lt_of_eq (by decide : 76 < 202) ops_len.symm) (lt_of_lt_of_eq (by decide : 76 < 202) W_len.symm) main_v60 main_v61 _ _ _ (rfl : _ = (unary main_v60 main_v61 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v60 V]
  rfl

theorem e_main_v62 : after (ops (F := F)) V (Proc.devRef .tc main_v62) = ReadP.val_main_v62 (F := F) (inp V main_arg0) (inp V main_arg1) (inp V main_arg2) (inp V main_arg3) (inp V main_arg4) (inp V main_arg5) (inp V main_arg6) (inp V main_arg17) := by
  refine (end_binary hW hnd V 77 (lt_of_lt_of_eq (by decide : 77 < 202) ops_len.symm) (lt_of_lt_of_eq (by decide : 77 < 202) W_len.symm) main_v55 main_v61 main_v62 _ _ _ _ (rfl : _ = (binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) : HloOp τ sig (Elt F))) rfl (by decide +kernel) (by decide +kernel)).trans ?_
  rw [e_main_v55 V, e_main_v61 V]
  rfl

theorem e_main_cst_11 : after (ops (F := F)) V (Proc.devRef .tc main_cst_11) = ReadP.val_main_cst_11 (F := F) := by
  refine (end_nullary hW hnd V 78 (lt_of_lt_of_eq (by decide : 78 < 202) ops_len.symm) (lt_of_lt_of_eq (by decide : 78 < 202) W_len.symm) main_cst_11 _ _ (rfl : _ = (nullary main_cst_11 (constant S_ .f32 0x00000000#32) : HloOp τ sig (Elt F))) rfl).trans ?_
  rfl

theorem e_main_v63 : after (ops (F := F)) V (Proc.devRef .tc main_v63) = ReadP.val_main_v63 (F := F) := by
  refine (end_unary hW hnd V 79 (lt_of_lt_of_eq (by decide : 79 < 202) ops_len.symm) (lt_of_lt_of_eq (by decide : 79 < 202) W_len.symm) main_cst_11 main_v63 _ _ _ (rfl : _ = (unary main_cst_11 main_v63 (broadcastInDim S100000x128 ![] bcast_S_S100000x128 : (⟨S_, .f32⟩ : BufTy).Contents (Elt F) → (⟨S100000x128, .f32⟩ : BufTy).Contents (Elt F)) : HloOp τ sig (Elt F))) rfl (by decide +kernel)).trans ?_
  rw [e_main_cst_11 V]
  rfl

theorem e_main_v64 : after (ops (F := F)) V (Proc.devRef .tc main_v64) = ReadP.val_main_v64 (F := F) (inp V main_arg1) := by
  refine (end_unary hW hnd V 80 (lt_of_lt_of_eq (by decide : 80 < 202) ops_len.symm) (lt_of_lt_of_eq (by decide : 80 < 202) W_len.symm) main_v3 main_v64 _ _ _ (rfl : _ = (unary main_v3 main_v64 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v3 V]
  rfl

theorem e_main_v65 : after (ops (F := F)) V (Proc.devRef .tc main_v65) = ReadP.val_main_v65 (F := F) (inp V main_arg0) (inp V main_arg1) (inp V main_arg2) (inp V main_arg3) (inp V main_arg4) (inp V main_arg5) (inp V main_arg6) (inp V main_arg17) := by
  refine (end_ternary hW hnd V 81 (lt_of_lt_of_eq (by decide : 81 < 202) ops_len.symm) (lt_of_lt_of_eq (by decide : 81 < 202) W_len.symm) main_v63 main_v64 main_v62 main_v65 _ _ _ _ _ (rfl : _ = (ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) : HloOp τ sig (Elt F))) rfl (by decide +kernel) (by decide +kernel) (by decide +kernel)).trans ?_
  rw [e_main_v63 V, e_main_v64 V, e_main_v62 V]
  rfl

theorem e_main_cst_12 : after (ops (F := F)) V (Proc.devRef .tc main_cst_12) = ReadP.val_main_cst_12 (F := F) := by
  refine (end_nullary hW hnd V 82 (lt_of_lt_of_eq (by decide : 82 < 202) ops_len.symm) (lt_of_lt_of_eq (by decide : 82 < 202) W_len.symm) main_cst_12 _ _ (rfl : _ = (nullary main_cst_12 (constant S_ .f32 0x3F800000#32) : HloOp τ sig (Elt F))) rfl).trans ?_
  rfl

theorem e_main_v66 : after (ops (F := F)) V (Proc.devRef .tc main_v66) = ReadP.val_main_v66 (F := F) := by
  refine (end_unary hW hnd V 83 (lt_of_lt_of_eq (by decide : 83 < 202) ops_len.symm) (lt_of_lt_of_eq (by decide : 83 < 202) W_len.symm) main_cst_12 main_v66 _ _ _ (rfl : _ = (unary main_cst_12 main_v66 (broadcastInDim S1600000 ![] bcast_S_S1600000 : (⟨S_, .f32⟩ : BufTy).Contents (Elt F) → (⟨S1600000, .f32⟩ : BufTy).Contents (Elt F)) : HloOp τ sig (Elt F))) rfl (by decide +kernel)).trans ?_
  rw [e_main_cst_12 V]
  rfl

theorem e_main_cst_13 : after (ops (F := F)) V (Proc.devRef .tc main_cst_13) = ReadP.val_main_cst_13 (F := F) := by
  refine (end_nullary hW hnd V 84 (lt_of_lt_of_eq (by decide : 84 < 202) ops_len.symm) (lt_of_lt_of_eq (by decide : 84 < 202) W_len.symm) main_cst_13 _ _ (rfl : _ = (nullary main_cst_13 (constant S_ .f32 0x00000000#32) : HloOp τ sig (Elt F))) rfl).trans ?_
  rfl

theorem e_main_v67 : after (ops (F := F)) V (Proc.devRef .tc main_v67) = ReadP.val_main_v67 (F := F) := by
  refine (end_unary hW hnd V 85 (lt_of_lt_of_eq (by decide : 85 < 202) ops_len.symm) (lt_of_lt_of_eq (by decide : 85 < 202) W_len.symm) main_cst_13 main_v67 _ _ _ (rfl : _ = (unary main_cst_13 main_v67 (broadcastInDim S100000 ![] bcast_S_S100000 : (⟨S_, .f32⟩ : BufTy).Contents (Elt F) → (⟨S100000, .f32⟩ : BufTy).Contents (Elt F)) : HloOp τ sig (Elt F))) rfl (by decide +kernel)).trans ?_
  rw [e_main_cst_13 V]
  rfl

theorem e_main_v68 : after (ops (F := F)) V (Proc.devRef .tc main_v68) = ReadP.val_main_v68 (F := F) (inp V main_arg1) := by
  refine (end_unary hW hnd V 86 (lt_of_lt_of_eq (by decide : 86 < 202) ops_len.symm) (lt_of_lt_of_eq (by decide : 86 < 202) W_len.symm) main_v3 main_v68 _ _ _ (rfl : _ = (unary main_v3 main_v68 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v3 V]
  rfl

theorem e_main_v69 : after (ops (F := F)) V (Proc.devRef .tc main_v69) = ReadP.val_main_v69 (F := F) (inp V main_arg1) := by
  refine (end_ternary hW hnd V 87 (lt_of_lt_of_eq (by decide : 87 < 202) ops_len.symm) (lt_of_lt_of_eq (by decide : 87 < 202) W_len.symm) main_v67 main_v68 main_v66 main_v69 _ _ _ _ _ (rfl : _ = (ternary main_v67 main_v68 main_v66 main_v69 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) : HloOp τ sig (Elt F))) rfl (by decide +kernel) (by decide +kernel) (by decide +kernel)).trans ?_
  rw [e_main_v67 V, e_main_v68 V, e_main_v66 V]
  rfl

theorem e_main_cst_14 : after (ops (F := F)) V (Proc.devRef .tc main_cst_14) = ReadP.val_main_cst_14 (F := F) := by
  refine (end_nullary hW hnd V 88 (lt_of_lt_of_eq (by decide : 88 < 202) ops_len.symm) (lt_of_lt_of_eq (by decide : 88 < 202) W_len.symm) main_cst_14 _ _ (rfl : _ = (nullary main_cst_14 (constant S_ .f32 0x3F800000#32) : HloOp τ sig (Elt F))) rfl).trans ?_
  rfl

theorem e_main_v70 : after (ops (F := F)) V (Proc.devRef .tc main_v70) = ReadP.val_main_v70 (F := F) := by
  refine (end_unary hW hnd V 89 (lt_of_lt_of_eq (by decide : 89 < 202) ops_len.symm) (lt_of_lt_of_eq (by decide : 89 < 202) W_len.symm) main_cst_14 main_v70 _ _ _ (rfl : _ = (unary main_cst_14 main_v70 (broadcastInDim S100000 ![] bcast_S_S100000 : (⟨S_, .f32⟩ : BufTy).Contents (Elt F) → (⟨S100000, .f32⟩ : BufTy).Contents (Elt F)) : HloOp τ sig (Elt F))) rfl (by decide +kernel)).trans ?_
  rw [e_main_cst_14 V]
  rfl

theorem e_main_v71 : after (ops (F := F)) V (Proc.devRef .tc main_v71) = ReadP.val_main_v71 (F := F) (inp V main_arg1) := by
  refine (end_binary hW hnd V 90 (lt_of_lt_of_eq (by decide : 90 < 202) ops_len.symm) (lt_of_lt_of_eq (by decide : 90 < 202) W_len.symm) main_v69 main_v70 main_v71 _ _ _ _ (rfl : _ = (binary main_v69 main_v70 main_v71 (maximumf : (⟨S100000, .f32⟩ : BufTy).Contents (Elt F) → (⟨S100000, .f32⟩ : BufTy).Contents (Elt F) → (⟨S100000, .f32⟩ : BufTy).Contents (Elt F)) : HloOp τ sig (Elt F))) rfl (by decide +kernel) (by decide +kernel)).trans ?_
  rw [e_main_v69 V, e_main_v70 V]
  rfl

theorem e_main_v72 : after (ops (F := F)) V (Proc.devRef .tc main_v72) = ReadP.val_main_v72 (F := F) (inp V main_arg1) := by
  refine (end_unary hW hnd V 91 (lt_of_lt_of_eq (by decide : 91 < 202) ops_len.symm) (lt_of_lt_of_eq (by decide : 91 < 202) W_len.symm) main_v71 main_v72 _ _ _ (rfl : _ = (unary main_v71 main_v72 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v71 V]
  rfl

theorem e_main_v73 : after (ops (F := F)) V (Proc.devRef .tc main_v73) = ReadP.val_main_v73 (F := F) (inp V main_arg1) := by
  refine (end_unary hW hnd V 92 (lt_of_lt_of_eq (by decide : 92 < 202) ops_len.symm) (lt_of_lt_of_eq (by decide : 92 < 202) W_len.symm) main_v72 main_v73 _ _ _ (rfl : _ = (unary main_v72 main_v73 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v72 V]
  rfl

theorem e_main_v74 : after (ops (F := F)) V (Proc.devRef .tc main_v74) = ReadP.val_main_v74 (F := F) (inp V main_arg0) (inp V main_arg1) (inp V main_arg2) (inp V main_arg3) (inp V main_arg4) (inp V main_arg5) (inp V main_arg6) (inp V main_arg17) := by
  refine (end_binary hW hnd V 93 (lt_of_lt_of_eq (by decide : 93 < 202) ops_len.symm) (lt_of_lt_of_eq (by decide : 93 < 202) W_len.symm) main_v65 main_v73 main_v74 _ _ _ _ (rfl : _ = (binary main_v65 main_v73 main_v74 (Host.divf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v65 V, e_main_v73 V]
  rfl

theorem e_main_v75 : after (ops (F := F)) V (Proc.devRef .tc main_v75) = ReadP.val_main_v75 (F := F) (inp V main_arg0) (inp V main_arg1) (inp V main_arg2) (inp V main_arg3) (inp V main_arg4) (inp V main_arg5) (inp V main_arg6) (inp V main_arg7) (inp V main_arg17) := by
  refine (end_binary hW hnd V 94 (lt_of_lt_of_eq (by decide : 94 < 202) ops_len.symm) (lt_of_lt_of_eq (by decide : 94 < 202) W_len.symm) main_v74 main_arg7 main_v75 _ _ _ _ (rfl : _ = (binary main_v74 main_arg7 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) : HloOp τ sig (Elt F))) rfl (by decide +kernel) (by decide +kernel)).trans ?_
  rw [e_main_v74 V, a_main_arg7 V]
  rfl

theorem e_main_v76 : after (ops (F := F)) V (Proc.devRef .tc main_v76) = ReadP.val_main_v76 (F := F) (inp V main_arg8) := by
  refine (end_unary hW hnd V 95 (lt_of_lt_of_eq (by decide : 95 < 202) ops_len.symm) (lt_of_lt_of_eq (by decide : 95 < 202) W_len.symm) main_arg8 main_v76 _ _ _ (rfl : _ = (unary main_arg8 main_v76 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg8 V]
  rfl

theorem e_main_v77 : after (ops (F := F)) V (Proc.devRef .tc main_v77) = ReadP.val_main_v77 (F := F) (inp V main_arg8) := by
  refine (end_unary hW hnd V 96 (lt_of_lt_of_eq (by decide : 96 < 202) ops_len.symm) (lt_of_lt_of_eq (by decide : 96 < 202) W_len.symm) main_v76 main_v77 _ _ _ (rfl : _ = (unary main_v76 main_v77 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v76 V]
  rfl

theorem e_main_v78 : after (ops (F := F)) V (Proc.devRef .tc main_v78) = ReadP.val_main_v78 (F := F) (inp V main_arg0) (inp V main_arg1) (inp V main_arg2) (inp V main_arg3) (inp V main_arg4) (inp V main_arg5) (inp V main_arg6) (inp V main_arg7) (inp V main_arg8) (inp V main_arg17) := by
  refine (end_binary hW hnd V 97 (lt_of_lt_of_eq (by decide : 97 < 202) ops_len.symm) (lt_of_lt_of_eq (by decide : 97 < 202) W_len.symm) main_v75 main_v77 main_v78 _ _ _ _ (rfl : _ = (binary main_v75 main_v77 main_v78 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v75 V, e_main_v77 V]
  rfl

theorem e_main_v79 : after (ops (F := F)) V (Proc.devRef .tc main_v79) = ReadP.val_main_v79 (F := F) (inp V main_arg0) (inp V main_arg1) (inp V main_arg2) (inp V main_arg3) (inp V main_arg4) (inp V main_arg5) (inp V main_arg6) (inp V main_arg9) (inp V main_arg17) := by
  refine (end_binary hW hnd V 98 (lt_of_lt_of_eq (by decide : 98 < 202) ops_len.symm) (lt_of_lt_of_eq (by decide : 98 < 202) W_len.symm) main_v55 main_arg9 main_v79 _ _ _ _ (rfl : _ = (binary main_v55 main_arg9 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) : HloOp τ sig (Elt F))) rfl (by decide +kernel) (by decide +kernel)).trans ?_
  rw [e_main_v55 V, a_main_arg9 V]
  rfl

theorem e_main_v80 : after (ops (F := F)) V (Proc.devRef .tc main_v80) = ReadP.val_main_v80 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 99 (lt_of_lt_of_eq (by decide : 99 < 202) ops_len.symm) (lt_of_lt_of_eq (by decide : 99 < 202) W_len.symm) main_v78 main_v79 main_v80 _ _ _ _ (rfl : _ = (binary main_v78 main_v79 main_v80 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v78 V, e_main_v79 V]
  rfl

theorem e_main_cst_15 : after (ops (F := F)) V (Proc.devRef .tc main_cst_15) = ReadP.val_main_cst_15 (F := F) := by
  refine (end_nullary hW hnd V 100 (lt_of_lt_of_eq (by decide : 100 < 202) ops_len.symm) (lt_of_lt_of_eq (by decide : 100 < 202) W_len.symm) main_cst_15 _ _ (rfl : _ = (nullary main_cst_15 (constant S_ .f32 0x00000000#32) : HloOp τ sig (Elt F))) rfl).trans ?_
  rfl

theorem e_main_v81 : after (ops (F := F)) V (Proc.devRef .tc main_v81) = ReadP.val_main_v81 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 101 (lt_of_lt_of_eq (by decide : 101 < 202) ops_len.symm) (lt_of_lt_of_eq (by decide : 101 < 202) W_len.symm) main_v80 main_cst_15 main_v81 _ _ _ _ (rfl : _ = (binary main_v80 main_cst_15 main_v81 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) : HloOp τ sig (Elt F))) rfl (by decide +kernel) (by decide +kernel)).trans ?_
  rw [e_main_v80 V, e_main_cst_15 V]
  rfl

theorem e_main_v82 : after (ops (F := F)) V (Proc.devRef .tc main_v82) = ReadP.val_main_v82 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_unary hW hnd V 102 (lt_of_lt_of_eq (by decide : 102 < 202) ops_len.symm) (lt_of_lt_of_eq (by decide : 102 < 202) W_len.symm) main_v81 main_v82 _ _ _ (rfl : _ = (unary main_v81 main_v82 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v81 V]
  rfl

theorem e_main_cst_16 : after (ops (F := F)) V (Proc.devRef .tc main_cst_16) = ReadP.val_main_cst_16 (F := F) := by
  refine (end_nullary hW hnd V 103 (lt_of_lt_of_eq (by decide : 103 < 202) ops_len.symm) (lt_of_lt_of_eq (by decide : 103 < 202) W_len.symm) main_cst_16 _ _ (rfl : _ = (nullary main_cst_16 (constant S_ .f32 0x43000000#32) : HloOp τ sig (Elt F))) rfl).trans ?_
  rfl

theorem e_main_v83 : after (ops (F := F)) V (Proc.devRef .tc main_v83) = ReadP.val_main_v83 (F := F) := by
  refine (end_unary hW hnd V 104 (lt_of_lt_of_eq (by decide : 104 < 202) ops_len.symm) (lt_of_lt_of_eq (by decide : 104 < 202) W_len.symm) main_cst_16 main_v83 _ _ _ (rfl : _ = (unary main_cst_16 main_v83 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_16 V]
  rfl

theorem e_main_v84 : after (ops (F := F)) V (Proc.devRef .tc main_v84) = ReadP.val_main_v84 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 105 (lt_of_lt_of_eq (by decide : 105 < 202) ops_len.symm) (lt_of_lt_of_eq (by decide : 105 < 202) W_len.symm) main_v82 main_v83 main_v84 _ _ _ _ (rfl : _ = (binary main_v82 main_v83 main_v84 (Host.divf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v82 V, e_main_v83 V]
  rfl

theorem e_main_v85 : after (ops (F := F)) V (Proc.devRef .tc main_v85) = ReadP.val_main_v85 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_unary hW hnd V 106 (lt_of_lt_of_eq (by decide : 106 < 202) ops_len.symm) (lt_of_lt_of_eq (by decide : 106 < 202) W_len.symm) main_v84 main_v85 _ _ _ (rfl : _ = (unary main_v84 main_v85 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v84 V]
  rfl

theorem e_main_v86 : after (ops (F := F)) V (Proc.devRef .tc main_v86) = ReadP.val_main_v86 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 107 (lt_of_lt_of_eq (by decide : 107 < 202) ops_len.symm) (lt_of_lt_of_eq (by decide : 107 < 202) W_len.symm) main_v80 main_v85 main_v86 _ _ _ _ (rfl : _ = (binary main_v80 main_v85 main_v86 (subf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v80 V, e_main_v85 V]
  rfl

theorem e_main_v87 : after (ops (F := F)) V (Proc.devRef .tc main_v87) = ReadP.val_main_v87 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 108 (lt_of_lt_of_eq (by decide : 108 < 202) ops_len.symm) (lt_of_lt_of_eq (by decide : 108 < 202) W_len.symm) main_v86 main_v86 main_v87 _ _ _ _ (rfl : _ = (binary main_v86 main_v86 main_v87 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v86 V]
  rfl

theorem e_main_cst_17 : after (ops (F := F)) V (Proc.devRef .tc main_cst_17) = ReadP.val_main_cst_17 (F := F) := by
  refine (end_nullary hW hnd V 109 (lt_of_lt_of_eq (by decide : 109 < 202) ops_len.symm) (lt_of_lt_of_eq (by decide : 109 < 202) W_len.symm) main_cst_17 _ _ (rfl : _ = (nullary main_cst_17 (constant S_ .f32 0x00000000#32) : HloOp τ sig (Elt F))) rfl).trans ?_
  rfl

theorem e_main_v88 : after (ops (F := F)) V (Proc.devRef .tc main_v88) = ReadP.val_main_v88 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 110 (lt_of_lt_of_eq (by decide : 110 < 202) ops_len.symm) (lt_of_lt_of_eq (by decide : 110 < 202) W_len.symm) main_v87 main_cst_17 main_v88 _ _ _ _ (rfl : _ = (binary main_v87 main_cst_17 main_v88 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) : HloOp τ sig (Elt F))) rfl (by decide +kernel) (by decide +kernel)).trans ?_
  rw [e_main_v87 V, e_main_cst_17 V]
  rfl

theorem e_main_v89 : after (ops (F := F)) V (Proc.devRef .tc main_v89) = ReadP.val_main_v89 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_unary hW hnd V 111 (lt_of_lt_of_eq (by decide : 111 < 202) ops_len.symm) (lt_of_lt_of_eq (by decide : 111 < 202) W_len.symm) main_v88 main_v89 _ _ _ (rfl : _ = (unary main_v88 main_v89 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v88 V]
  rfl

theorem e_main_cst_18 : after (ops (F := F)) V (Proc.devRef .tc main_cst_18) = ReadP.val_main_cst_18 (F := F) := by
  refine (end_nullary hW hnd V 112 (lt_of_lt_of_eq (by decide : 112 < 202) ops_len.symm) (lt_of_lt_of_eq (by decide : 112 < 202) W_len.symm) main_cst_18 _ _ (rfl : _ = (nullary main_cst_18 (constant S_ .f32 0x43000000#32) : HloOp τ sig (Elt F))) rfl).trans ?_
  rfl

theorem e_main_v90 : after (ops (F := F)) V (Proc.devRef .tc main_v90) = ReadP.val_main_v90 (F := F) := by
  refine (end_unary hW hnd V 113 (lt_of_lt_of_eq (by decide : 113 < 202) ops_len.symm) (lt_of_lt_of_eq (by decide : 113 < 202) W_len.symm) main_cst_18 main_v90 _ _ _ (rfl : _ = (unary main_cst_18 main_v90 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_18 V]
  rfl

theorem e_main_v91 : after (ops (F := F)) V (Proc.devRef .tc main_v91) = ReadP.val_main_v91 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 114 (lt_of_lt_of_eq (by decide : 114 < 202) ops_len.symm) (lt_of_lt_of_eq (by decide : 114 < 202) W_len.symm) main_v89 main_v90 main_v91 _ _ _ _ (rfl : _ = (binary main_v89 main_v90 main_v91 (Host.divf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v89 V, e_main_v90 V]
  rfl

theorem e_main_v92 : after (ops (F := F)) V (Proc.devRef .tc main_v92) = ReadP.val_main_v92 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_unary hW hnd V 115 (lt_of_lt_of_eq (by decide : 115 < 202) ops_len.symm) (lt_of_lt_of_eq (by decide : 115 < 202) W_len.symm) main_v84 main_v92 _ _ _ (rfl : _ = (unary main_v84 main_v92 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v84 V]
  rfl

theorem e_main_v93 : after (ops (F := F)) V (Proc.devRef .tc main_v93) = ReadP.val_main_v93 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 116 (lt_of_lt_of_eq (by decide : 116 < 202) ops_len.symm) (lt_of_lt_of_eq (by decide : 116 < 202) W_len.symm) main_v80 main_v92 main_v93 _ _ _ _ (rfl : _ = (binary main_v80 main_v92 main_v93 (subf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v80 V, e_main_v92 V]
  rfl

theorem e_main_cst_19 : after (ops (F := F)) V (Proc.devRef .tc main_cst_19) = ReadP.val_main_cst_19 (F := F) := by
  refine (end_nullary hW hnd V 117 (lt_of_lt_of_eq (by decide : 117 < 202) ops_len.symm) (lt_of_lt_of_eq (by decide : 117 < 202) W_len.symm) main_cst_19 _ _ (rfl : _ = (nullary main_cst_19 (constant S_ .f32 0x3727C5AC#32) : HloOp τ sig (Elt F))) rfl).trans ?_
  rfl

theorem e_main_v94 : after (ops (F := F)) V (Proc.devRef .tc main_v94) = ReadP.val_main_v94 (F := F) := by
  refine (end_unary hW hnd V 118 (lt_of_lt_of_eq (by decide : 118 < 202) ops_len.symm) (lt_of_lt_of_eq (by decide : 118 < 202) W_len.symm) main_cst_19 main_v94 _ _ _ (rfl : _ = (unary main_cst_19 main_v94 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_19 V]
  rfl

theorem e_main_v95 : after (ops (F := F)) V (Proc.devRef .tc main_v95) = ReadP.val_main_v95 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 119 (lt_of_lt_of_eq (by decide : 119 < 202) ops_len.symm) (lt_of_lt_of_eq (by decide : 119 < 202) W_len.symm) main_v91 main_v94 main_v95 _ _ _ _ (rfl : _ = (binary main_v91 main_v94 main_v95 (addf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v91 V, e_main_v94 V]
  rfl

theorem e_main_v96 : after (ops (F := F)) V (Proc.devRef .tc main_v96) = ReadP.val_main_v96 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_unary hW hnd V 120 (lt_of_lt_of_eq (by decide : 120 < 202) ops_len.symm) (lt_of_lt_of_eq (by decide : 120 < 202) W_len.symm) main_v95 main_v96 _ _ _ (rfl : _ = (unary main_v95 main_v96 (Host.rsqrt : (⟨S100000x1, .f32⟩ : BufTy).Contents (Elt F) → (⟨S100000x1, .f32⟩ : BufTy).Contents (Elt F)) : HloOp τ sig (Elt F))) rfl (by decide +kernel)).trans ?_
  rw [e_main_v95 V]
  rfl

theorem e_main_v97 : after (ops (F := F)) V (Proc.devRef .tc main_v97) = ReadP.val_main_v97 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_unary hW hnd V 121 (lt_of_lt_of_eq (by decide : 121 < 202) ops_len.symm) (lt_of_lt_of_eq (by decide : 121 < 202) W_len.symm) main_v96 main_v97 _ _ _ (rfl : _ = (unary main_v96 main_v97 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v96 V]
  rfl

theorem e_main_v98 : after (ops (F := F)) V (Proc.devRef .tc main_v98) = ReadP.val_main_v98 (F := F) (inp V main_arg0) (inp V main_arg1) (inp V main_arg2) (inp V main_arg3) (inp V main_arg4) (inp V main_arg5) (inp V main_arg6) (inp V main_arg7) (inp V main_arg8) (inp V main_arg9) (inp V main_arg17) := by
  refine (end_binary hW hnd V 122 (lt_of_lt_of_eq (by decide : 122 < 202) ops_len.symm) (lt_of_lt_of_eq (by decide : 122 < 202) W_len.symm) main_v93 main_v97 main_v98 _ _ _ _ (rfl : _ = (binary main_v93 main_v97 main_v98 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v93 V, e_main_v97 V]
  rfl

theorem e_main_v99 : after (ops (F := F)) V (Proc.devRef .tc main_v99) = ReadP.val_main_v99 (F := F) (inp V main_arg10) := by
  refine (end_unary hW hnd V 123 (lt_of_lt_of_eq (by decide : 123 < 202) ops_len.symm) (lt_of_lt_of_eq (by decide : 123 < 202) W_len.symm) main_arg10 main_v99 _ _ _ (rfl : _ = (unary main_arg10 main_v99 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg10 V]
  rfl

theorem e_main_v100 : after (ops (F := F)) V (Proc.devRef .tc main_v100) = ReadP.val_main_v100 (F := F) (inp V main_arg10) := by
  refine (end_unary hW hnd V 124 (lt_of_lt_of_eq (by decide : 124 < 202) ops_len.symm) (lt_of_lt_of_eq (by decide : 124 < 202) W_len.symm) main_v99 main_v100 _ _ _ (rfl : _ = (unary main_v99 main_v100 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v99 V]
  rfl

theorem e_main_v101 : after (ops (F := F)) V (Proc.devRef .tc main_v101) = ReadP.val_main_v101 (F := F) (inp V main_arg0) (inp V main_arg1) (inp V main_arg2) (inp V main_arg3) (inp V main_arg4) (inp V main_arg5) (inp V main_arg6) (inp V main_arg7) (inp V main_arg8) (inp V main_arg9) (inp V main_arg10) (inp V main_arg17) := by
  refine (end_binary hW hnd V 125 (lt_of_lt_of_eq (by decide : 125 < 202) ops_len.symm) (lt_of_lt_of_eq (by decide : 125 < 202) W_len.symm) main_v98 main_v100 main_v101 _ _ _ _ (rfl : _ = (binary main_v98 main_v100 main_v101 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v98 V, e_main_v100 V]
  rfl

theorem e_main_v102 : after (ops (F := F)) V (Proc.devRef .tc main_v102) = ReadP.val_main_v102 (F := F) (inp V main_arg11) := by
  refine (end_unary hW hnd V 126 (lt_of_lt_of_eq (by decide : 126 < 202) ops_len.symm) (lt_of_lt_of_eq (by decide : 126 < 202) W_len.symm) main_arg11 main_v102 _ _ _ (rfl : _ = (unary main_arg11 main_v102 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg11 V]
  rfl

theorem e_main_v103 : after (ops (F := F)) V (Proc.devRef .tc main_v103) = ReadP.val_main_v103 (F := F) (inp V main_arg11) := by
  refine (end_unary hW hnd V 127 (lt_of_lt_of_eq (by decide : 127 < 202) ops_len.symm) (lt_of_lt_of_eq (by decide : 127 < 202) W_len.symm) main_v102 main_v103 _ _ _ (rfl : _ = (unary main_v102 main_v103 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v102 V]
  rfl

theorem e_main_v104 : after (ops (F := F)) V (Proc.devRef .tc main_v104) = ReadP.val_main_v104 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg17) := by
  refine (end_binary hW hnd V 128 (lt_of_lt_of_eq (by decide : 128 < 202) ops_len.symm) (lt_of_lt_of_eq (by decide : 128 < 202) W_len.symm) main_v101 main_v103 main_v104 _ _ _ _ (rfl : _ = (binary main_v101 main_v103 main_v104 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v101 V, e_main_v103 V]
  rfl

theorem e_main_call1_cst : after (ops (F := F)) V (Proc.devRef .tc main_call1_cst) = ReadP.val_main_call1_cst (F := F) := by
  refine (end_nullary hW hnd V 129 (lt_of_lt_of_eq (by decide : 129 < 202) ops_len.symm) (lt_of_lt_of_eq (by decide : 129 < 202) W_len.symm) main_call1_cst _ _ (rfl : _ = (TRef.nullary (TRef.of (T := ⟨S_, .f32⟩) main_call1_cst) (constant S_ .f32 0x00000000#32) : HloOp τ sig (Elt F))) rfl).trans ?_
  rfl

theorem e_main_call1_v0 : after (ops (F := F)) V (Proc.devRef .tc main_call1_v0) = ReadP.val_main_call1_v0 (F := F) := by
  refine (end_unary hW hnd V 130 (lt_of_lt_of_eq (by decide : 130 < 202) ops_len.symm) (lt_of_lt_of_eq (by decide : 130 < 202) W_len.symm) main_call1_cst main_call1_v0 _ _ _ (rfl : _ = (TRef.unary (TRef.of (T := ⟨S_, .f32⟩) main_call1_cst) (TRef.of (T := ⟨S100000x128, .f32⟩) main_call1_v0) (broadcastInDim S100000x128 ![] bcast_S_S100000x128) : HloOp τ sig (Elt F))) rfl (by decide +kernel)).trans ?_
  rw [e_main_call1_cst V]
  rfl

theorem e_main_v105 : after (ops (F := F)) V (Proc.devRef .tc main_v105) = ReadP.val_main_v105 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg17) := by
  refine (end_binary hW hnd V 131 (lt_of_lt_of_eq (by decide : 131 < 202) ops_len.symm) (lt_of_lt_of_eq (by decide : 131 < 202) W_len.symm) main_v104 main_call1_v0 main_v105 _ _ _ _ (rfl : _ = (TRef.binary (TRef.of (T := ⟨S100000x128, .f32⟩) main_v104) (TRef.of (T := ⟨S100000x128, .f32⟩) main_call1_v0) (TRef.of (T := ⟨S100000x128, .f32⟩) main_v105) maximumf : HloOp τ sig (Elt F))) rfl (by decide +kernel) (by decide +kernel)).trans ?_
  rw [e_main_v104 V, e_main_call1_v0 V]
  rfl

theorem e_main_v106 : after (ops (F := F)) V (Proc.devRef .tc main_v106) = ReadP.val_main_v106 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg17) := by
  refine (end_binary hW hnd V 132 (lt_of_lt_of_eq (by decide : 132 < 202) ops_len.symm) (lt_of_lt_of_eq (by decide : 132 < 202) W_len.symm) main_v105 main_v55 main_v106 _ _ _ _ (rfl : _ = (binary main_v105 main_v55 main_v106 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v105 V, e_main_v55 V]
  rfl

theorem e_main_c_20 : after (ops (F := F)) V (Proc.devRef .tc main_c_20) = ReadP.val_main_c_20 (F := F) := by
  refine (end_nullary hW hnd V 133 (lt_of_lt_of_eq (by decide : 133 < 202) ops_len.symm) (lt_of_lt_of_eq (by decide : 133 < 202) W_len.symm) main_c_20 _ _ (rfl : _ = (nullary main_c_20 (constantI S_ 32 0#32) : HloOp τ sig (Elt F))) rfl).trans ?_
  rfl

theorem e_main_v107 : after (ops (F := F)) V (Proc.devRef .tc main_v107) = ReadP.val_main_v107 (F := F) := by
  refine (end_unary hW hnd V 134 (lt_of_lt_of_eq (by decide : 134 < 202) ops_len.symm) (lt_of_lt_of_eq (by decide : 134 < 202) W_len.symm) main_c_20 main_v107 _ _ _ (rfl : _ = (unary main_c_20 main_v107 (broadcastInDim S1600000 ![] bcast_S_S1600000 : (⟨S_, .i32⟩ : BufTy).Contents (Elt F) → (⟨S1600000, .i32⟩ : BufTy).Contents (Elt F)) : HloOp τ sig (Elt F))) rfl (by decide +kernel)).trans ?_
  rw [e_main_c_20 V]
  rfl

theorem e_main_v108 : after (ops (F := F)) V (Proc.devRef .tc main_v108) = ReadP.val_main_v108 (F := F) (inp V main_arg1) := by
  refine (end_binary hW hnd V 135 (lt_of_lt_of_eq (by decide : 135 < 202) ops_len.symm) (lt_of_lt_of_eq (by decide : 135 < 202) W_len.symm) main_v1 main_v107 main_v108 _ _ _ _ (rfl : _ = (binary main_v1 main_v107 main_v108 (cmpi .slt : (⟨S1600000, .i32⟩ : BufTy).Contents (Elt F) → (⟨S1600000, .i32⟩ : BufTy).Contents (Elt F) → (⟨S1600000, .i1⟩ : BufTy).Contents (Elt F)) : HloOp τ sig (Elt F))) rfl (by decide +kernel) (by decide +kernel)).trans ?_
  rw [e_main_v1 V, e_main_v107 V]
  rfl

theorem e_main_c_21 : after (ops (F := F)) V (Proc.devRef .tc main_c_21) = ReadP.val_main_c_21 (F := F) := by
  refine (end_nullary hW hnd V 136 (lt_of_lt_of_eq (by decide : 136 < 202) ops_len.symm) (lt_of_lt_of_eq (by decide : 136 < 202) W_len.symm) main_c_21 _ _ (rfl : _ = (nullary main_c_21 (constantI S_ 32 100000#32) : HloOp τ sig (Elt F))) rfl).trans ?_
  rfl

theorem e_main_v109 : after (ops (F := F)) V (Proc.devRef .tc main_v109) = ReadP.val_main_v109 (F := F) := by
  refine (end_unary hW hnd V 137 (lt_of_lt_of_eq (by decide : 137 < 202) ops_len.symm) (lt_of_lt_of_eq (by decide : 137 < 202) W_len.symm) main_c_21 main_v109 _ _ _ (rfl : _ = (unary main_c_21 main_v109 (broadcastInDim S1600000 ![] bcast_S_S1600000 : (⟨S_, .i32⟩ : BufTy).Contents (Elt F) → (⟨S1600000, .i32⟩ : BufTy).Contents (Elt F)) : HloOp τ sig (Elt F))) rfl (by decide +kernel)).trans ?_
  rw [e_main_c_21 V]
  rfl

theorem e_main_v110 : after (ops (F := F)) V (Proc.devRef .tc main_v110) = ReadP.val_main_v110 (F := F) (inp V main_arg1) := by
  refine (end_binary hW hnd V 138 (lt_of_lt_of_eq (by decide : 138 < 202) ops_len.symm) (lt_of_lt_of_eq (by decide : 138 < 202) W_len.symm) main_v1 main_v109 main_v110 _ _ _ _ (rfl : _ = (binary main_v1 main_v109 main_v110 (addi : (⟨S1600000, .i32⟩ : BufTy).Contents (Elt F) → (⟨S1600000, .i32⟩ : BufTy).Contents (Elt F) → (⟨S1600000, .i32⟩ : BufTy).Contents (Elt F)) : HloOp τ sig (Elt F))) rfl (by decide +kernel) (by decide +kernel)).trans ?_
  rw [e_main_v1 V, e_main_v109 V]
  rfl

theorem e_main_v111 : after (ops (F := F)) V (Proc.devRef .tc main_v111) = ReadP.val_main_v111 (F := F) (inp V main_arg1) := by
  refine (end_ternary hW hnd V 139 (lt_of_lt_of_eq (by decide : 139 < 202) ops_len.symm) (lt_of_lt_of_eq (by decide : 139 < 202) W_len.symm) main_v108 main_v110 main_v1 main_v111 _ _ _ _ _ (rfl : _ = (ternary main_v108 main_v110 main_v1 main_v111 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F))) rfl (by decide +kernel) (by decide +kernel) (by decide +kernel)).trans ?_
  rw [e_main_v108 V, e_main_v110 V, e_main_v1 V]
  rfl

theorem e_main_v112 : after (ops (F := F)) V (Proc.devRef .tc main_v112) = ReadP.val_main_v112 (F := F) (inp V main_arg1) := by
  refine (end_unary hW hnd V 140 (lt_of_lt_of_eq (by decide : 140 < 202) ops_len.symm) (lt_of_lt_of_eq (by decide : 140 < 202) W_len.symm) main_v111 main_v112 _ _ _ (rfl : _ = (unary main_v111 main_v112 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v111 V]
  rfl

theorem e_main_v113 : after (ops (F := F)) V (Proc.devRef .tc main_v113) = ReadP.val_main_v113 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg17) := by
  refine (end_binary hW hnd V 141 (lt_of_lt_of_eq (by decide : 141 < 202) ops_len.symm) (lt_of_lt_of_eq (by decide : 141 < 202) W_len.symm) main_v106 main_v112 main_v113 _ _ _ _ (rfl : _ = (binary main_v106 main_v112 main_v113 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) : HloOp τ sig (Elt F))) rfl (by decide +kernel) (by decide +kernel)).trans ?_
  rw [e_main_v106 V, e_main_v112 V]
  rfl

theorem e_main_cst_22 : after (ops (F := F)) V (Proc.devRef .tc main_cst_22) = ReadP.val_main_cst_22 (F := F) := by
  refine (end_nullary hW hnd V 142 (lt_of_lt_of_eq (by decide : 142 < 202) ops_len.symm) (lt_of_lt_of_eq (by decide : 142 < 202) W_len.symm) main_cst_22 _ _ (rfl : _ = (nullary main_cst_22 (constant S_ .f32 0x00000000#32) : HloOp τ sig (Elt F))) rfl).trans ?_
  rfl

theorem e_main_v114 : after (ops (F := F)) V (Proc.devRef .tc main_v114) = ReadP.val_main_v114 (F := F) := by
  refine (end_unary hW hnd V 143 (lt_of_lt_of_eq (by decide : 143 < 202) ops_len.symm) (lt_of_lt_of_eq (by decide : 143 < 202) W_len.symm) main_cst_22 main_v114 _ _ _ (rfl : _ = (unary main_cst_22 main_v114 (broadcastInDim S100000x128 ![] bcast_S_S100000x128 : (⟨S_, .f32⟩ : BufTy).Contents (Elt F) → (⟨S100000x128, .f32⟩ : BufTy).Contents (Elt F)) : HloOp τ sig (Elt F))) rfl (by decide +kernel)).trans ?_
  rw [e_main_cst_22 V]
  rfl

theorem e_main_v115 : after (ops (F := F)) V (Proc.devRef .tc main_v115) = ReadP.val_main_v115 (F := F) (inp V main_arg1) := by
  refine (end_unary hW hnd V 144 (lt_of_lt_of_eq (by decide : 144 < 202) ops_len.symm) (lt_of_lt_of_eq (by decide : 144 < 202) W_len.symm) main_v3 main_v115 _ _ _ (rfl : _ = (unary main_v3 main_v115 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v3 V]
  rfl

theorem e_main_v116 : after (ops (F := F)) V (Proc.devRef .tc main_v116) = ReadP.val_main_v116 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg17) := by
  refine (end_ternary hW hnd V 145 (lt_of_lt_of_eq (by decide : 145 < 202) ops_len.symm) (lt_of_lt_of_eq (by decide : 145 < 202) W_len.symm) main_v114 main_v115 main_v113 main_v116 _ _ _ _ _ (rfl : _ = (ternary main_v114 main_v115 main_v113 main_v116 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) : HloOp τ sig (Elt F))) rfl (by decide +kernel) (by decide +kernel) (by decide +kernel)).trans ?_
  rw [e_main_v114 V, e_main_v115 V, e_main_v113 V]
  rfl

theorem e_main_cst_23 : after (ops (F := F)) V (Proc.devRef .tc main_cst_23) = ReadP.val_main_cst_23 (F := F) := by
  refine (end_nullary hW hnd V 146 (lt_of_lt_of_eq (by decide : 146 < 202) ops_len.symm) (lt_of_lt_of_eq (by decide : 146 < 202) W_len.symm) main_cst_23 _ _ (rfl : _ = (nullary main_cst_23 (constant S_ .f32 0x3F800000#32) : HloOp τ sig (Elt F))) rfl).trans ?_
  rfl

theorem e_main_v117 : after (ops (F := F)) V (Proc.devRef .tc main_v117) = ReadP.val_main_v117 (F := F) := by
  refine (end_unary hW hnd V 147 (lt_of_lt_of_eq (by decide : 147 < 202) ops_len.symm) (lt_of_lt_of_eq (by decide : 147 < 202) W_len.symm) main_cst_23 main_v117 _ _ _ (rfl : _ = (unary main_cst_23 main_v117 (broadcastInDim S1600000 ![] bcast_S_S1600000 : (⟨S_, .f32⟩ : BufTy).Contents (Elt F) → (⟨S1600000, .f32⟩ : BufTy).Contents (Elt F)) : HloOp τ sig (Elt F))) rfl (by decide +kernel)).trans ?_
  rw [e_main_cst_23 V]
  rfl

theorem e_main_cst_24 : after (ops (F := F)) V (Proc.devRef .tc main_cst_24) = ReadP.val_main_cst_24 (F := F) := by
  refine (end_nullary hW hnd V 148 (lt_of_lt_of_eq (by decide : 148 < 202) ops_len.symm) (lt_of_lt_of_eq (by decide : 148 < 202) W_len.symm) main_cst_24 _ _ (rfl : _ = (nullary main_cst_24 (constant S_ .f32 0x00000000#32) : HloOp τ sig (Elt F))) rfl).trans ?_
  rfl

theorem e_main_v118 : after (ops (F := F)) V (Proc.devRef .tc main_v118) = ReadP.val_main_v118 (F := F) := by
  refine (end_unary hW hnd V 149 (lt_of_lt_of_eq (by decide : 149 < 202) ops_len.symm) (lt_of_lt_of_eq (by decide : 149 < 202) W_len.symm) main_cst_24 main_v118 _ _ _ (rfl : _ = (unary main_cst_24 main_v118 (broadcastInDim S100000 ![] bcast_S_S100000 : (⟨S_, .f32⟩ : BufTy).Contents (Elt F) → (⟨S100000, .f32⟩ : BufTy).Contents (Elt F)) : HloOp τ sig (Elt F))) rfl (by decide +kernel)).trans ?_
  rw [e_main_cst_24 V]
  rfl

theorem e_main_v119 : after (ops (F := F)) V (Proc.devRef .tc main_v119) = ReadP.val_main_v119 (F := F) (inp V main_arg1) := by
  refine (end_unary hW hnd V 150 (lt_of_lt_of_eq (by decide : 150 < 202) ops_len.symm) (lt_of_lt_of_eq (by decide : 150 < 202) W_len.symm) main_v3 main_v119 _ _ _ (rfl : _ = (unary main_v3 main_v119 (broadcastInDim S1600000x1 ![0] bcast_S1600000_S1600000x1_0 : (⟨S1600000, .i32⟩ : BufTy).Contents (Elt F) → (⟨S1600000x1, .i32⟩ : BufTy).Contents (Elt F)) : HloOp τ sig (Elt F))) rfl (by decide +kernel)).trans ?_
  rw [e_main_v3 V]
  rfl

theorem e_main_v120 : after (ops (F := F)) V (Proc.devRef .tc main_v120) = ReadP.val_main_v120 (F := F) (inp V main_arg1) := by
  refine (end_ternary hW hnd V 151 (lt_of_lt_of_eq (by decide : 151 < 202) ops_len.symm) (lt_of_lt_of_eq (by decide : 151 < 202) W_len.symm) main_v118 main_v119 main_v117 main_v120 _ _ _ _ _ (rfl : _ = (ternary main_v118 main_v119 main_v117 main_v120 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) : HloOp τ sig (Elt F))) rfl (by decide +kernel) (by decide +kernel) (by decide +kernel)).trans ?_
  rw [e_main_v118 V, e_main_v119 V, e_main_v117 V]
  rfl

theorem e_main_cst_25 : after (ops (F := F)) V (Proc.devRef .tc main_cst_25) = ReadP.val_main_cst_25 (F := F) := by
  refine (end_nullary hW hnd V 152 (lt_of_lt_of_eq (by decide : 152 < 202) ops_len.symm) (lt_of_lt_of_eq (by decide : 152 < 202) W_len.symm) main_cst_25 _ _ (rfl : _ = (nullary main_cst_25 (constant S_ .f32 0x3F800000#32) : HloOp τ sig (Elt F))) rfl).trans ?_
  rfl

theorem e_main_v121 : after (ops (F := F)) V (Proc.devRef .tc main_v121) = ReadP.val_main_v121 (F := F) := by
  refine (end_unary hW hnd V 153 (lt_of_lt_of_eq (by decide : 153 < 202) ops_len.symm) (lt_of_lt_of_eq (by decide : 153 < 202) W_len.symm) main_cst_25 main_v121 _ _ _ (rfl : _ = (unary main_cst_25 main_v121 (broadcastInDim S100000 ![] bcast_S_S100000 : (⟨S_, .f32⟩ : BufTy).Contents (Elt F) → (⟨S100000, .f32⟩ : BufTy).Contents (Elt F)) : HloOp τ sig (Elt F))) rfl (by decide +kernel)).trans ?_
  rw [e_main_cst_25 V]
  rfl

theorem e_main_v122 : after (ops (F := F)) V (Proc.devRef .tc main_v122) = ReadP.val_main_v122 (F := F) (inp V main_arg1) := by
  refine (end_binary hW hnd V 154 (lt_of_lt_of_eq (by decide : 154 < 202) ops_len.symm) (lt_of_lt_of_eq (by decide : 154 < 202) W_len.symm) main_v120 main_v121 main_v122 _ _ _ _ (rfl : _ = (binary main_v120 main_v121 main_v122 (maximumf : (⟨S100000, .f32⟩ : BufTy).Contents (Elt F) → (⟨S100000, .f32⟩ : BufTy).Contents (Elt F) → (⟨S100000, .f32⟩ : BufTy).Contents (Elt F)) : HloOp τ sig (Elt F))) rfl (by decide +kernel) (by decide +kernel)).trans ?_
  rw [e_main_v120 V, e_main_v121 V]
  rfl

theorem e_main_v123 : after (ops (F := F)) V (Proc.devRef .tc main_v123) = ReadP.val_main_v123 (F := F) (inp V main_arg1) := by
  refine (end_unary hW hnd V 155 (lt_of_lt_of_eq (by decide : 155 < 202) ops_len.symm) (lt_of_lt_of_eq (by decide : 155 < 202) W_len.symm) main_v122 main_v123 _ _ _ (rfl : _ = (unary main_v122 main_v123 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v122 V]
  rfl

theorem e_main_v124 : after (ops (F := F)) V (Proc.devRef .tc main_v124) = ReadP.val_main_v124 (F := F) (inp V main_arg1) := by
  refine (end_unary hW hnd V 156 (lt_of_lt_of_eq (by decide : 156 < 202) ops_len.symm) (lt_of_lt_of_eq (by decide : 156 < 202) W_len.symm) main_v123 main_v124 _ _ _ (rfl : _ = (unary main_v123 main_v124 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v123 V]
  rfl

theorem e_main_v125 : after (ops (F := F)) V (Proc.devRef .tc main_v125) = ReadP.val_main_v125 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg17) := by
  refine (end_binary hW hnd V 157 (lt_of_lt_of_eq (by decide : 157 < 202) ops_len.symm) (lt_of_lt_of_eq (by decide : 157 < 202) W_len.symm) main_v116 main_v124 main_v125 _ _ _ _ (rfl : _ = (binary main_v116 main_v124 main_v125 (Host.divf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v116 V, e_main_v124 V]
  rfl

theorem e_main_v126 : after (ops (F := F)) V (Proc.devRef .tc main_v126) = ReadP.val_main_v126 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg17) := by
  refine (end_binary hW hnd V 158 (lt_of_lt_of_eq (by decide : 158 < 202) ops_len.symm) (lt_of_lt_of_eq (by decide : 158 < 202) W_len.symm) main_v125 main_arg12 main_v126 _ _ _ _ (rfl : _ = (binary main_v125 main_arg12 main_v126 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) : HloOp τ sig (Elt F))) rfl (by decide +kernel) (by decide +kernel)).trans ?_
  rw [e_main_v125 V, a_main_arg12 V]
  rfl

theorem e_main_v127 : after (ops (F := F)) V (Proc.devRef .tc main_v127) = ReadP.val_main_v127 (F := F) (inp V main_arg13) := by
  refine (end_unary hW hnd V 159 (lt_of_lt_of_eq (by decide : 159 < 202) ops_len.symm) (lt_of_lt_of_eq (by decide : 159 < 202) W_len.symm) main_arg13 main_v127 _ _ _ (rfl : _ = (unary main_arg13 main_v127 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg13 V]
  rfl

theorem e_main_v128 : after (ops (F := F)) V (Proc.devRef .tc main_v128) = ReadP.val_main_v128 (F := F) (inp V main_arg13) := by
  refine (end_unary hW hnd V 160 (lt_of_lt_of_eq (by decide : 160 < 202) ops_len.symm) (lt_of_lt_of_eq (by decide : 160 < 202) W_len.symm) main_v127 main_v128 _ _ _ (rfl : _ = (unary main_v127 main_v128 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v127 V]
  rfl

theorem e_main_v129 : after (ops (F := F)) V (Proc.devRef .tc main_v129) = ReadP.val_main_v129 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg17) := by
  refine (end_binary hW hnd V 161 (lt_of_lt_of_eq (by decide : 161 < 202) ops_len.symm) (lt_of_lt_of_eq (by decide : 161 < 202) W_len.symm) main_v126 main_v128 main_v129 _ _ _ _ (rfl : _ = (binary main_v126 main_v128 main_v129 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v126 V, e_main_v128 V]
  rfl

theorem e_main_v130 : after (ops (F := F)) V (Proc.devRef .tc main_v130) = ReadP.val_main_v130 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg14) (inp V main_arg17) := by
  refine (end_binary hW hnd V 162 (lt_of_lt_of_eq (by decide : 162 < 202) ops_len.symm) (lt_of_lt_of_eq (by decide : 162 < 202) W_len.symm) main_v106 main_arg14 main_v130 _ _ _ _ (rfl : _ = (binary main_v106 main_arg14 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) : HloOp τ sig (Elt F))) rfl (by decide +kernel) (by decide +kernel)).trans ?_
  rw [e_main_v106 V, a_main_arg14 V]
  rfl

theorem e_main_v131 : after (ops (F := F)) V (Proc.devRef .tc main_v131) = ReadP.val_main_v131 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 163 (lt_of_lt_of_eq (by decide : 163 < 202) ops_len.symm) (lt_of_lt_of_eq (by decide : 163 < 202) W_len.symm) main_v129 main_v130 main_v131 _ _ _ _ (rfl : _ = (binary main_v129 main_v130 main_v131 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v129 V, e_main_v130 V]
  rfl

theorem e_main_cst_26 : after (ops (F := F)) V (Proc.devRef .tc main_cst_26) = ReadP.val_main_cst_26 (F := F) := by
  refine (end_nullary hW hnd V 164 (lt_of_lt_of_eq (by decide : 164 < 202) ops_len.symm) (lt_of_lt_of_eq (by decide : 164 < 202) W_len.symm) main_cst_26 _ _ (rfl : _ = (nullary main_cst_26 (constant S_ .f32 0x00000000#32) : HloOp τ sig (Elt F))) rfl).trans ?_
  rfl

theorem e_main_v132 : after (ops (F := F)) V (Proc.devRef .tc main_v132) = ReadP.val_main_v132 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 165 (lt_of_lt_of_eq (by decide : 165 < 202) ops_len.symm) (lt_of_lt_of_eq (by decide : 165 < 202) W_len.symm) main_v131 main_cst_26 main_v132 _ _ _ _ (rfl : _ = (binary main_v131 main_cst_26 main_v132 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) : HloOp τ sig (Elt F))) rfl (by decide +kernel) (by decide +kernel)).trans ?_
  rw [e_main_v131 V, e_main_cst_26 V]
  rfl

theorem e_main_v133 : after (ops (F := F)) V (Proc.devRef .tc main_v133) = ReadP.val_main_v133 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_unary hW hnd V 166 (lt_of_lt_of_eq (by decide : 166 < 202) ops_len.symm) (lt_of_lt_of_eq (by decide : 166 < 202) W_len.symm) main_v132 main_v133 _ _ _ (rfl : _ = (unary main_v132 main_v133 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v132 V]
  rfl

theorem e_main_cst_27 : after (ops (F := F)) V (Proc.devRef .tc main_cst_27) = ReadP.val_main_cst_27 (F := F) := by
  refine (end_nullary hW hnd V 167 (lt_of_lt_of_eq (by decide : 167 < 202) ops_len.symm) (lt_of_lt_of_eq (by decide : 167 < 202) W_len.symm) main_cst_27 _ _ (rfl : _ = (nullary main_cst_27 (constant S_ .f32 0x43000000#32) : HloOp τ sig (Elt F))) rfl).trans ?_
  rfl

theorem e_main_v134 : after (ops (F := F)) V (Proc.devRef .tc main_v134) = ReadP.val_main_v134 (F := F) := by
  refine (end_unary hW hnd V 168 (lt_of_lt_of_eq (by decide : 168 < 202) ops_len.symm) (lt_of_lt_of_eq (by decide : 168 < 202) W_len.symm) main_cst_27 main_v134 _ _ _ (rfl : _ = (unary main_cst_27 main_v134 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_27 V]
  rfl

theorem e_main_v135 : after (ops (F := F)) V (Proc.devRef .tc main_v135) = ReadP.val_main_v135 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 169 (lt_of_lt_of_eq (by decide : 169 < 202) ops_len.symm) (lt_of_lt_of_eq (by decide : 169 < 202) W_len.symm) main_v133 main_v134 main_v135 _ _ _ _ (rfl : _ = (binary main_v133 main_v134 main_v135 (Host.divf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v133 V, e_main_v134 V]
  rfl

theorem e_main_v136 : after (ops (F := F)) V (Proc.devRef .tc main_v136) = ReadP.val_main_v136 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_unary hW hnd V 170 (lt_of_lt_of_eq (by decide : 170 < 202) ops_len.symm) (lt_of_lt_of_eq (by decide : 170 < 202) W_len.symm) main_v135 main_v136 _ _ _ (rfl : _ = (unary main_v135 main_v136 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v135 V]
  rfl

theorem e_main_v137 : after (ops (F := F)) V (Proc.devRef .tc main_v137) = ReadP.val_main_v137 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 171 (lt_of_lt_of_eq (by decide : 171 < 202) ops_len.symm) (lt_of_lt_of_eq (by decide : 171 < 202) W_len.symm) main_v131 main_v136 main_v137 _ _ _ _ (rfl : _ = (binary main_v131 main_v136 main_v137 (subf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v131 V, e_main_v136 V]
  rfl

theorem e_main_v138 : after (ops (F := F)) V (Proc.devRef .tc main_v138) = ReadP.val_main_v138 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 172 (lt_of_lt_of_eq (by decide : 172 < 202) ops_len.symm) (lt_of_lt_of_eq (by decide : 172 < 202) W_len.symm) main_v137 main_v137 main_v138 _ _ _ _ (rfl : _ = (binary main_v137 main_v137 main_v138 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v137 V]
  rfl

theorem e_main_cst_28 : after (ops (F := F)) V (Proc.devRef .tc main_cst_28) = ReadP.val_main_cst_28 (F := F) := by
  refine (end_nullary hW hnd V 173 (lt_of_lt_of_eq (by decide : 173 < 202) ops_len.symm) (lt_of_lt_of_eq (by decide : 173 < 202) W_len.symm) main_cst_28 _ _ (rfl : _ = (nullary main_cst_28 (constant S_ .f32 0x00000000#32) : HloOp τ sig (Elt F))) rfl).trans ?_
  rfl

theorem e_main_v139 : after (ops (F := F)) V (Proc.devRef .tc main_v139) = ReadP.val_main_v139 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 174 (lt_of_lt_of_eq (by decide : 174 < 202) ops_len.symm) (lt_of_lt_of_eq (by decide : 174 < 202) W_len.symm) main_v138 main_cst_28 main_v139 _ _ _ _ (rfl : _ = (binary main_v138 main_cst_28 main_v139 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) : HloOp τ sig (Elt F))) rfl (by decide +kernel) (by decide +kernel)).trans ?_
  rw [e_main_v138 V, e_main_cst_28 V]
  rfl

theorem e_main_v140 : after (ops (F := F)) V (Proc.devRef .tc main_v140) = ReadP.val_main_v140 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_unary hW hnd V 175 (lt_of_lt_of_eq (by decide : 175 < 202) ops_len.symm) (lt_of_lt_of_eq (by decide : 175 < 202) W_len.symm) main_v139 main_v140 _ _ _ (rfl : _ = (unary main_v139 main_v140 (broadcastInDim S100000x1 ![0] bcast_S100000_S100000x1_0 : (⟨S100000, .f32⟩ : BufTy).Contents (Elt F) → (⟨S100000x1, .f32⟩ : BufTy).Contents (Elt F)) : HloOp τ sig (Elt F))) rfl (by decide +kernel)).trans ?_
  rw [e_main_v139 V]
  rfl

theorem e_main_cst_29 : after (ops (F := F)) V (Proc.devRef .tc main_cst_29) = ReadP.val_main_cst_29 (F := F) := by
  refine (end_nullary hW hnd V 176 (lt_of_lt_of_eq (by decide : 176 < 202) ops_len.symm) (lt_of_lt_of_eq (by decide : 176 < 202) W_len.symm) main_cst_29 _ _ (rfl : _ = (nullary main_cst_29 (constant S_ .f32 0x43000000#32) : HloOp τ sig (Elt F))) rfl).trans ?_
  rfl

theorem e_main_v141 : after (ops (F := F)) V (Proc.devRef .tc main_v141) = ReadP.val_main_v141 (F := F) := by
  refine (end_unary hW hnd V 177 (lt_of_lt_of_eq (by decide : 177 < 202) ops_len.symm) (lt_of_lt_of_eq (by decide : 177 < 202) W_len.symm) main_cst_29 main_v141 _ _ _ (rfl : _ = (unary main_cst_29 main_v141 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_29 V]
  rfl

theorem e_main_v142 : after (ops (F := F)) V (Proc.devRef .tc main_v142) = ReadP.val_main_v142 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 178 (lt_of_lt_of_eq (by decide : 178 < 202) ops_len.symm) (lt_of_lt_of_eq (by decide : 178 < 202) W_len.symm) main_v140 main_v141 main_v142 _ _ _ _ (rfl : _ = (binary main_v140 main_v141 main_v142 (Host.divf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v140 V, e_main_v141 V]
  rfl

theorem e_main_v143 : after (ops (F := F)) V (Proc.devRef .tc main_v143) = ReadP.val_main_v143 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_unary hW hnd V 179 (lt_of_lt_of_eq (by decide : 179 < 202) ops_len.symm) (lt_of_lt_of_eq (by decide : 179 < 202) W_len.symm) main_v135 main_v143 _ _ _ (rfl : _ = (unary main_v135 main_v143 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v135 V]
  rfl

theorem e_main_v144 : after (ops (F := F)) V (Proc.devRef .tc main_v144) = ReadP.val_main_v144 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 180 (lt_of_lt_of_eq (by decide : 180 < 202) ops_len.symm) (lt_of_lt_of_eq (by decide : 180 < 202) W_len.symm) main_v131 main_v143 main_v144 _ _ _ _ (rfl : _ = (binary main_v131 main_v143 main_v144 (subf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v131 V, e_main_v143 V]
  rfl

theorem e_main_cst_30 : after (ops (F := F)) V (Proc.devRef .tc main_cst_30) = ReadP.val_main_cst_30 (F := F) := by
  refine (end_nullary hW hnd V 181 (lt_of_lt_of_eq (by decide : 181 < 202) ops_len.symm) (lt_of_lt_of_eq (by decide : 181 < 202) W_len.symm) main_cst_30 _ _ (rfl : _ = (nullary main_cst_30 (constant S_ .f32 0x3727C5AC#32) : HloOp τ sig (Elt F))) rfl).trans ?_
  rfl

theorem e_main_v145 : after (ops (F := F)) V (Proc.devRef .tc main_v145) = ReadP.val_main_v145 (F := F) := by
  refine (end_unary hW hnd V 182 (lt_of_lt_of_eq (by decide : 182 < 202) ops_len.symm) (lt_of_lt_of_eq (by decide : 182 < 202) W_len.symm) main_cst_30 main_v145 _ _ _ (rfl : _ = (unary main_cst_30 main_v145 (broadcastInDim S100000x1 ![] bcast_S_S100000x1 : (⟨S_, .f32⟩ : BufTy).Contents (Elt F) → (⟨S100000x1, .f32⟩ : BufTy).Contents (Elt F)) : HloOp τ sig (Elt F))) rfl (by decide +kernel)).trans ?_
  rw [e_main_cst_30 V]
  rfl

theorem e_main_v146 : after (ops (F := F)) V (Proc.devRef .tc main_v146) = ReadP.val_main_v146 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 183 (lt_of_lt_of_eq (by decide : 183 < 202) ops_len.symm) (lt_of_lt_of_eq (by decide : 183 < 202) W_len.symm) main_v142 main_v145 main_v146 _ _ _ _ (rfl : _ = (binary main_v142 main_v145 main_v146 (addf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v142 V, e_main_v145 V]
  rfl

theorem e_main_v147 : after (ops (F := F)) V (Proc.devRef .tc main_v147) = ReadP.val_main_v147 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_unary hW hnd V 184 (lt_of_lt_of_eq (by decide : 184 < 202) ops_len.symm) (lt_of_lt_of_eq (by decide : 184 < 202) W_len.symm) main_v146 main_v147 _ _ _ (rfl : _ = (unary main_v146 main_v147 (Host.rsqrt : (⟨S100000x1, .f32⟩ : BufTy).Contents (Elt F) → (⟨S100000x1, .f32⟩ : BufTy).Contents (Elt F)) : HloOp τ sig (Elt F))) rfl (by decide +kernel)).trans ?_
  rw [e_main_v146 V]
  rfl

theorem e_main_v148 : after (ops (F := F)) V (Proc.devRef .tc main_v148) = ReadP.val_main_v148 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_unary hW hnd V 185 (lt_of_lt_of_eq (by decide : 185 < 202) ops_len.symm) (lt_of_lt_of_eq (by decide : 185 < 202) W_len.symm) main_v147 main_v148 _ _ _ (rfl : _ = (unary main_v147 main_v148 (broadcastInDim S100000x128 ![0, 1] bcast_S100000x1_S100000x128_0_1 : (⟨S100000x1, .f32⟩ : BufTy).Contents (Elt F) → (⟨S100000x128, .f32⟩ : BufTy).Contents (Elt F)) : HloOp τ sig (Elt F))) rfl (by decide +kernel)).trans ?_
  rw [e_main_v147 V]
  rfl

theorem e_main_v149 : after (ops (F := F)) V (Proc.devRef .tc main_v149) = ReadP.val_main_v149 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg17) := by
  refine (end_binary hW hnd V 186 (lt_of_lt_of_eq (by decide : 186 < 202) ops_len.symm) (lt_of_lt_of_eq (by decide : 186 < 202) W_len.symm) main_v144 main_v148 main_v149 _ _ _ _ (rfl : _ = (binary main_v144 main_v148 main_v149 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v144 V, e_main_v148 V]
  rfl

theorem e_main_v150 : after (ops (F := F)) V (Proc.devRef .tc main_v150) = ReadP.val_main_v150 (F := F) (inp V main_arg15) := by
  refine (end_unary hW hnd V 187 (lt_of_lt_of_eq (by decide : 187 < 202) ops_len.symm) (lt_of_lt_of_eq (by decide : 187 < 202) W_len.symm) main_arg15 main_v150 _ _ _ (rfl : _ = (unary main_arg15 main_v150 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg15 V]
  rfl

theorem e_main_v151 : after (ops (F := F)) V (Proc.devRef .tc main_v151) = ReadP.val_main_v151 (F := F) (inp V main_arg15) := by
  refine (end_unary hW hnd V 188 (lt_of_lt_of_eq (by decide : 188 < 202) ops_len.symm) (lt_of_lt_of_eq (by decide : 188 < 202) W_len.symm) main_v150 main_v151 _ _ _ (rfl : _ = (unary main_v150 main_v151 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v150 V]
  rfl

theorem e_main_v152 : after (ops (F := F)) V (Proc.devRef .tc main_v152) = ReadP.val_main_v152 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg15) (inp V main_arg17) := by
  refine (end_binary hW hnd V 189 (lt_of_lt_of_eq (by decide : 189 < 202) ops_len.symm) (lt_of_lt_of_eq (by decide : 189 < 202) W_len.symm) main_v149 main_v151 main_v152 _ _ _ _ (rfl : _ = (binary main_v149 main_v151 main_v152 (mulf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v149 V, e_main_v151 V]
  rfl

theorem e_main_v153 : after (ops (F := F)) V (Proc.devRef .tc main_v153) = ReadP.val_main_v153 (F := F) (inp V main_arg16) := by
  refine (end_unary hW hnd V 190 (lt_of_lt_of_eq (by decide : 190 < 202) ops_len.symm) (lt_of_lt_of_eq (by decide : 190 < 202) W_len.symm) main_arg16 main_v153 _ _ _ (rfl : _ = (unary main_arg16 main_v153 (broadcastInDim S1x128 ![1] bcast_S128_S1x128_1 : (⟨S128, .f32⟩ : BufTy).Contents (Elt F) → (⟨S1x128, .f32⟩ : BufTy).Contents (Elt F)) : HloOp τ sig (Elt F))) rfl (by decide +kernel)).trans ?_
  rw [a_main_arg16 V]
  rfl

theorem e_main_v154 : after (ops (F := F)) V (Proc.devRef .tc main_v154) = ReadP.val_main_v154 (F := F) (inp V main_arg16) := by
  refine (end_unary hW hnd V 191 (lt_of_lt_of_eq (by decide : 191 < 202) ops_len.symm) (lt_of_lt_of_eq (by decide : 191 < 202) W_len.symm) main_v153 main_v154 _ _ _ (rfl : _ = (unary main_v153 main_v154 (broadcastInDim S100000x128 ![0, 1] bcast_S1x128_S100000x128_0_1 : (⟨S1x128, .f32⟩ : BufTy).Contents (Elt F) → (⟨S100000x128, .f32⟩ : BufTy).Contents (Elt F)) : HloOp τ sig (Elt F))) rfl (by decide +kernel)).trans ?_
  rw [e_main_v153 V]
  rfl

theorem e_main_v155 : after (ops (F := F)) V (Proc.devRef .tc main_v155) = ReadP.val_main_v155 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg15) (inp V main_arg16) (inp V main_arg17) := by
  refine (end_binary hW hnd V 192 (lt_of_lt_of_eq (by decide : 192 < 202) ops_len.symm) (lt_of_lt_of_eq (by decide : 192 < 202) W_len.symm) main_v152 main_v154 main_v155 _ _ _ _ (rfl : _ = (binary main_v152 main_v154 main_v155 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v152 V, e_main_v154 V]
  rfl

theorem e_main_call2_cst : after (ops (F := F)) V (Proc.devRef .tc main_call2_cst) = ReadP.val_main_call2_cst (F := F) := by
  refine (end_nullary hW hnd V 193 (lt_of_lt_of_eq (by decide : 193 < 202) ops_len.symm) (lt_of_lt_of_eq (by decide : 193 < 202) W_len.symm) main_call2_cst _ _ (rfl : _ = (TRef.nullary (TRef.of (T := ⟨S_, .f32⟩) main_call2_cst) (constant S_ .f32 0x00000000#32) : HloOp τ sig (Elt F))) rfl).trans ?_
  rfl

theorem e_main_call2_v0 : after (ops (F := F)) V (Proc.devRef .tc main_call2_v0) = ReadP.val_main_call2_v0 (F := F) := by
  refine (end_unary hW hnd V 194 (lt_of_lt_of_eq (by decide : 194 < 202) ops_len.symm) (lt_of_lt_of_eq (by decide : 194 < 202) W_len.symm) main_call2_cst main_call2_v0 _ _ _ (rfl : _ = (TRef.unary (TRef.of (T := ⟨S_, .f32⟩) main_call2_cst) (TRef.of (T := ⟨S100000x128, .f32⟩) main_call2_v0) (broadcastInDim S100000x128 ![] bcast_S_S100000x128) : HloOp τ sig (Elt F))) rfl (by decide +kernel)).trans ?_
  rw [e_main_call2_cst V]
  rfl

theorem e_main_v156 : after (ops (F := F)) V (Proc.devRef .tc main_v156) = ReadP.val_main_v156 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg15) (inp V main_arg16) (inp V main_arg17) := by
  refine (end_binary hW hnd V 195 (lt_of_lt_of_eq (by decide : 195 < 202) ops_len.symm) (lt_of_lt_of_eq (by decide : 195 < 202) W_len.symm) main_v155 main_call2_v0 main_v156 _ _ _ _ (rfl : _ = (TRef.binary (TRef.of (T := ⟨S100000x128, .f32⟩) main_v155) (TRef.of (T := ⟨S100000x128, .f32⟩) main_call2_v0) (TRef.of (T := ⟨S100000x128, .f32⟩) main_v156) maximumf : HloOp τ sig (Elt F))) rfl (by decide +kernel) (by decide +kernel)).trans ?_
  rw [e_main_v155 V, e_main_call2_v0 V]
  rfl

theorem e_main_v157 : after (ops (F := F)) V (Proc.devRef .tc main_v157) = ReadP.val_main_v157 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg15) (inp V main_arg16) (inp V main_arg17) := by
  refine (end_binary hW hnd V 196 (lt_of_lt_of_eq (by decide : 196 < 202) ops_len.symm) (lt_of_lt_of_eq (by decide : 196 < 202) W_len.symm) main_v156 main_v106 main_v157 _ _ _ _ (rfl : _ = (binary main_v156 main_v106 main_v157 (addf : (⟨S100000x128, .f32⟩ : BufTy).Contents (Elt F) → (⟨S100000x128, .f32⟩ : BufTy).Contents (Elt F) → (⟨S100000x128, .f32⟩ : BufTy).Contents (Elt F)) : HloOp τ sig (Elt F))) rfl (by decide +kernel) (by decide +kernel)).trans ?_
  rw [e_main_v156 V, e_main_v106 V]
  rfl

theorem e_main_v158 : after (ops (F := F)) V (Proc.devRef .tc main_v158) = ReadP.val_main_v158 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg15) (inp V main_arg16) (inp V main_arg17) (inp V main_arg18) := by
  refine (end_binary hW hnd V 197 (lt_of_lt_of_eq (by decide : 197 < 202) ops_len.symm) (lt_of_lt_of_eq (by decide : 197 < 202) W_len.symm) main_v157 main_arg18 main_v158 _ _ _ _ (rfl : _ = (binary main_v157 main_arg18 main_v158 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)) : HloOp τ sig (Elt F))) rfl (by decide +kernel) (by decide +kernel)).trans ?_
  rw [e_main_v157 V, a_main_arg18 V]
  rfl

theorem e_main_v159 : after (ops (F := F)) V (Proc.devRef .tc main_v159) = ReadP.val_main_v159 (F := F) (inp V main_arg19) := by
  refine (end_unary hW hnd V 198 (lt_of_lt_of_eq (by decide : 198 < 202) ops_len.symm) (lt_of_lt_of_eq (by decide : 198 < 202) W_len.symm) main_arg19 main_v159 _ _ _ (rfl : _ = (unary main_arg19 main_v159 (broadcastInDim S1x1 ![1] bcast_S1_S1x1_1 : (⟨S1, .f32⟩ : BufTy).Contents (Elt F) → (⟨S1x1, .f32⟩ : BufTy).Contents (Elt F)) : HloOp τ sig (Elt F))) rfl (by decide +kernel)).trans ?_
  rw [a_main_arg19 V]
  rfl

theorem e_main_v160 : after (ops (F := F)) V (Proc.devRef .tc main_v160) = ReadP.val_main_v160 (F := F) (inp V main_arg19) := by
  refine (end_unary hW hnd V 199 (lt_of_lt_of_eq (by decide : 199 < 202) ops_len.symm) (lt_of_lt_of_eq (by decide : 199 < 202) W_len.symm) main_v159 main_v160 _ _ _ (rfl : _ = (unary main_v159 main_v160 (broadcastInDim S100000x1 ![0, 1] bcast_S1x1_S100000x1_0_1 : (⟨S1x1, .f32⟩ : BufTy).Contents (Elt F) → (⟨S100000x1, .f32⟩ : BufTy).Contents (Elt F)) : HloOp τ sig (Elt F))) rfl (by decide +kernel)).trans ?_
  rw [e_main_v159 V]
  rfl

theorem e_main_v161 : after (ops (F := F)) V (Proc.devRef .tc main_v161) = ReadP.val_main_v161 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg15) (inp V main_arg16) (inp V main_arg17) (inp V main_arg18) (inp V main_arg19) := by
  refine (end_binary hW hnd V 200 (lt_of_lt_of_eq (by decide : 200 < 202) ops_len.symm) (lt_of_lt_of_eq (by decide : 200 < 202) W_len.symm) main_v158 main_v160 main_v161 _ _ _ _ (rfl : _ = (binary main_v158 main_v160 main_v161 (addf : (⟨S100000x1, .f32⟩ : BufTy).Contents (Elt F) → (⟨S100000x1, .f32⟩ : BufTy).Contents (Elt F) → (⟨S100000x1, .f32⟩ : BufTy).Contents (Elt F)) : HloOp τ sig (Elt F))) rfl (by decide +kernel) (by decide +kernel)).trans ?_
  rw [e_main_v158 V, e_main_v160 V]
  rfl

theorem e_main_v162 : after (ops (F := F)) V (Proc.devRef .tc main_v162) = ReadP.val_main_v162 (F := F) (inp V main_arg0) (inp V main_arg1) (inp V main_arg2) (inp V main_arg3) (inp V main_arg4) (inp V main_arg5) (inp V main_arg6) (inp V main_arg7) (inp V main_arg8) (inp V main_arg9) (inp V main_arg10) (inp V main_arg11) (inp V main_arg12) (inp V main_arg13) (inp V main_arg14) (inp V main_arg15) (inp V main_arg16) (inp V main_arg17) (inp V main_arg18) (inp V main_arg19) := by
  refine (end_reshape hW hnd V 201 (lt_of_lt_of_eq (by decide : 201 < 202) ops_len.symm) (lt_of_lt_of_eq (by decide : 201 < 202) W_len.symm) main_v161 main_v162 rfl shapeCasts_S100000x1_S100000 _ _ (rfl : _ = (reshape main_v161 main_v162 rfl shapeCasts_S100000x1_S100000 : HloOp τ sig (Elt F))) rfl (by decide +kernel)).trans ?_
  rw [e_main_v161 V]
  rfl

end Stages

/-- On every device, for any float values, from any memory with zero counters: every weakly fair execution of
    @main terminates with the two results at their stage values of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v162) = ReadP.val_main_v162 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v157) = ReadP.val_main_v157 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v162).trans (e_main_v162 (launchContents m c)),
      (h c main_v157).trans (e_main_v157 (launchContents m c)),
      (h c main_arg0).trans (a_main_arg0 (launchContents m c)),
      (h c main_arg1).trans (a_main_arg1 (launchContents m c)),
      (h c main_arg2).trans (a_main_arg2 (launchContents m c)),
      (h c main_arg3).trans (a_main_arg3 (launchContents m c)),
      (h c main_arg4).trans (a_main_arg4 (launchContents m c)),
      (h c main_arg5).trans (a_main_arg5 (launchContents m c)),
      (h c main_arg6).trans (a_main_arg6 (launchContents m c)),
      (h c main_arg7).trans (a_main_arg7 (launchContents m c)),
      (h c main_arg8).trans (a_main_arg8 (launchContents m c)),
      (h c main_arg9).trans (a_main_arg9 (launchContents m c)),
      (h c main_arg10).trans (a_main_arg10 (launchContents m c)),
      (h c main_arg11).trans (a_main_arg11 (launchContents m c)),
      (h c main_arg12).trans (a_main_arg12 (launchContents m c)),
      (h c main_arg13).trans (a_main_arg13 (launchContents m c)),
      (h c main_arg14).trans (a_main_arg14 (launchContents m c)),
      (h c main_arg15).trans (a_main_arg15 (launchContents m c)),
      (h c main_arg16).trans (a_main_arg16 (launchContents m c)),
      (h c main_arg17).trans (a_main_arg17 (launchContents m c)),
      (h c main_arg18).trans (a_main_arg18 (launchContents m c)),
      (h c main_arg19).trans (a_main_arg19 (launchContents m c))⟩)
    (run_seq scopedRefs_eq scopedSems_eq defs main (fun _ => ops) main_eq (fun _ => ops_sub) m ρ)

end Cert.ReferenceIdeal.RefRun

end
-- ==== Proof.Folds.lean ====
/-
  The idealized kernel's buffer contents at the boundaries between its segments, read back.

  @main is four stretches of host operations with three pipelined regions between them. A buffer that a stretch does
  not write holds after the stretch what it held before it; a region changes only its one output array. So a value
  computed early (the edge lists, the reciprocal degrees, the identity matrix, the reshaped parameter rows, the argument
  arrays) is still there at every later boundary, and each region's output is there from its exit on.
-/
import proofs.«172658_j14405320311484_1_alg».proof.Proof.Gen.KernelIdeal.Frame
import Idealize.ShloMosaic.Lib.StableHlo.Run

set_option maxRecDepth 16384

noncomputable section

namespace Cert.KernelIdeal.Folds

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-- The buffers each stretch of host operations writes. -/
def wr0 : List (Ref sig .tc) := [main_v0, main_v1, main_v2, main_v3, main_cst, main_v4, main_cst_0, main_v5, main_v6, main_v7, main_cst_1, main_v8, main_v9, main_cst_2, main_v10, main_v11, main_v12, main_v13, main_v14, main_c, main_v15, main_v16, main_v17, main_v18, main_v19, main_v20, main_v21, main_v22, main_v23, main_v24, main_v25, main_v26, main_v27, main_c_3, main_v28, main_v29, main_c_4, main_v30, main_v31, main_v32, main_v33, main_v34, main_cst_5, main_v35, main_v36, main_v37, main_v38, main_v39]
def wr1 : List (Ref sig .tc) := [main_c_6, main_v41, main_v42, main_c_7, main_v43, main_v44, main_v45, main_v46, main_v47, main_cst_8, main_v48, main_v49, main_v50, main_v51, main_v52]
def wr2 : List (Ref sig .tc) := [main_c_9, main_v54, main_v55, main_c_10, main_v56, main_v57, main_v58, main_v59, main_v60, main_cst_11, main_v61, main_v62, main_v63, main_v64, main_v65]
def wr3 : List (Ref sig .tc) := [main_v67, main_v68, main_v69, main_v70, main_v71]

theorem hwr0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem hwr1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem hwr2 : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem hwr3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer a stretch does not write is kept by it. -/
theorem keepH0 (r : Ref sig .tc) (hr : r ∉ wr0) : W1 m ρ c (Proc.devRef .tc r) = m ((c : Thread nD τ).loc r) :=
  StableHlo.after_of_writes_sub hostOps0 (W0 m ρ c) hwr0 hr
theorem keepH1 (r : Ref sig .tc) (hr : r ∉ wr1) : W3 m ρ c (Proc.devRef .tc r) = W2 m ρ c (Proc.devRef .tc r) :=
  StableHlo.after_of_writes_sub hostOps1 (W2 m ρ c) hwr1 hr
theorem keepH2 (r : Ref sig .tc) (hr : r ∉ wr2) : W5 m ρ c (Proc.devRef .tc r) = W4 m ρ c (Proc.devRef .tc r) :=
  StableHlo.after_of_writes_sub hostOps2 (W4 m ρ c) hwr2 hr
theorem keepH3 (r : Ref sig .tc) (hr : r ∉ wr3) : W7 m ρ c (Proc.devRef .tc r) = W6 m ρ c (Proc.devRef .tc r) :=
  StableHlo.after_of_writes_sub hostOps3 (W6 m ρ c) hwr3 hr

/-- A region keeps every buffer but its output array: an array it only reads ends as it was entered, and a buffer
    that is none of its arrays is not touched. -/
theorem keepR0 (r : Ref sig .tc) (hr : r ≠ main_v40) : W2 m ρ c (Proc.devRef .tc r) = W1 m ρ c (Proc.devRef .tc r) := by
  by_cases h : ∃ w, Pipeline.arrRef spec0 w = r
  · obtain ⟨w, rfl⟩ := h
    have hin : (cfg0.win w).isOut = false := by
      revert hr; revert w; decide
    exact (W2_arr m ρ c w).trans (((dat0 (V1 m ρ) c).arrAt_in w hin _).trans (A_eq0 (V1 m ρ) c w))
  · exact W2_of_ne m ρ c r (fun w e => h ⟨w, e⟩)
theorem keepR1 (r : Ref sig .tc) (hr : r ≠ main_v53) : W4 m ρ c (Proc.devRef .tc r) = W3 m ρ c (Proc.devRef .tc r) := by
  by_cases h : ∃ w, Pipeline.arrRef spec1 w = r
  · obtain ⟨w, rfl⟩ := h
    have hin : (cfg1.win w).isOut = false := by
      revert hr; revert w; decide
    exact (W4_arr m ρ c w).trans (((dat1 (V3 m ρ) c).arrAt_in w hin _).trans (A_eq1 (V3 m ρ) c w))
  · exact W4_of_ne m ρ c r (fun w e => h ⟨w, e⟩)
theorem keepR2 (r : Ref sig .tc) (hr : r ≠ main_v66) : W6 m ρ c (Proc.devRef .tc r) = W5 m ρ c (Proc.devRef .tc r) := by
  by_cases h : ∃ w, Pipeline.arrRef spec2 w = r
  · obtain ⟨w, rfl⟩ := h
    have hin : (cfg2.win w).isOut = false := by
      revert hr; revert w; decide
    exact (W6_arr m ρ c w).trans (((dat2 (V5 m ρ) c).arrAt_in w hin _).trans (A_eq2 (V5 m ρ) c w))
  · exact W6_of_ne m ρ c r (fun w e => h ⟨w, e⟩)

/-- Each region's output array at its exit is what its pipeline leaves. -/
theorem out0 : W2 m ρ c (Proc.devRef .tc main_v40) = (dat0 (V1 m ρ) c).arrAt 8 cfg0.N := W2_arr m ρ c 8
theorem out1 : W4 m ρ c (Proc.devRef .tc main_v53) = (dat1 (V3 m ρ) c).arrAt 8 cfg1.N := W4_arr m ρ c 8
theorem out2 : W6 m ρ c (Proc.devRef .tc main_v66) = (dat2 (V5 m ρ) c).arrAt 8 cfg2.N := W6_arr m ρ c 8

/-- A buffer written by the first stretch only, and no region's output, holds at every later boundary what the first
    stretch left in it. -/
theorem late2 (r : Ref sig .tc) (h0 : r ≠ main_v40) : W2 m ρ c (Proc.devRef .tc r) = W1 m ρ c (Proc.devRef .tc r) := keepR0 m ρ c r h0
theorem late3 (r : Ref sig .tc) (h0 : r ≠ main_v40) (h1 : r ∉ wr1) : W3 m ρ c (Proc.devRef .tc r) = W1 m ρ c (Proc.devRef .tc r) :=
  (keepH1 m ρ c r h1).trans (late2 m ρ c r h0)
theorem late4 (r : Ref sig .tc) (h0 : r ≠ main_v40) (h1 : r ∉ wr1) (h2 : r ≠ main_v53) : W4 m ρ c (Proc.devRef .tc r) = W1 m ρ c (Proc.devRef .tc r) :=
  (keepR1 m ρ c r h2).trans (late3 m ρ c r h0 h1)
theorem late5 (r : Ref sig .tc) (h0 : r ≠ main_v40) (h1 : r ∉ wr1) (h2 : r ≠ main_v53) (h3 : r ∉ wr2) : W5 m ρ c (Proc.devRef .tc r) = W1 m ρ c (Proc.devRef .tc r) :=
  (keepH2 m ρ c r h3).trans (late4 m ρ c r h0 h1 h2)
theorem late6 (r : Ref sig .tc) (h0 : r ≠ main_v40) (h1 : r ∉ wr1) (h2 : r ≠ main_v53) (h3 : r ∉ wr2) (h4 : r ≠ main_v66) : W6 m ρ c (Proc.devRef .tc r) = W1 m ρ c (Proc.devRef .tc r) :=
  (keepR2 m ρ c r h4).trans (late5 m ρ c r h0 h1 h2 h3)

end Cert.KernelIdeal.Folds

end
-- ==== Proof.LibMeanLaws.lean ====
/-
  Laws of the extended reals that join a mean aggregation written as a product with a reciprocal count to one written
  as a quotient, and a linear map with pre-summed weights to the sum of the linear maps.

  * Off zero, `x / y` is `x · (1 / y)` on EVERY extended real `x` (both are `x · y⁻¹`); a count clamped from below by
    one, `max c 1`, is never zero, so `s / max c 1 = s · (1 / max c 1)` needs no finiteness of `s` or `c`.
  * A dot product distributes over a sum of weights when all three families are real:
    `∑ x·(a + b) = ∑ x·a + ∑ x·b`. (On the extended reals this fails at opposite infinities, so the hypothesis is used.)
  * Being a real number is closed under sums, products, finite sums, maxima, and quotients by a real that is at least one.
-/
import Idealize.ShloMosaic.PureOps.Ideal
import Idealize.ShloMosaic.PureOps.Ideal.Laws

noncomputable section

namespace Cert.Lib.MeanLaws

open Idealize.ShloMosaic

/-- Off zero a quotient is the product with the reciprocal, for every extended real numerator. -/
theorem div_eq_mul_one_div {y : EReal} (hy : y ≠ 0) (x : EReal) : Ideal.div x y = x * Ideal.div 1 y := by
  rw [Ideal.div, if_neg hy, Ideal.div, if_neg hy, one_mul]

/-- A quantity clamped from below by one is not zero. -/
theorem max_one_ne_zero (c : EReal) : max c 1 ≠ 0 :=
  ne_of_gt (lt_of_lt_of_le zero_lt_one (le_max_right c 1))

/-- The mean by a clamped count: dividing by `max c 1` is multiplying by its reciprocal, whatever `x` and `c` are. -/
theorem div_max_one (x c : EReal) : Ideal.div x (max c 1) = x * Ideal.div 1 (max c 1) :=
  div_eq_mul_one_div (max_one_ne_zero c) x

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ k ∈ s, IsReal (f k)) : IsReal (∑ k ∈ s, f k) := by
  classical
  induction s using Finset.induction_on with
  | empty => simpa using IsReal.zero
  | insert a s ha ih =>
    rw [Finset.sum_insert ha]
    exact (h a (Finset.mem_insert_self a s)).add (ih fun k hk => h k (Finset.mem_insert_of_mem hk))

/-- The reciprocal of a real clamped from below by one is a real. -/
theorem isReal_one_div_max_one {c : EReal} (hc : IsReal c) : IsReal (Ideal.div 1 (max c 1)) := by
  obtain ⟨r, hr⟩ := hc.max IsReal.one
  have hne : (r : EReal) ≠ 0 := hr ▸ max_one_ne_zero c
  rw [hr, Ideal.div_coe (by exact_mod_cast hne), one_mul]
  exact ⟨_, rfl⟩

/-- A dot product distributes over a sum of two weight families when everything is real. -/
theorem sum_mul_add {ι : Type*} (s : Finset ι) (x a b : ι → EReal)
    (hx : ∀ k ∈ s, IsReal (x k)) (ha : ∀ k ∈ s, IsReal (a k)) (hb : ∀ k ∈ s, IsReal (b k)) :
    ∑ k ∈ s, x k * (a k + b k) = ∑ k ∈ s, x k * a k + ∑ k ∈ s, x k * b k := by
  rw [← Finset.sum_add_distrib]
  refine Finset.sum_congr rfl fun k hk => ?_
  obtain ⟨u, hu⟩ := hx k hk; obtain ⟨v, hv⟩ := ha k hk; obtain ⟨w, hw⟩ := hb k hk
  rw [hu, hv, hw, ← EReal.coe_add, ← EReal.coe_mul, ← EReal.coe_mul, ← EReal.coe_mul, ← EReal.coe_add, mul_add]

end Cert.Lib.MeanLaws

end
-- ==== Proof.LibBroadcastReads.lean ====
/-
  `broadcast_in_dim` of the small shapes a bias, a per-row scale and a per-edge scale go through, read at an index:
  a scalar to any shape; a list [a] to a column [a, 1]; a column [a, 1] across [a, b]; a list [b] to a row [1, b]; a row
  [1, b] down [a, b].
-/
import Idealize.ShloMosaic.Lib.ValueIdx
import Idealize.ShloMosaic.Lib.Pipeline.Value

noncomputable section

namespace BroadcastReads

open Idealize.ShloMosaic Idealize.ShloMosaic.ValueIdx

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A list as a column: entry `(p, 0)` is entry `p`. -/
theorem col_apply {a : Nat} (dims : Fin 1 → Fin 2) (hd : dims 0 = 0)
    (h : (⟨1, ![a]⟩ : Shape).BroadcastsInDim ⟨2, ![a, 1]⟩ dims) (x : (⟨1, ![a]⟩ : Shape).Idx → α) (p : Fin a) (z : Fin 1) :
    broadcastInDim ⟨2, ![a, 1]⟩ dims h x (ix2 p z) = x (ix1 p) :=
  broadcastInDim_apply dims h x (ix2 p z) (ix1 p) (fun d => by
    match d with
    | ⟨0, _⟩ =>
      show p.val = if a = 1 then 0 else ((ix2 p z) (dims 0)).val
      rw [hd]
      show p.val = if a = 1 then 0 else p.val
      split
      · have := p.isLt; omega
      · rfl)

/-- A column across its rows: entry `(p, q)` is the column's entry `(p, 0)`. -/
theorem colAcross_apply {a b : Nat} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (q : Fin b) :
    broadcastInDim ⟨2, ![a, b]⟩ dims h x (ix2 p q) = x (ix2 p (0 : Fin 1)) :=
  broadcastInDim_apply dims h x (ix2 p q) (ix2 p (0 : Fin 1)) (fun d => by
    match d with
    | ⟨0, _⟩ =>
      show p.val = if a = 1 then 0 else ((ix2 p q) (dims 0)).val
      rw [hd0]
      show p.val = if a = 1 then 0 else p.val
      split
      · have := p.isLt; omega
      · rfl
    | ⟨1, _⟩ =>
      show (0 : Nat) = if (1 : Nat) = 1 then 0 else ((ix2 p q) (dims 1)).val
      rw [if_pos rfl])

/-- A list as a row: entry `(0, q)` is entry `q`. -/
theorem row_apply {b : Nat} (dims : Fin 1 → Fin 2) (hd : dims 0 = 1)
    (h : (⟨1, ![b]⟩ : Shape).BroadcastsInDim ⟨2, ![1, b]⟩ dims) (x : (⟨1, ![b]⟩ : Shape).Idx → α) (z : Fin 1) (q : Fin b) :
    broadcastInDim ⟨2, ![1, b]⟩ dims h x (ix2 z q) = x (ix1 q) :=
  broadcastInDim_apply dims h x (ix2 z q) (ix1 q) (fun d => by
    match d with
    | ⟨0, _⟩ =>
      show q.val = if b = 1 then 0 else ((ix2 z q) (dims 0)).val
      rw [hd]
      show q.val = if b = 1 then 0 else q.val
      split
      · have := q.isLt; omega
      · rfl)

/-- A row down its columns: entry `(p, q)` is the row's entry `(0, q)`. -/
theorem rowDown_apply {a b : Nat} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (q : Fin b) :
    broadcastInDim ⟨2, ![a, b]⟩ dims h x (ix2 p q) = x (ix2 (0 : Fin 1) q) :=
  broadcastInDim_apply dims h x (ix2 p q) (ix2 (0 : Fin 1) q) (fun d => by
    match d with
    | ⟨0, _⟩ =>
      show (0 : Nat) = if (1 : Nat) = 1 then 0 else ((ix2 p q) (dims 0)).val
      rw [if_pos rfl]
    | ⟨1, _⟩ =>
      show q.val = if b = 1 then 0 else ((ix2 p q) (dims 1)).val
      rw [hd1]
      show q.val = if b = 1 then 0 else q.val
      split
      · have := q.isLt; omega
      · rfl)

end BroadcastReads

end
-- ==== Proof.MeanAgg.lean ====
/-
  The two spellings of the neighbour mean agree entry by entry.

  One program multiplies the summed neighbour features of node `R` by the reciprocal `1 / max (deg R) 1` of its clamped
  in-degree (computed once, laid out as a column and spread across the feature columns); the other divides the same sum
  by `max (deg R) 1`. A count clamped from below by one is never zero, and off zero a quotient is the product with the
  reciprocal for EVERY extended-real numerator, so the two entries are equal with nothing assumed finite. The word
  `0x3F800000` is the real one.
-/
import Idealize.ShloMosaic.Lib.ValueIdx
import Idealize.ShloMosaic.Lib.IdealHost
import Idealize.ShloMosaic.Lib.Pipeline.Value
import proofs.«172658_j14405320311484_1_alg».proof.Proof.LibMeanLaws
import proofs.«172658_j14405320311484_1_alg».proof.Proof.LibBroadcastReads

noncomputable section

namespace Cert.MeanAgg

open Idealize.ShloMosaic Idealize.ShloMosaic.ValueIdx

/-- The clamped in-degree as a column spread across `d` feature columns, read at `(R, k)`. -/
theorem spread_apply {d : ℕ} (v : FVec Ideal ⟨1, ![100000]⟩ .f32)
    (hc : (⟨1, ![100000]⟩ : Shape).BroadcastsInDim ⟨2, ![100000, 1]⟩ ![0])
    (ha : (⟨2, ![100000, 1]⟩ : Shape).BroadcastsInDim ⟨2, ![100000, d]⟩ ![0, 1]) (R : Fin 100000) (k : Fin d) :
    broadcastInDim ⟨2, ![100000, d]⟩ ![0, 1] ha (broadcastInDim ⟨2, ![100000, 1]⟩ ![0] hc v) (ix2 R k) = v (ix1 R) := by
  rw [BroadcastReads.colAcross_apply _ rfl rfl, BroadcastReads.col_apply _ rfl]

/-- Summed features times the reciprocal of the clamped degree is the summed features divided by the clamped degree. -/
theorem mul_recip_eq_div {d : ℕ} (sc : FVec Ideal ⟨2, ![100000, d]⟩ .f32) (dg : FVec Ideal ⟨1, ![100000]⟩ .f32)
    (hs : (⟨0, ![]⟩ : Shape).BroadcastsInDim ⟨1, ![100000]⟩ ![])
    (hc : (⟨1, ![100000]⟩ : Shape).BroadcastsInDim ⟨2, ![100000, 1]⟩ ![0])
    (ha : (⟨2, ![100000, 1]⟩ : Shape).BroadcastsInDim ⟨2, ![100000, d]⟩ ![0, 1]) (R : Fin 100000) (k : Fin d) :
    mulf sc (broadcastInDim ⟨2, ![100000, d]⟩ ![0, 1] ha (broadcastInDim ⟨2, ![100000, 1]⟩ ![0] hc
        (Host.divf (F := Ideal) (broadcastInDim ⟨1, ![100000]⟩ ![] hs (constant (F := Ideal) ⟨0, ![]⟩ .f32 0x3F800000#32))
          (maximumf dg (broadcastInDim ⟨1, ![100000]⟩ ![] hs (constant (F := Ideal) ⟨0, ![]⟩ .f32 0x3F800000#32)))))) (ix2 R k)
      = Host.divf (F := Ideal) sc (broadcastInDim ⟨2, ![100000, d]⟩ ![0, 1] ha (broadcastInDim ⟨2, ![100000, 1]⟩ ![0] hc
          (maximumf dg (broadcastInDim ⟨1, ![100000]⟩ ![] hs (constant (F := Ideal) ⟨0, ![]⟩ .f32 0x3F800000#32))))) (ix2 R k) := by
  show sc (ix2 R k) * _ = Ideal.div (sc (ix2 R k)) _
  rw [spread_apply, spread_apply]
  show sc (ix2 R k) * Ideal.div (broadcastInDim ⟨1, ![100000]⟩ ![] hs (constant (F := Ideal) ⟨0, ![]⟩ .f32 0x3F800000#32) (ix1 R))
        (max (dg (ix1 R)) (broadcastInDim ⟨1, ![100000]⟩ ![] hs (constant (F := Ideal) ⟨0, ![]⟩ .f32 0x3F800000#32) (ix1 R)))
      = Ideal.div (sc (ix2 R k)) (max (dg (ix1 R)) (broadcastInDim ⟨1, ![100000]⟩ ![] hs (constant (F := Ideal) ⟨0, ![]⟩ .f32 0x3F800000#32) (ix1 R)))
  rw [BroadcastReads.scalar_apply]
  show sc (ix2 R k) * Ideal.div (Ideal.ofBits .f32 0x3F800000#32) (max (dg (ix1 R)) (Ideal.ofBits .f32 0x3F800000#32))
      = Ideal.div (sc (ix2 R k)) (max (dg (ix1 R)) (Ideal.ofBits .f32 0x3F800000#32))
  rw [Ideal.ofBits_one_f32]
  exact (Cert.Lib.MeanLaws.div_max_one _ _).symm

end Cert.MeanAgg

end
-- ==== Proof.EyeMatrix.lean ====
/-
  The identity matrix as the program builds it: an entry is one on the diagonal and zero off it.

  The matrix is the comparison of a row-index table (plus a zero splat) with a column-index table, converted to a
  float: the comparison gives the one-bit word 1 exactly where the row index equals the column index (both are below
  128, far below 2³², so the 32-bit words are equal exactly when the indices are), and the conversion reads that bit
  as the real 1 or 0.
-/
import Idealize.ShloMosaic.Lib.ValueIdx
import Idealize.ShloMosaic.Lib.IdealHost
import Idealize.ShloMosaic.Lib.Pipeline.Value
import proofs.«172658_j14405320311484_1_alg».proof.Proof.LibBroadcastReads

noncomputable section

namespace Cert.EyeMatrix

open Idealize.ShloMosaic Idealize.ShloMosaic.ValueIdx

theorem ofNat_eq_iff (k j : Fin 128) : (BitVec.ofNat 32 k.val + 0#32 == BitVec.ofNat 32 j.val) = decide (k = j) := by
  have hk := k.isLt; have hj := j.isLt
  rw [BitVec.add_zero]
  by_cases h : k = j
  · subst h; simp
  · have hne : BitVec.ofNat 32 k.val ≠ BitVec.ofNat 32 j.val := by
      intro e
      have := congrArg BitVec.toNat e
      simp only [BitVec.toNat_ofNat] at this
      rw [Nat.mod_eq_of_lt (by omega), Nat.mod_eq_of_lt (by omega)] at this
      exact h (Fin.ext this)
    simp [h, hne]

/-- Entry `(k, j)` of the identity matrix. -/
theorem eye_apply (hb : (⟨0, ![]⟩ : Shape).BroadcastsInDim ⟨2, ![128, 128]⟩ ![]) (k j : Fin 128) :
    (uitofp (F := Ideal) .f32 (cmpi .eq (addi (iotaInDim ⟨2, ![128, 128]⟩ 32 0)
        (broadcastInDim ⟨2, ![128, 128]⟩ ![] hb (constantI ⟨0, ![]⟩ 32 0#32))) (iotaInDim ⟨2, ![128, 128]⟩ 32 1))
      : FVec Ideal ⟨2, ![128, 128]⟩ .f32) (ix2 k j) = if k = j then 1 else 0 := by
  show (((IntOp.cmpi .eq (IntOp.addi (BitVec.ofNat 32 k.val)
      (broadcastInDim ⟨2, ![128, 128]⟩ ![] hb (constantI ⟨0, ![]⟩ 32 0#32) (ix2 k j))) (BitVec.ofNat 32 j.val)).toNat : ℝ) : EReal) = _
  rw [BroadcastReads.scalar_apply]
  show (((BitVec.ofBool (BitVec.ofNat 32 k.val + 0#32 == BitVec.ofNat 32 j.val)).toNat : ℝ) : EReal) = _
  rw [ofNat_eq_iff]
  by_cases h : k = j
  · simp [h]
  · simp [h]

end Cert.EyeMatrix

end
-- ==== Proof.Bridge0.lean ====
/-
  The idealized kernel's arrays at its first region's entry, against the reference's stages.

  Before the first region the program has computed, from the edge list and the node features: the two endpoint lists,
  the clamped in-degree and its reciprocal laid out as a column, the identity matrix, the parameter rows laid out as
  `[1, 128]` rows, and the mean-aggregated input features — the summed neighbour features times the reciprocal column.
  The same gathers and scatter-adds appear in the reference; only the mean is spelt as a quotient there.
-/
import proofs.«172658_j14405320311484_1_alg».proof.Proof.Folds
import proofs.«172658_j14405320311484_1_alg».proof.Proof.ReadP
import proofs.«172658_j14405320311484_1_alg».proof.Proof.MeanAgg
import proofs.«172658_j14405320311484_1_alg».proof.Proof.EyeMatrix
import Idealize.ShloMosaic.Lib.ValueLayout
import Idealize.ShloMosaic.Lib.StableHlo.Run

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.ReferenceIdeal.ReadP

variable (m : (ℓ : Loc nD τ sig) → Buf (Elt Ideal) ℓ) (ρ : Dev nD → PrngReg) (c : Dev nD)

/-- The argument arrays as launched. -/
abbrev a0 : (⟨S100000x32, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S32x128, .f32⟩ : BufTy).Contents (Elt Ideal) := m ((c : Thread nD τ).loc main_arg2)
abbrev a3 : (⟨S128, .f32⟩ : BufTy).Contents (Elt Ideal) := m ((c : Thread nD τ).loc main_arg3)
abbrev a4 : (⟨S32x128, .f32⟩ : BufTy).Contents (Elt Ideal) := m ((c : Thread nD τ).loc main_arg4)
abbrev a5 : (⟨S128, .f32⟩ : BufTy).Contents (Elt Ideal) := m ((c : Thread nD τ).loc main_arg5)
abbrev a6 : (⟨S128, .f32⟩ : BufTy).Contents (Elt Ideal) := m ((c : Thread nD τ).loc main_arg6)
abbrev a7 : (⟨S128x128, .f32⟩ : BufTy).Contents (Elt Ideal) := m ((c : Thread nD τ).loc main_arg7)
abbrev a8 : (⟨S128, .f32⟩ : BufTy).Contents (Elt Ideal) := m ((c : Thread nD τ).loc main_arg8)
abbrev a9 : (⟨S128x128, .f32⟩ : BufTy).Contents (Elt Ideal) := m ((c : Thread nD τ).loc main_arg9)
abbrev a10 : (⟨S128, .f32⟩ : BufTy).Contents (Elt Ideal) := m ((c : Thread nD τ).loc main_arg10)
abbrev a11 : (⟨S128, .f32⟩ : BufTy).Contents (Elt Ideal) := m ((c : Thread nD τ).loc main_arg11)
abbrev a12 : (⟨S128x128, .f32⟩ : BufTy).Contents (Elt Ideal) := m ((c : Thread nD τ).loc main_arg12)
abbrev a13 : (⟨S128, .f32⟩ : BufTy).Contents (Elt Ideal) := m ((c : Thread nD τ).loc main_arg13)
abbrev a14 : (⟨S128x128, .f32⟩ : BufTy).Contents (Elt Ideal) := m ((c : Thread nD τ).loc main_arg14)
abbrev a15 : (⟨S128, .f32⟩ : BufTy).Contents (Elt Ideal) := m ((c : Thread nD τ).loc main_arg15)
abbrev a16 : (⟨S128, .f32⟩ : BufTy).Contents (Elt Ideal) := m ((c : Thread nD τ).loc main_arg16)
abbrev a17 : (⟨S32x128, .f32⟩ : BufTy).Contents (Elt Ideal) := m ((c : Thread nD τ).loc main_arg17)
abbrev a18 : (⟨S128x1, .f32⟩ : BufTy).Contents (Elt Ideal) := m ((c : Thread nD τ).loc main_arg18)
abbrev a19 : (⟨S1, .f32⟩ : BufTy).Contents (Elt Ideal) := m ((c : Thread nD τ).loc main_arg19)

/-- The reciprocal of the clamped in-degree, as a column. -/
def recipCol (dg : FVec Ideal S100000 .f32) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf dg (broadcastInDim S100000 ![] bcast_S_S100000 (constant (F := Ideal) S_ .f32 0x3F800000#32))))

/-- The identity matrix as the program builds it. -/
def eyeM : FVec Ideal S128x128 .f32 :=
  uitofp (F := Ideal) .f32 (cmpi .eq (addi (iotaInDim S128x128 32 0) (broadcastInDim S128x128 ![] bcast_S_S128x128 (constantI S_ 32 0#32)))
    (iotaInDim S128x128 32 1))

/-! ## What the first stretch of host operations leaves -/

theorem W1_v1 : W1 m ρ c (Proc.devRef .tc main_v1) = val_main_v1 (F := Ideal) (a1 m c) := by
  show StableHlo.after hostOps0 (W0 m ρ c) (Proc.devRef .tc main_v1) = _
  after_results
  rfl

theorem W1_v3 : W1 m ρ c (Proc.devRef .tc main_v3) = val_main_v3 (F := Ideal) (a1 m c) := by
  show StableHlo.after hostOps0 (W0 m ρ c) (Proc.devRef .tc main_v3) = _
  after_results
  rfl

theorem W1_v12 : W1 m ρ c (Proc.devRef .tc main_v12) = recipCol (val_main_v17 (F := Ideal) (a1 m c)) := by
  show StableHlo.after hostOps0 (W0 m ρ c) (Proc.devRef .tc main_v12) = _
  after_results
  rfl

theorem W1_v18 : W1 m ρ c (Proc.devRef .tc main_v18) = eyeM := by
  show StableHlo.after hostOps0 (W0 m ρ c) (Proc.devRef .tc main_v18) = _
  after_results
  rfl

set_option maxHeartbeats 4000000 in
theorem W1_v39 : W1 m ρ c (Proc.devRef .tc main_v39)
    = mulf (val_main_v13 (F := Ideal) (a0 m c) (a1 m c))
        (broadcastInDim S100000x32 ![0, 1] bcast_S100000x1_S100000x32_0_1 (recipCol (val_main_v17 (F := Ideal) (a1 m c)))) := by
  show StableHlo.after hostOps0 (W0 m ρ c) (Proc.devRef .tc main_v39) = _
  after_results_simp
  rfl

theorem W1_v19 : W1 m ρ c (Proc.devRef .tc main_v19) = shapeCast S1x128 (a3 m c) shapeCasts_S128_S1x128 := by
  show StableHlo.after hostOps0 (W0 m ρ c) (Proc.devRef .tc main_v19) = _
  after_results
  rfl

theorem W1_v20 : W1 m ρ c (Proc.devRef .tc main_v20) = shapeCast S1x128 (a5 m c) shapeCasts_S128_S1x128 := by
  show StableHlo.after hostOps0 (W0 m ρ c) (Proc.devRef .tc main_v20) = _
  after_results
  rfl

theorem W1_v21 : W1 m ρ c (Proc.devRef .tc main_v21) = shapeCast S1x128 (a6 m c) shapeCasts_S128_S1x128 := by
  show StableHlo.after hostOps0 (W0 m ρ c) (Proc.devRef .tc main_v21) = _
  after_results
  rfl

theorem W1_v22 : W1 m ρ c (Proc.devRef .tc main_v22) = shapeCast S1x128 (a8 m c) shapeCasts_S128_S1x128 := by
  show StableHlo.after hostOps0 (W0 m ρ c) (Proc.devRef .tc main_v22) = _
  after_results
  rfl

theorem W1_v23 : W1 m ρ c (Proc.devRef .tc main_v23) = shapeCast S1x128 (a10 m c) shapeCasts_S128_S1x128 := by
  show StableHlo.after hostOps0 (W0 m ρ c) (Proc.devRef .tc main_v23) = _
  after_results
  rfl

theorem W1_v24 : W1 m ρ c (Proc.devRef .tc main_v24) = shapeCast S1x128 (a11 m c) shapeCasts_S128_S1x128 := by
  show StableHlo.after hostOps0 (W0 m ρ c) (Proc.devRef .tc main_v24) = _
  after_results
  rfl

theorem W1_v25 : W1 m ρ c (Proc.devRef .tc main_v25) = shapeCast S1x128 (a13 m c) shapeCasts_S128_S1x128 := by
  show StableHlo.after hostOps0 (W0 m ρ c) (Proc.devRef .tc main_v25) = _
  after_results
  rfl

theorem W1_v26 : W1 m ρ c (Proc.devRef .tc main_v26) = shapeCast S1x128 (a15 m c) shapeCasts_S128_S1x128 := by
  show StableHlo.after hostOps0 (W0 m ρ c) (Proc.devRef .tc main_v26) = _
  after_results
  rfl

theorem W1_v27 : W1 m ρ c (Proc.devRef .tc main_v27) = shapeCast S1x128 (a16 m c) shapeCasts_S128_S1x128 := by
  show StableHlo.after hostOps0 (W0 m ρ c) (Proc.devRef .tc main_v27) = _
  after_results
  rfl

/-- A parameter row laid out as `[1, 128]` reads, at column `j`, the parameter's entry `j`. -/
theorem row_apply (x : (⟨S128, .f32⟩ : BufTy).Contents (Elt Ideal)) (j : Fin 128) :
    (shapeCast S1x128 x shapeCasts_S128_S1x128 : S1x128.Idx → EReal) (ix2 (0 : Fin 1) j) = x (ix1 j) :=
  shapeCast_a_1a_apply x shapeCasts_S128_S1x128 0 j

/-- The mean-aggregated input features are the reference's, entry by entry: the product with the reciprocal column is
    the quotient by the clamped degree. -/
theorem agg0 : (W1 m ρ c (Proc.devRef .tc main_v39) : S100000x32.Idx → EReal) = val_main_v22 (F := Ideal) (a0 m c) (a1 m c) := by
  rw [W1_v39]
  funext i
  obtain ⟨R, k, rfl⟩ : ∃ (R : Fin 100000) (k : Fin 32), i = ix2 R k := ⟨i 0, i 1, eq_ix2 i⟩
  exact Cert.MeanAgg.mul_recip_eq_div (val_main_v13 (F := Ideal) (a0 m c) (a1 m c)) (val_main_v17 (F := Ideal) (a1 m c))
    bcast_S_S100000 bcast_S100000_S100000x1_0 bcast_S100000x1_S100000x32_0_1 R k

/-- The identity matrix's entries. -/
theorem eyeM_apply (k j : Fin 128) : eyeM (ix2 k j) = if k = j then 1 else 0 :=
  Cert.EyeMatrix.eye_apply bcast_S_S128x128 k j

end Cert.Bridge

end
-- ==== Proof.LayerSpec.lean ====
/-
  One layer of a mean-aggregating graph convolution followed by layer normalisation, a rectifier and a residual,
  written for ONE node (one row) over the extended reals.

  For a node with aggregated neighbour features `a` and own features `h` (both of width `d`), weight matrices
  `Wl`, `Wr` (`d × 128`), a bias `bl`, and a gain `g` and shift `be` (width 128):
    * the pre-activation at column `j` is `(∑ k, a k · Wl k j + bl j) + ∑ k, h k · Wr k j`;
    * its mean over the 128 columns is the sum divided by 128, its variance the mean of the squared deviations;
    * the normalised activation at column `q` is `max ((s q − μ) · rsqrt (var + ε) · g q + be q) 0`.
  The residual added to it is either a projection `∑ k, h k · Wres k q` or the node's own feature `h q`; the two agree
  when `Wres` is the identity matrix, on every extended real (a product with zero is zero, also at the infinities).
  The two constants 128 and ε stay the binary words both programs print; only the zero word is evaluated.
-/
import Idealize.ShloMosaic.Lib.ValueIdx
import Idealize.ShloMosaic.PureOps.Ideal.Laws

noncomputable section

namespace Cert.LayerSpec

open Idealize.ShloMosaic Idealize.ShloMosaic.ValueIdx

/-- The float word of 128. -/
def c128 : EReal := Ideal.ofBits .f32 0x43000000#32
/-- The float word of the normalisation's ε. -/
def ceps : EReal := Ideal.ofBits .f32 0x3727C5AC#32

/-- The pre-activation of one node at column `j`. -/
def pre {d : ℕ} (a h : Fin d → EReal) (Wl Wr : Fin d → Fin 128 → EReal) (bl : Fin 128 → EReal) (j : Fin 128) : EReal :=
  ((∑ k : Fin d, a k * Wl k j) + bl j) + ∑ k : Fin d, h k * Wr k j

/-- The mean of 128 values: their sum divided by the word of 128. -/
def mean128 (s : Fin 128 → EReal) : EReal := Ideal.div (∑ j : Fin 128, s j) c128

/-- The variance of 128 values about their mean. -/
def var128 (s : Fin 128 → EReal) : EReal := mean128 fun j => (s j - mean128 s) * (s j - mean128 s)

/-- Layer normalisation with gain and shift, then the rectifier, at column `q`. -/
def normRelu (s : Fin 128 → EReal) (g be : Fin 128 → EReal) (q : Fin 128) : EReal :=
  max ((((s q - mean128 s) * Ideal.rsqrt (var128 s + ceps)) * g q) + be q) 0

/-- The normalised, rectified activation of one node at column `q`. -/
def act {d : ℕ} (a h : Fin d → EReal) (Wl Wr : Fin d → Fin 128 → EReal) (bl g be : Fin 128 → EReal) (q : Fin 128) : EReal :=
  normRelu (pre a h Wl Wr bl) g be q

/-- The projected residual of one node at column `q`. -/
def proj {d : ℕ} (h : Fin d → EReal) (Wres : Fin d → Fin 128 → EReal) (q : Fin 128) : EReal :=
  ∑ k : Fin d, h k * Wres k q

/-- A projection by the identity matrix is the identity, on every extended real: every off-diagonal term is a product
    with zero. -/
theorem proj_identity (h : Fin 128 → EReal) (E : Fin 128 → Fin 128 → EReal)
    (hE : ∀ k j, E k j = if k = j then 1 else 0) (q : Fin 128) : proj h E q = h q := by
  unfold proj
  rw [Finset.sum_eq_single q]
  · rw [hE, if_pos rfl, mul_one]
  · intro k _ hk
    rw [hE, if_neg hk, mul_zero]
  · intro hq
    exact absurd (Finset.mem_univ q) hq

end Cert.LayerSpec

end
-- ==== Proof.LayerArray0.lean ====
/-
  Layer 0 as the pipelined region leaves it: the output array after all fifty grid points, entry by entry.

  Grid point `t` works on the rows `2000·t … 2000·t + 1999`: it is handed those rows of the aggregated-feature array
  and of the feature array, and the whole of every weight, bias, gain and shift array, and writes those rows of the
  output. Row `p` of the block it stores is the normalised, rectified activation of row `2000·t + p` plus its projected
  residual; every row of the output lies in exactly one point's block (the point `row / 2000`), so the array ends
  holding that function of the arrays the region found at its entry.
-/
import proofs.«172658_j14405320311484_1_alg».proof.Proof.Gen.KernelIdeal.Frame
import proofs.«172658_j14405320311484_1_alg».proof.Proof.LayerSpec
import Idealize.ShloMosaic.Lib.ValueIdx
import Idealize.ShloMosaic.Lib.Pipeline.Value

set_option maxRecDepth 16384

noncomputable section

namespace Cert.KernelIdeal.LayerArray0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerSpec

variable (V : (c : Dev nD) → (b : Ref sig .tc) → Buf (Elt Ideal) ((c : Thread nD τ).loc b))

/-- The output of node `R` at column `q`, from the arrays the region finds. -/
def row (c : Dev nD) (R : Fin 100000) (q : Fin 128) : EReal :=
  act (fun k : Fin 32 => (V c main_v39 : S100000x32.Idx → EReal) (ix2 R k)) (fun k : Fin 32 => (V c main_arg0 : S100000x32.Idx → EReal) (ix2 R k))
      (fun k j => (V c main_arg2 : S32x128.Idx → EReal) (ix2 k j)) (fun k j => (V c main_arg4 : S32x128.Idx → EReal) (ix2 k j))
      (fun j => (V c main_v19 : S1x128.Idx → EReal) (ix2 (0 : Fin 1) j)) (fun j => (V c main_v20 : S1x128.Idx → EReal) (ix2 (0 : Fin 1) j))
      (fun j => (V c main_v21 : S1x128.Idx → EReal) (ix2 (0 : Fin 1) j)) q
    + proj (fun k : Fin 32 => (V c main_arg0 : S100000x32.Idx → EReal) (ix2 R k)) (fun k j => (V c main_arg17 : S32x128.Idx → EReal) (ix2 k j)) q

/-- The whole output array. -/
def G (c : Dev nD) : S100000x128.Idx → EReal := fun i => row V c (i 0) (i 1)

/-- Where each window's block sits at point `t`, decided over the grid: the two row-blocked inputs and the output at
    block row `t`, block column 0; every other window is its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ t.val < 50 :=
  (by decide +kernel : ∀ t : Fin grid0.N, _)

/-- The node that row `p` of point `t`'s block is. -/
def node (t : Fin cfg0.N) (p : Fin 2000) : Fin 100000 :=
  ⟨t.val * 2000 + p.val, by have h := (idx_facts t).2.2.2.2.2.2.2.2.2.2.2.2.2.2.2.2.2.2; have hp := p.isLt; omega⟩

theorem hz : (![0, 0] : Fin 2 → Nat) = fun _ => 0 := funext fun a => by fin_cases a <;> rfl

/-- A row-blocked input read inside point `t`'s block: row `p` of the block is row `node t p` of the array. -/
theorem emb0 (t : Fin cfg0.N) (p : Fin 2000) (k : Fin 32) :
    ((cfg0.win 0).blk t).view.emb (ix2 p k : S2000x32.Idx) = (ix2 (node t p) k : S100000x32.Idx) := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 32 + 1 * k.val = k.val; omega

theorem emb1 (t : Fin cfg0.N) (p : Fin 2000) (k : Fin 32) :
    ((cfg0.win 1).blk t).view.emb (ix2 p k : S2000x32.Idx) = (ix2 (node t p) k : S100000x32.Idx) := by
  obtain ⟨-, -, e0, e1, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 32 + 1 * k.val = k.val; omega

theorem emb8 (t : Fin cfg0.N) (p : Fin 2000) (q : Fin 128) :
    ((cfg0.win 8).blk t).view.emb (ix2 p q : S2000x128.Idx) = (ix2 (node t p) q : S100000x128.Idx) := by
  obtain ⟨-, -, -, -, -, -, -, -, -, -, -, -, -, -, -, -, e0, e1, -⟩ := idx_facts t
  funext a; apply Fin.ext
  match a with
  | ⟨0, _⟩ => show win0_8.index t (0 : Fin 2) * 2000 + 1 * p.val = t.val * 2000 + p.val; omega
  | ⟨1, _⟩ => show win0_8.index t (1 : Fin 2) * 128 + 1 * q.val = q.val; omega

/-- A whole-array window read inside its one block is the array. -/
theorem emb2 (t : Fin cfg0.N) (k : Fin 32) (j : Fin 128) :
    ((cfg0.win 2).blk t).view.emb (ix2 k j : S32x128.Idx) = (ix2 k j : S32x128.Idx) := by
  obtain ⟨-, -, -, -, e0, e1, -⟩ := idx_facts t
  funext a; apply Fin.ext
  match a with
  | ⟨0, _⟩ => show win0_2.index t (0 : Fin 2) * 32 + 1 * k.val = k.val; omega
  | ⟨1, _⟩ => show win0_2.index t (1 : Fin 2) * 128 + 1 * j.val = j.val; omega

theorem emb4 (t : Fin cfg0.N) (k : Fin 32) (j : Fin 128) :
    ((cfg0.win 4).blk t).view.emb (ix2 k j : S32x128.Idx) = (ix2 k j : S32x128.Idx) := by
  obtain ⟨-, -, -, -, -, -, -, -, e0, e1, -⟩ := idx_facts t
  funext a; apply Fin.ext
  match a with
  | ⟨0, _⟩ => show win0_4.index t (0 : Fin 2) * 32 + 1 * k.val = k.val; omega
  | ⟨1, _⟩ => show win0_4.index t (1 : Fin 2) * 128 + 1 * j.val = j.val; omega

theorem emb7 (t : Fin cfg0.N) (k : Fin 32) (j : Fin 128) :
    ((cfg0.win 7).blk t).view.emb (ix2 k j : S32x128.Idx) = (ix2 k j : S32x128.Idx) := by
  obtain ⟨-, -, -, -, -, -, -, -, -, -, -, -, -, -, e0, e1, -⟩ := idx_facts t
  funext a; apply Fin.ext
  match a with
  | ⟨0, _⟩ => show win0_7.index t (0 : Fin 2) * 32 + 1 * k.val = k.val; omega
  | ⟨1, _⟩ => show win0_7.index t (1 : Fin 2) * 128 + 1 * j.val = j.val; omega

theorem emb3 (t : Fin cfg0.N) (j : Fin 128) :
    ((cfg0.win 3).blk t).view.emb (ix2 (0 : Fin 1) j : S1x128.Idx) = (ix2 (0 : Fin 1) j : S1x128.Idx) := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 128 + 1 * j.val = j.val; omega

theorem emb5 (t : Fin cfg0.N) (j : Fin 128) :
    ((cfg0.win 5).blk t).view.emb (ix2 (0 : Fin 1) j : S1x128.Idx) = (ix2 (0 : Fin 1) j : S1x128.Idx) := by
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 128 + 1 * j.val = j.val; omega

theorem emb6 (t : Fin cfg0.N) (j : Fin 128) :
    ((cfg0.win 6).blk t).view.emb (ix2 (0 : Fin 1) j : S1x128.Idx) = (ix2 (0 : Fin 1) j : S1x128.Idx) := by
  obtain ⟨-, -, -, -, -, -, -, -, -, -, -, -, e0, e1, -⟩ := idx_facts t
  funext a; apply Fin.ext
  match a with
  | ⟨0, _⟩ => show win0_6.index t (0 : Fin 2) * 1 + 1 * 0 = 0; omega
  | ⟨1, _⟩ => show win0_6.index t (1 : Fin 2) * 128 + 1 * j.val = j.val; omega

/-- What the kernel body is asked to do at one grid point: entry `(p, q)` of the block it stores is the layer's function
    of row `p` of its two row blocks and of its weight blocks. -/
def BodySpec : Prop :=
  ∀ (x0 x1 : Vec Ideal S2000x32 .f32) (x2 : Vec Ideal S32x128 .f32) (x3 : Vec Ideal S1x128 .f32) (x4 : Vec Ideal S32x128 .f32)
    (x5 x6 : Vec Ideal S1x128 .f32) (x7 : Vec Ideal S32x128 .f32) (p : Fin 2000) (q : Fin 128),
    out0_8 (F := Ideal) x0 x1 x2 x3 x4 x5 x6 x7 (ix2 p q)
      = act (fun k => x0 (ix2 p k)) (fun k => x1 (ix2 p k)) (fun k j => x2 (ix2 k j)) (fun k j => x4 (ix2 k j))
          (fun j => x3 (ix2 (0 : Fin 1) j)) (fun j => x5 (ix2 (0 : Fin 1) j)) (fun j => x6 (ix2 (0 : Fin 1) j)) q
        + proj (fun k => x1 (ix2 p k)) (fun k j => x7 (ix2 k j)) q

/-- WHAT POINT `t` WRITES BACK is block `t` of `G`. -/
theorem flushed_eq (hbody : BodySpec) (c : Dev nD) (t : Fin cfg0.N) :
    (dat0 (F := Ideal) V c).flushed 8 t = ((cfg0.win 8).blk t).view.read (Elt Ideal) (G V c) := by
  show (cfg0.win 8).cut (grid0.coords t) ((dat0 (F := Ideal) V c).after 8 t) = _
  rw [after0_8]
  funext y
  obtain ⟨p, q, rfl⟩ : ∃ (p : Fin 2000) (q : Fin 128), y = ix2 p q := ⟨y 0, y 1, eq_ix2 y⟩
  show out0_8 (F := Ideal) (iblk0 V c 0 t) (iblk0 V c 1 t) (iblk0 V c 2 t) (iblk0 V c 3 t) (iblk0 V c 4 t) (iblk0 V c 5 t) (iblk0 V c 6 t) (iblk0 V c 7 t) (ix2 p q)
      = G V c (((cfg0.win 8).blk t).view.emb (ix2 p q : S2000x128.Idx))
  refine (hbody (iblk0 V c 0 t) (iblk0 V c 1 t) (iblk0 V c 2 t) (iblk0 V c 3 t) (iblk0 V c 4 t) (iblk0 V c 5 t) (iblk0 V c 6 t) (iblk0 V c 7 t) p q).trans ?_
  rw [emb8]
  show _ = row V c (node t p) q
  unfold row
  have r0 : ∀ k : Fin 32, iblk0 V c 0 t (ix2 p k : S2000x32.Idx) = (V c main_v39 : S100000x32.Idx → EReal) (ix2 (node t p) k) := fun k =>
    congrArg (V c main_v39 : S100000x32.Idx → EReal) (emb0 t p k)
  have r1 : ∀ k : Fin 32, iblk0 V c 1 t (ix2 p k : S2000x32.Idx) = (V c main_arg0 : S100000x32.Idx → EReal) (ix2 (node t p) k) := fun k =>
    congrArg (V c main_arg0 : S100000x32.Idx → EReal) (emb1 t p k)
  have r2 : ∀ (k : Fin 32) (j : Fin 128), iblk0 V c 2 t (ix2 k j : S32x128.Idx) = (V c main_arg2 : S32x128.Idx → EReal) (ix2 k j) := fun k j =>
    congrArg (V c main_arg2 : S32x128.Idx → EReal) (emb2 t k j)
  have r3 : ∀ j : Fin 128, iblk0 V c 3 t (ix2 (0 : Fin 1) j : S1x128.Idx) = (V c main_v19 : S1x128.Idx → EReal) (ix2 (0 : Fin 1) j) := fun j =>
    congrArg (V c main_v19 : S1x128.Idx → EReal) (emb3 t j)
  have r4 : ∀ (k : Fin 32) (j : Fin 128), iblk0 V c 4 t (ix2 k j : S32x128.Idx) = (V c main_arg4 : S32x128.Idx → EReal) (ix2 k j) := fun k j =>
    congrArg (V c main_arg4 : S32x128.Idx → EReal) (emb4 t k j)
  have r5 : ∀ j : Fin 128, iblk0 V c 5 t (ix2 (0 : Fin 1) j : S1x128.Idx) = (V c main_v20 : S1x128.Idx → EReal) (ix2 (0 : Fin 1) j) := fun j =>
    congrArg (V c main_v20 : S1x128.Idx → EReal) (emb5 t j)
  have r6 : ∀ j : Fin 128, iblk0 V c 6 t (ix2 (0 : Fin 1) j : S1x128.Idx) = (V c main_v21 : S1x128.Idx → EReal) (ix2 (0 : Fin 1) j) := fun j =>
    congrArg (V c main_v21 : S1x128.Idx → EReal) (emb6 t j)
  have r7 : ∀ (k : Fin 32) (j : Fin 128), iblk0 V c 7 t (ix2 k j : S32x128.Idx) = (V c main_arg17 : S32x128.Idx → EReal) (ix2 k j) := fun k j =>
    congrArg (V c main_arg17 : S32x128.Idx → EReal) (emb7 t k j)
  simp only [r0, r1, r2, r3, r4, r5, r6, r7]

/-- An index of the output array is in point `t`'s block iff its row is among the point's two thousand. -/
theorem mem_blk (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v40).slice (win0_8.rect t)).set ↔ _
  rw [View.set_slice_whole, Rect.mem_set_unit]
  exact Iff.rfl

/-- Every entry of the output array is in the block of the point `row / 2000`. -/
theorem cover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, -, -, -, -, -, -, -, e0, e1, -⟩ := idx_facts t
  have ht : t.val = (i 0).val / 2000 := rfl
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- THE OUTPUT ARRAY after the region: `G` of the arrays the region found. -/
theorem final (hbody : BodySpec) (c : Dev nD) : (dat0 (F := Ideal) V c).arrAt 8 cfg0.N = G V c :=
  (dat0 (F := Ideal) V c).arrAt_eq_of_cover 8 (G V c) (fun t _ => flushed_eq V hbody c t) cover

/-- The same at an entry. -/
theorem final_apply (hbody : BodySpec) (c : Dev nD) (R : Fin 100000) (q : Fin 128) :
    ((dat0 (F := Ideal) V c).arrAt 8 cfg0.N : S100000x128.Idx → EReal) (ix2 R q) = row V c R q := by
  rw [final V hbody]; rfl

end Cert.KernelIdeal.LayerArray0

end
-- ==== Proof.LayerArray1.lean ====
/-
  Layer 1 as the pipelined region leaves it: the output array after all fifty grid points, entry by entry.

  Grid point `t` works on the rows `2000·t … 2000·t + 1999`: it is handed those rows of the aggregated-feature array
  and of the feature array, and the whole of every weight, bias, gain and shift array, and writes those rows of the
  output. Row `p` of the block it stores is the normalised, rectified activation of row `2000·t + p` plus its projected
  residual; every row of the output lies in exactly one point's block (the point `row / 2000`), so the array ends
  holding that function of the arrays the region found at its entry.
-/
import proofs.«172658_j14405320311484_1_alg».proof.Proof.Gen.KernelIdeal.Frame
import proofs.«172658_j14405320311484_1_alg».proof.Proof.LayerSpec
import Idealize.ShloMosaic.Lib.ValueIdx
import Idealize.ShloMosaic.Lib.Pipeline.Value

set_option maxRecDepth 16384

noncomputable section

namespace Cert.KernelIdeal.LayerArray1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerSpec

variable (V : (c : Dev nD) → (b : Ref sig .tc) → Buf (Elt Ideal) ((c : Thread nD τ).loc b))

/-- The output of node `R` at column `q`, from the arrays the region finds. -/
def row (c : Dev nD) (R : Fin 100000) (q : Fin 128) : EReal :=
  act (fun k : Fin 128 => (V c main_v52 : S100000x128.Idx → EReal) (ix2 R k)) (fun k : Fin 128 => (V c main_v40 : S100000x128.Idx → EReal) (ix2 R k))
      (fun k j => (V c main_arg7 : S128x128.Idx → EReal) (ix2 k j)) (fun k j => (V c main_arg9 : S128x128.Idx → EReal) (ix2 k j))
      (fun j => (V c main_v22 : S1x128.Idx → EReal) (ix2 (0 : Fin 1) j)) (fun j => (V c main_v23 : S1x128.Idx → EReal) (ix2 (0 : Fin 1) j))
      (fun j => (V c main_v24 : S1x128.Idx → EReal) (ix2 (0 : Fin 1) j)) q
    + proj (fun k : Fin 128 => (V c main_v40 : S100000x128.Idx → EReal) (ix2 R k)) (fun k j => (V c main_v18 : S128x128.Idx → EReal) (ix2 k j)) q

/-- The whole output array. -/
def G (c : Dev nD) : S100000x128.Idx → EReal := fun i => row V c (i 0) (i 1)

/-- Where each window's block sits at point `t`, decided over the grid: the two row-blocked inputs and the output at
    block row `t`, block column 0; every other window is its whole array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ t.val < 50 :=
  (by decide +kernel : ∀ t : Fin grid1.N, _)

/-- The node that row `p` of point `t`'s block is. -/
def node (t : Fin cfg1.N) (p : Fin 2000) : Fin 100000 :=
  ⟨t.val * 2000 + p.val, by have h := (idx_facts t).2.2.2.2.2.2.2.2.2.2.2.2.2.2.2.2.2.2; have hp := p.isLt; omega⟩

theorem hz : (![0, 0] : Fin 2 → Nat) = fun _ => 0 := funext fun a => by fin_cases a <;> rfl

/-- A row-blocked input read inside point `t`'s block: row `p` of the block is row `node t p` of the array. -/
theorem emb0 (t : Fin cfg1.N) (p : Fin 2000) (k : Fin 128) :
    ((cfg1.win 0).blk t).view.emb (ix2 p k : S2000x128.Idx) = (ix2 (node t p) k : S100000x128.Idx) := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem emb1 (t : Fin cfg1.N) (p : Fin 2000) (k : Fin 128) :
    ((cfg1.win 1).blk t).view.emb (ix2 p k : S2000x128.Idx) = (ix2 (node t p) k : S100000x128.Idx) := by
  obtain ⟨-, -, e0, e1, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

theorem emb8 (t : Fin cfg1.N) (p : Fin 2000) (q : Fin 128) :
    ((cfg1.win 8).blk t).view.emb (ix2 p q : S2000x128.Idx) = (ix2 (node t p) q : S100000x128.Idx) := by
  obtain ⟨-, -, -, -, -, -, -, -, -, -, -, -, -, -, -, -, e0, e1, -⟩ := idx_facts t
  funext a; apply Fin.ext
  match a with
  | ⟨0, _⟩ => show win1_8.index t (0 : Fin 2) * 2000 + 1 * p.val = t.val * 2000 + p.val; omega
  | ⟨1, _⟩ => show win1_8.index t (1 : Fin 2) * 128 + 1 * q.val = q.val; omega

/-- A whole-array window read inside its one block is the array. -/
theorem emb2 (t : Fin cfg1.N) (k : Fin 128) (j : Fin 128) :
    ((cfg1.win 2).blk t).view.emb (ix2 k j : S128x128.Idx) = (ix2 k j : S128x128.Idx) := by
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * j.val = j.val; omega

theorem emb4 (t : Fin cfg1.N) (k : Fin 128) (j : Fin 128) :
    ((cfg1.win 4).blk t).view.emb (ix2 k j : S128x128.Idx) = (ix2 k j : S128x128.Idx) := by
  obtain ⟨-, -, -, -, -, -, -, -, e0, e1, -⟩ := idx_facts t
  funext a; apply Fin.ext
  match a with
  | ⟨0, _⟩ => show win1_4.index t (0 : Fin 2) * 128 + 1 * k.val = k.val; omega
  | ⟨1, _⟩ => show win1_4.index t (1 : Fin 2) * 128 + 1 * j.val = j.val; omega

theorem emb7 (t : Fin cfg1.N) (k : Fin 128) (j : Fin 128) :
    ((cfg1.win 7).blk t).view.emb (ix2 k j : S128x128.Idx) = (ix2 k j : S128x128.Idx) := by
  obtain ⟨-, -, -, -, -, -, -, -, -, -, -, -, -, -, e0, e1, -⟩ := idx_facts t
  funext a; apply Fin.ext
  match a with
  | ⟨0, _⟩ => show win1_7.index t (0 : Fin 2) * 128 + 1 * k.val = k.val; omega
  | ⟨1, _⟩ => show win1_7.index t (1 : Fin 2) * 128 + 1 * j.val = j.val; omega

theorem emb3 (t : Fin cfg1.N) (j : Fin 128) :
    ((cfg1.win 3).blk t).view.emb (ix2 (0 : Fin 1) j : S1x128.Idx) = (ix2 (0 : Fin 1) j : S1x128.Idx) := by
  obtain ⟨-, -, -, -, -, -, e0, e1, -⟩ := idx_facts t
  funext a; apply Fin.ext
  match a with
  | ⟨0, _⟩ => show win1_3.index t (0 : Fin 2) * 1 + 1 * 0 = 0; omega
  | ⟨1, _⟩ => show win1_3.index t (1 : Fin 2) * 128 + 1 * j.val = j.val; omega

theorem emb5 (t : Fin cfg1.N) (j : Fin 128) :
    ((cfg1.win 5).blk t).view.emb (ix2 (0 : Fin 1) j : S1x128.Idx) = (ix2 (0 : Fin 1) j : S1x128.Idx) := by
  obtain ⟨-, -, -, -, -, -, -, -, -, -, e0, e1, -⟩ := idx_facts t
  funext a; apply Fin.ext
  match a with
  | ⟨0, _⟩ => show win1_5.index t (0 : Fin 2) * 1 + 1 * 0 = 0; omega
  | ⟨1, _⟩ => show win1_5.index t (1 : Fin 2) * 128 + 1 * j.val = j.val; omega

theorem emb6 (t : Fin cfg1.N) (j : Fin 128) :
    ((cfg1.win 6).blk t).view.emb (ix2 (0 : Fin 1) j : S1x128.Idx) = (ix2 (0 : Fin 1) j : S1x128.Idx) := by
  obtain ⟨-, -, -, -, -, -, -, -, -, -, -, -, e0, e1, -⟩ := idx_facts t
  funext a; apply Fin.ext
  match a with
  | ⟨0, _⟩ => show win1_6.index t (0 : Fin 2) * 1 + 1 * 0 = 0; omega
  | ⟨1, _⟩ => show win1_6.index t (1 : Fin 2) * 128 + 1 * j.val = j.val; omega

/-- What the kernel body is asked to do at one grid point: entry `(p, q)` of the block it stores is the layer's function
    of row `p` of its two row blocks and of its weight blocks. -/
def BodySpec : Prop :=
  ∀ (x0 x1 : Vec Ideal S2000x128 .f32) (x2 : Vec Ideal S128x128 .f32) (x3 : Vec Ideal S1x128 .f32) (x4 : Vec Ideal S128x128 .f32)
    (x5 x6 : Vec Ideal S1x128 .f32) (x7 : Vec Ideal S128x128 .f32) (p : Fin 2000) (q : Fin 128),
    out1_8 (F := Ideal) x0 x1 x2 x3 x4 x5 x6 x7 (ix2 p q)
      = act (fun k => x0 (ix2 p k)) (fun k => x1 (ix2 p k)) (fun k j => x2 (ix2 k j)) (fun k j => x4 (ix2 k j))
          (fun j => x3 (ix2 (0 : Fin 1) j)) (fun j => x5 (ix2 (0 : Fin 1) j)) (fun j => x6 (ix2 (0 : Fin 1) j)) q
        + proj (fun k => x1 (ix2 p k)) (fun k j => x7 (ix2 k j)) q

/-- WHAT POINT `t` WRITES BACK is block `t` of `G`. -/
theorem flushed_eq (hbody : BodySpec) (c : Dev nD) (t : Fin cfg1.N) :
    (dat1 (F := Ideal) V c).flushed 8 t = ((cfg1.win 8).blk t).view.read (Elt Ideal) (G V c) := by
  show (cfg1.win 8).cut (grid1.coords t) ((dat1 (F := Ideal) V c).after 8 t) = _
  rw [after1_8]
  funext y
  obtain ⟨p, q, rfl⟩ : ∃ (p : Fin 2000) (q : Fin 128), y = ix2 p q := ⟨y 0, y 1, eq_ix2 y⟩
  show out1_8 (F := Ideal) (iblk1 V c 0 t) (iblk1 V c 1 t) (iblk1 V c 2 t) (iblk1 V c 3 t) (iblk1 V c 4 t) (iblk1 V c 5 t) (iblk1 V c 6 t) (iblk1 V c 7 t) (ix2 p q)
      = G V c (((cfg1.win 8).blk t).view.emb (ix2 p q : S2000x128.Idx))
  refine (hbody (iblk1 V c 0 t) (iblk1 V c 1 t) (iblk1 V c 2 t) (iblk1 V c 3 t) (iblk1 V c 4 t) (iblk1 V c 5 t) (iblk1 V c 6 t) (iblk1 V c 7 t) p q).trans ?_
  rw [emb8]
  show _ = row V c (node t p) q
  unfold row
  have r0 : ∀ k : Fin 128, iblk1 V c 0 t (ix2 p k : S2000x128.Idx) = (V c main_v52 : S100000x128.Idx → EReal) (ix2 (node t p) k) := fun k =>
    congrArg (V c main_v52 : S100000x128.Idx → EReal) (emb0 t p k)
  have r1 : ∀ k : Fin 128, iblk1 V c 1 t (ix2 p k : S2000x128.Idx) = (V c main_v40 : S100000x128.Idx → EReal) (ix2 (node t p) k) := fun k =>
    congrArg (V c main_v40 : S100000x128.Idx → EReal) (emb1 t p k)
  have r2 : ∀ (k : Fin 128) (j : Fin 128), iblk1 V c 2 t (ix2 k j : S128x128.Idx) = (V c main_arg7 : S128x128.Idx → EReal) (ix2 k j) := fun k j =>
    congrArg (V c main_arg7 : S128x128.Idx → EReal) (emb2 t k j)
  have r3 : ∀ j : Fin 128, iblk1 V c 3 t (ix2 (0 : Fin 1) j : S1x128.Idx) = (V c main_v22 : S1x128.Idx → EReal) (ix2 (0 : Fin 1) j) := fun j =>
    congrArg (V c main_v22 : S1x128.Idx → EReal) (emb3 t j)
  have r4 : ∀ (k : Fin 128) (j : Fin 128), iblk1 V c 4 t (ix2 k j : S128x128.Idx) = (V c main_arg9 : S128x128.Idx → EReal) (ix2 k j) := fun k j =>
    congrArg (V c main_arg9 : S128x128.Idx → EReal) (emb4 t k j)
  have r5 : ∀ j : Fin 128, iblk1 V c 5 t (ix2 (0 : Fin 1) j : S1x128.Idx) = (V c main_v23 : S1x128.Idx → EReal) (ix2 (0 : Fin 1) j) := fun j =>
    congrArg (V c main_v23 : S1x128.Idx → EReal) (emb5 t j)
  have r6 : ∀ j : Fin 128, iblk1 V c 6 t (ix2 (0 : Fin 1) j : S1x128.Idx) = (V c main_v24 : S1x128.Idx → EReal) (ix2 (0 : Fin 1) j) := fun j =>
    congrArg (V c main_v24 : S1x128.Idx → EReal) (emb6 t j)
  have r7 : ∀ (k : Fin 128) (j : Fin 128), iblk1 V c 7 t (ix2 k j : S128x128.Idx) = (V c main_v18 : S128x128.Idx → EReal) (ix2 k j) := fun k j =>
    congrArg (V c main_v18 : S128x128.Idx → EReal) (emb7 t k j)
  simp only [r0, r1, r2, r3, r4, r5, r6, r7]

/-- An index of the output array is in point `t`'s block iff its row is among the point's two thousand. -/
theorem mem_blk (t : Fin cfg1.N) (i : S100000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v53).slice (win1_8.rect t)).set ↔ _
  rw [View.set_slice_whole, Rect.mem_set_unit]
  exact Iff.rfl

/-- Every entry of the output array is in the block of the point `row / 2000`. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, -, -, -, -, -, -, -, -, -, -, -, -, e0, e1, -⟩ := idx_facts t
  have ht : t.val = (i 0).val / 2000 := rfl
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- THE OUTPUT ARRAY after the region: `G` of the arrays the region found. -/
theorem final (hbody : BodySpec) (c : Dev nD) : (dat1 (F := Ideal) V c).arrAt 8 cfg1.N = G V c :=
  (dat1 (F := Ideal) V c).arrAt_eq_of_cover 8 (G V c) (fun t _ => flushed_eq V hbody c t) cover

/-- The same at an entry. -/
theorem final_apply (hbody : BodySpec) (c : Dev nD) (R : Fin 100000) (q : Fin 128) :
    ((dat1 (F := Ideal) V c).arrAt 8 cfg1.N : S100000x128.Idx → EReal) (ix2 R q) = row V c R q := by
  rw [final V hbody]; rfl

end Cert.KernelIdeal.LayerArray1

end
-- ==== Proof.LayerArray2.lean ====
/-
  Layer 2 as the pipelined region leaves it: the output array after all fifty grid points, entry by entry.

  Grid point `t` works on the rows `2000·t … 2000·t + 1999`: it is handed those rows of the aggregated-feature array
  and of the feature array, and the whole of every weight, bias, gain and shift array, and writes those rows of the
  output. Row `p` of the block it stores is the normalised, rectified activation of row `2000·t + p` plus its projected
  residual; every row of the output lies in exactly one point's block (the point `row / 2000`), so the array ends
  holding that function of the arrays the region found at its entry.
-/
import proofs.«172658_j14405320311484_1_alg».proof.Proof.Gen.KernelIdeal.Frame
import proofs.«172658_j14405320311484_1_alg».proof.Proof.LayerSpec
import Idealize.ShloMosaic.Lib.ValueIdx
import Idealize.ShloMosaic.Lib.Pipeline.Value

set_option maxRecDepth 16384

noncomputable section

namespace Cert.KernelIdeal.LayerArray2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerSpec

variable (V : (c : Dev nD) → (b : Ref sig .tc) → Buf (Elt Ideal) ((c : Thread nD τ).loc b))

/-- The output of node `R` at column `q`, from the arrays the region finds. -/
def row (c : Dev nD) (R : Fin 100000) (q : Fin 128) : EReal :=
  act (fun k : Fin 128 => (V c main_v65 : S100000x128.Idx → EReal) (ix2 R k)) (fun k : Fin 128 => (V c main_v53 : S100000x128.Idx → EReal) (ix2 R k))
      (fun k j => (V c main_arg12 : S128x128.Idx → EReal) (ix2 k j)) (fun k j => (V c main_arg14 : S128x128.Idx → EReal) (ix2 k j))
      (fun j => (V c main_v25 : S1x128.Idx → EReal) (ix2 (0 : Fin 1) j)) (fun j => (V c main_v26 : S1x128.Idx → EReal) (ix2 (0 : Fin 1) j))
      (fun j => (V c main_v27 : S1x128.Idx → EReal) (ix2 (0 : Fin 1) j)) q
    + proj (fun k : Fin 128 => (V c main_v53 : S100000x128.Idx → EReal) (ix2 R k)) (fun k j => (V c main_v18 : S128x128.Idx → EReal) (ix2 k j)) q

/-- The whole output array. -/
def G (c : Dev nD) : S100000x128.Idx → EReal := fun i => row V c (i 0) (i 1)

/-- Where each window's block sits at point `t`, decided over the grid: the two row-blocked inputs and the output at
    block row `t`, block column 0; every other window is its whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ t.val < 50 :=
  (by decide +kernel : ∀ t : Fin grid2.N, _)

/-- The node that row `p` of point `t`'s block is. -/
def node (t : Fin cfg2.N) (p : Fin 2000) : Fin 100000 :=
  ⟨t.val * 2000 + p.val, by have h := (idx_facts t).2.2.2.2.2.2.2.2.2.2.2.2.2.2.2.2.2.2; have hp := p.isLt; omega⟩

theorem hz : (![0, 0] : Fin 2 → Nat) = fun _ => 0 := funext fun a => by fin_cases a <;> rfl

/-- A row-blocked input read inside point `t`'s block: row `p` of the block is row `node t p` of the array. -/
theorem emb0 (t : Fin cfg2.N) (p : Fin 2000) (k : Fin 128) :
    ((cfg2.win 0).blk t).view.emb (ix2 p k : S2000x128.Idx) = (ix2 (node t p) k : S100000x128.Idx) := by
  obtain ⟨e0, e1, -⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

theorem emb1 (t : Fin cfg2.N) (p : Fin 2000) (k : Fin 128) :
    ((cfg2.win 1).blk t).view.emb (ix2 p k : S2000x128.Idx) = (ix2 (node t p) k : S100000x128.Idx) := by
  obtain ⟨-, -, e0, e1, -⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 128 + 1 * k.val = k.val; omega

theorem emb8 (t : Fin cfg2.N) (p : Fin 2000) (q : Fin 128) :
    ((cfg2.win 8).blk t).view.emb (ix2 p q : S2000x128.Idx) = (ix2 (node t p) q : S100000x128.Idx) := by
  obtain ⟨-, -, -, -, -, -, -, -, -, -, -, -, -, -, -, -, e0, e1, -⟩ := idx_facts t
  funext a; apply Fin.ext
  match a with
  | ⟨0, _⟩ => show win2_8.index t (0 : Fin 2) * 2000 + 1 * p.val = t.val * 2000 + p.val; omega
  | ⟨1, _⟩ => show win2_8.index t (1 : Fin 2) * 128 + 1 * q.val = q.val; omega

/-- A whole-array window read inside its one block is the array. -/
theorem emb2 (t : Fin cfg2.N) (k : Fin 128) (j : Fin 128) :
    ((cfg2.win 2).blk t).view.emb (ix2 k j : S128x128.Idx) = (ix2 k j : S128x128.Idx) := by
  obtain ⟨-, -, -, -, e0, e1, -⟩ := idx_facts t
  funext a; apply Fin.ext
  match a with
  | ⟨0, _⟩ => show win2_2.index t (0 : Fin 2) * 128 + 1 * k.val = k.val; omega
  | ⟨1, _⟩ => show win2_2.index t (1 : Fin 2) * 128 + 1 * j.val = j.val; omega

theorem emb4 (t : Fin cfg2.N) (k : Fin 128) (j : Fin 128) :
    ((cfg2.win 4).blk t).view.emb (ix2 k j : S128x128.Idx) = (ix2 k j : S128x128.Idx) := by
  obtain ⟨-, -, -, -, -, -, -, -, e0, e1, -⟩ := idx_facts t
  funext a; apply Fin.ext
  match a with
  | ⟨0, _⟩ => show win2_4.index t (0 : Fin 2) * 128 + 1 * k.val = k.val; omega
  | ⟨1, _⟩ => show win2_4.index t (1 : Fin 2) * 128 + 1 * j.val = j.val; omega

theorem emb7 (t : Fin cfg2.N) (k : Fin 128) (j : Fin 128) :
    ((cfg2.win 7).blk t).view.emb (ix2 k j : S128x128.Idx) = (ix2 k j : S128x128.Idx) := by
  obtain ⟨-, -, -, -, -, -, -, -, -, -, -, -, -, -, e0, e1, -⟩ := idx_facts t
  funext a; apply Fin.ext
  match a with
  | ⟨0, _⟩ => show win2_7.index t (0 : Fin 2) * 128 + 1 * k.val = k.val; omega
  | ⟨1, _⟩ => show win2_7.index t (1 : Fin 2) * 128 + 1 * j.val = j.val; omega

theorem emb3 (t : Fin cfg2.N) (j : Fin 128) :
    ((cfg2.win 3).blk t).view.emb (ix2 (0 : Fin 1) j : S1x128.Idx) = (ix2 (0 : Fin 1) j : S1x128.Idx) := by
  obtain ⟨-, -, -, -, -, -, e0, e1, -⟩ := idx_facts t
  funext a; apply Fin.ext
  match a with
  | ⟨0, _⟩ => show win2_3.index t (0 : Fin 2) * 1 + 1 * 0 = 0; omega
  | ⟨1, _⟩ => show win2_3.index t (1 : Fin 2) * 128 + 1 * j.val = j.val; omega

theorem emb5 (t : Fin cfg2.N) (j : Fin 128) :
    ((cfg2.win 5).blk t).view.emb (ix2 (0 : Fin 1) j : S1x128.Idx) = (ix2 (0 : Fin 1) j : S1x128.Idx) := by
  obtain ⟨-, -, -, -, -, -, -, -, -, -, e0, e1, -⟩ := idx_facts t
  funext a; apply Fin.ext
  match a with
  | ⟨0, _⟩ => show win2_5.index t (0 : Fin 2) * 1 + 1 * 0 = 0; omega
  | ⟨1, _⟩ => show win2_5.index t (1 : Fin 2) * 128 + 1 * j.val = j.val; omega

theorem emb6 (t : Fin cfg2.N) (j : Fin 128) :
    ((cfg2.win 6).blk t).view.emb (ix2 (0 : Fin 1) j : S1x128.Idx) = (ix2 (0 : Fin 1) j : S1x128.Idx) := by
  obtain ⟨-, -, -, -, -, -, -, -, -, -, -, -, e0, e1, -⟩ := idx_facts t
  funext a; apply Fin.ext
  match a with
  | ⟨0, _⟩ => show win2_6.index t (0 : Fin 2) * 1 + 1 * 0 = 0; omega
  | ⟨1, _⟩ => show win2_6.index t (1 : Fin 2) * 128 + 1 * j.val = j.val; omega

/-- What the kernel body is asked to do at one grid point: entry `(p, q)` of the block it stores is the layer's function
    of row `p` of its two row blocks and of its weight blocks. -/
def BodySpec : Prop :=
  ∀ (x0 x1 : Vec Ideal S2000x128 .f32) (x2 : Vec Ideal S128x128 .f32) (x3 : Vec Ideal S1x128 .f32) (x4 : Vec Ideal S128x128 .f32)
    (x5 x6 : Vec Ideal S1x128 .f32) (x7 : Vec Ideal S128x128 .f32) (p : Fin 2000) (q : Fin 128),
    out2_8 (F := Ideal) x0 x1 x2 x3 x4 x5 x6 x7 (ix2 p q)
      = act (fun k => x0 (ix2 p k)) (fun k => x1 (ix2 p k)) (fun k j => x2 (ix2 k j)) (fun k j => x4 (ix2 k j))
          (fun j => x3 (ix2 (0 : Fin 1) j)) (fun j => x5 (ix2 (0 : Fin 1) j)) (fun j => x6 (ix2 (0 : Fin 1) j)) q
        + proj (fun k => x1 (ix2 p k)) (fun k j => x7 (ix2 k j)) q

/-- WHAT POINT `t` WRITES BACK is block `t` of `G`. -/
theorem flushed_eq (hbody : BodySpec) (c : Dev nD) (t : Fin cfg2.N) :
    (dat2 (F := Ideal) V c).flushed 8 t = ((cfg2.win 8).blk t).view.read (Elt Ideal) (G V c) := by
  show (cfg2.win 8).cut (grid2.coords t) ((dat2 (F := Ideal) V c).after 8 t) = _
  rw [after2_8]
  funext y
  obtain ⟨p, q, rfl⟩ : ∃ (p : Fin 2000) (q : Fin 128), y = ix2 p q := ⟨y 0, y 1, eq_ix2 y⟩
  show out2_8 (F := Ideal) (iblk2 V c 0 t) (iblk2 V c 1 t) (iblk2 V c 2 t) (iblk2 V c 3 t) (iblk2 V c 4 t) (iblk2 V c 5 t) (iblk2 V c 6 t) (iblk2 V c 7 t) (ix2 p q)
      = G V c (((cfg2.win 8).blk t).view.emb (ix2 p q : S2000x128.Idx))
  refine (hbody (iblk2 V c 0 t) (iblk2 V c 1 t) (iblk2 V c 2 t) (iblk2 V c 3 t) (iblk2 V c 4 t) (iblk2 V c 5 t) (iblk2 V c 6 t) (iblk2 V c 7 t) p q).trans ?_
  rw [emb8]
  show _ = row V c (node t p) q
  unfold row
  have r0 : ∀ k : Fin 128, iblk2 V c 0 t (ix2 p k : S2000x128.Idx) = (V c main_v65 : S100000x128.Idx → EReal) (ix2 (node t p) k) := fun k =>
    congrArg (V c main_v65 : S100000x128.Idx → EReal) (emb0 t p k)
  have r1 : ∀ k : Fin 128, iblk2 V c 1 t (ix2 p k : S2000x128.Idx) = (V c main_v53 : S100000x128.Idx → EReal) (ix2 (node t p) k) := fun k =>
    congrArg (V c main_v53 : S100000x128.Idx → EReal) (emb1 t p k)
  have r2 : ∀ (k : Fin 128) (j : Fin 128), iblk2 V c 2 t (ix2 k j : S128x128.Idx) = (V c main_arg12 : S128x128.Idx → EReal) (ix2 k j) := fun k j =>
    congrArg (V c main_arg12 : S128x128.Idx → EReal) (emb2 t k j)
  have r3 : ∀ j : Fin 128, iblk2 V c 3 t (ix2 (0 : Fin 1) j : S1x128.Idx) = (V c main_v25 : S1x128.Idx → EReal) (ix2 (0 : Fin 1) j) := fun j =>
    congrArg (V c main_v25 : S1x128.Idx → EReal) (emb3 t j)
  have r4 : ∀ (k : Fin 128) (j : Fin 128), iblk2 V c 4 t (ix2 k j : S128x128.Idx) = (V c main_arg14 : S128x128.Idx → EReal) (ix2 k j) := fun k j =>
    congrArg (V c main_arg14 : S128x128.Idx → EReal) (emb4 t k j)
  have r5 : ∀ j : Fin 128, iblk2 V c 5 t (ix2 (0 : Fin 1) j : S1x128.Idx) = (V c main_v26 : S1x128.Idx → EReal) (ix2 (0 : Fin 1) j) := fun j =>
    congrArg (V c main_v26 : S1x128.Idx → EReal) (emb5 t j)
  have r6 : ∀ j : Fin 128, iblk2 V c 6 t (ix2 (0 : Fin 1) j : S1x128.Idx) = (V c main_v27 : S1x128.Idx → EReal) (ix2 (0 : Fin 1) j) := fun j =>
    congrArg (V c main_v27 : S1x128.Idx → EReal) (emb6 t j)
  have r7 : ∀ (k : Fin 128) (j : Fin 128), iblk2 V c 7 t (ix2 k j : S128x128.Idx) = (V c main_v18 : S128x128.Idx → EReal) (ix2 k j) := fun k j =>
    congrArg (V c main_v18 : S128x128.Idx → EReal) (emb7 t k j)
  simp only [r0, r1, r2, r3, r4, r5, r6, r7]

/-- An index of the output array is in point `t`'s block iff its row is among the point's two thousand. -/
theorem mem_blk (t : Fin cfg2.N) (i : S100000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v66).slice (win2_8.rect t)).set ↔ _
  rw [View.set_slice_whole, Rect.mem_set_unit]
  exact Iff.rfl

/-- Every entry of the output array is in the block of the point `row / 2000`. -/
theorem cover (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨-, -, -, -, -, -, -, -, -, -, -, -, -, -, -, -, e0, e1, -⟩ := idx_facts t
  have ht : t.val = (i 0).val / 2000 := rfl
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- THE OUTPUT ARRAY after the region: `G` of the arrays the region found. -/
theorem final (hbody : BodySpec) (c : Dev nD) : (dat2 (F := Ideal) V c).arrAt 8 cfg2.N = G V c :=
  (dat2 (F := Ideal) V c).arrAt_eq_of_cover 8 (G V c) (fun t _ => flushed_eq V hbody c t) cover

/-- The same at an entry. -/
theorem final_apply (hbody : BodySpec) (c : Dev nD) (R : Fin 100000) (q : Fin 128) :
    ((dat2 (F := Ideal) V c).arrAt 8 cfg2.N : S100000x128.Idx → EReal) (ix2 R q) = row V c R q := by
  rw [final V hbody]; rfl

end Cert.KernelIdeal.LayerArray2

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.BodyValue.lean ====
/-
  What one grid point of each layer kernel leaves in its output block, entry by entry: row `p` of the block depends
  only on row `p` of the aggregated-feature block and of the feature block, and on the whole weight blocks; it is the
  normalised, rectified activation of that row plus its projected residual.
-/
import proofs.«172658_j14405320311484_1_alg».proof.Proof.Gen.KernelIdeal.Frame
import proofs.«172658_j14405320311484_1_alg».proof.Proof.LayerSpec
import proofs.«172658_j14405320311484_1_alg».proof.Proof.LibDotRead
import proofs.«172658_j14405320311484_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.LayerSpec

/-- The zero offsets of a whole-block rectangle of rank 2, as the constant function. -/
private theorem hz : (![0, 0] : Fin 2 → Nat) = fun _ => 0 := funext fun a => by fin_cases a <;> rfl

/-! ## One stage read at coordinates

Each lemma reads one operation that is not entrywise at an entry `(p, q)` of the `2000 × 128` block; the entrywise
operations read through by definition. -/

/-- The sum along the 128 columns, kept as a column: entry `(p, u)` is the sum of row `p`. The format is one of the two
    a lane sum admits, and the accumulator word is the zero word. -/
private theorem rowSum_apply (src : FVec Ideal S2000x128 .f32) (hφ : FKind.Formats .f32)
    (hacc : (0x00000000#32 : BitVec FTy.f32.bits) = (0x00000000#32 : BitVec FTy.f32.bits)) (p : Fin 2000) (u : Fin 1) :
    shapeCast S2000x1 (multiReduction (F := Ideal) .add [1] S2000 src 0x00000000#32 reduces_S2000x128_S2000 hφ hacc)
        shapeCasts_S2000_S2000x1 (ix2 p u)
      = ∑ j : Fin 128, src (ix2 p j) := by
  refine (KeepdimsLayout.shapeCast_a_a1_apply _ shapeCasts_S2000_S2000x1 p u).trans ?_
  refine (Ideal.multiReduction_add_single src 0x00000000#32 reduces_S2000x128_S2000 hφ hacc (ix1 p)).trans ?_
  refine Finset.sum_congr rfl fun k _ => congrArg src ?_
  funext a
  apply Fin.ext
  match a with
  | ⟨0, _⟩ => rfl
  | ⟨1, _⟩ => rfl

/-- The same for any list of reduced axes equal to `[1]` and any accumulator word equal to the zero word. -/
private theorem rowSumGen_apply (src : FVec Ideal S2000x128 .f32) (axes : List (Fin S2000x128.rank))
    (acc : BitVec FTy.f32.bits) (h : S2000x128.Reduces axes S2000) (hφ : FKind.Formats .f32)
    (hacc : acc = (0x00000000#32 : BitVec FTy.f32.bits)) (haxes : axes = [1]) (p : Fin 2000) (u : Fin 1) :
    shapeCast S2000x1 (multiReduction (F := Ideal) .add axes S2000 src acc h hφ hacc) shapeCasts_S2000_S2000x1 (ix2 p u)
      = ∑ j : Fin 128, src (ix2 p j) := by
  subst haxes
  subst hacc
  exact rowSum_apply src hφ rfl p u

/-- A column broadcast across the 128 columns reads the column's entry of the same row. -/
private theorem colBroadcast_apply (v : FVec Ideal S2000x1 .f32) (p : Fin 2000) (q : Fin 128) :
    broadcastTo S2000x128 v broadcasts_S2000x1_S2000x128 (ix2 p q) = v (ix2 p (0 : Fin 1)) :=
  KeepdimsLayout.broadcastTo_a1_ab_apply v broadcasts_S2000x1_S2000x128 p q

/-- A row broadcast down the 2000 rows reads the row's entry of the same column. -/
private theorem rowBroadcast_apply (v : FVec Ideal S1x128 .f32) (p : Fin 2000) (q : Fin 128) :
    broadcastTo S2000x128 v broadcasts_S1x128_S2000x128 (ix2 p q) = v (ix2 (0 : Fin 1) q) :=
  broadcastTo_1b_ab_apply v broadcasts_S1x128_S2000x128 p q

/-- Entry `(p, j)` of a `2000 × 32` by `32 × 128` product accumulated into zero: the sum over the 32 contracted
    positions. -/
private theorem mm32_apply {φ₁ φ₂ : FTy} (lhs : FVec Ideal S2000x32 φ₁) (rhs : FVec Ideal S32x128 φ₂) (p : Fin 2000)
    (j : Fin 128) :
    matmul dot_S2000x32_S32x128_S2000x128_1_0_0_1_n_n none lhs rhs (constant (F := Ideal) S2000x128 .f32 0x00000000#32) (ix2 p j)
      = ∑ k : Fin 32, lhs (ix2 p k) * rhs (ix2 k j) :=
  DotRead.matmul_plain_zero_apply 2000 32 128 none lhs rhs p j

/-- Entry `(p, j)` of a `2000 × 128` by `128 × 128` product accumulated into zero: the sum over the 128 contracted
    positions. -/
private theorem mm128_apply {φ₁ φ₂ : FTy} (lhs : FVec Ideal S2000x128 φ₁) (rhs : FVec Ideal S128x128 φ₂) (p : Fin 2000)
    (j : Fin 128) :
    matmul dot_S2000x128_S128x128_S2000x128_1_0_0_1_n_n none lhs rhs (constant (F := Ideal) S2000x128 .f32 0x00000000#32) (ix2 p j)
      = ∑ k : Fin 128, lhs (ix2 p k) * rhs (ix2 k j) :=
  DotRead.matmul_plain_zero_apply 2000 128 128 none lhs rhs p j

/-- The entrywise reciprocal square root at an index. -/
private theorem rsqrt_apply {s : Shape} {φ : FTy} (v : FVec Ideal s φ) (i : s.Idx) : rsqrt v i = Ideal.rsqrt (v i) := rfl

/-! ## The stored block, entry by entry -/

/-- Layer 0 (feature width 32): entry `(p, q)` of the block the body stores. -/
theorem out0_8_apply (x0 x1 : Vec Ideal S2000x32 .f32) (x2 : Vec Ideal S32x128 .f32) (x3 : Vec Ideal S1x128 .f32)
    (x4 : Vec Ideal S32x128 .f32) (x5 x6 : Vec Ideal S1x128 .f32) (x7 : Vec Ideal S32x128 .f32) (p : Fin 2000) (q : Fin 128) :
    out0_8 (F := Ideal) x0 x1 x2 x3 x4 x5 x6 x7 (ix2 p q)
      = act (fun k => x0 (ix2 p k)) (fun k => x1 (ix2 p k)) (fun k j => x2 (ix2 k j)) (fun k j => x4 (ix2 k j))
          (fun j => x3 (ix2 (0 : Fin 1) j)) (fun j => x5 (ix2 (0 : Fin 1) j)) (fun j => x6 (ix2 (0 : Fin 1) j)) q
        + proj (fun k => x1 (ix2 p k)) (fun k j => x7 (ix2 k j)) q := by
  -- the one store covers the whole block and every load reads a whole block: the block is the stored payload of the blocks
  unfold out0_8
  rw [View.canon_unit_zero hz]
  simp only [View.ld_unit_zero (S := S2000x32) hz, View.ld_unit_zero (S := S32x128) hz, View.ld_unit_zero (S := S1x128) hz]
  -- the payload read operation by operation at entry (p, q); the zero word is 0
  unfold k0_pay1 k0_pay3 k0_pay4 k0_pay2
  simp only [addf_apply, maximumf_apply, mulf_apply, subf_apply, divf_apply, broadcast_apply, truncf_apply, rsqrt_apply,
    rowBroadcast_apply, colBroadcast_apply, rowSumGen_apply, mm32_apply, shapeCast_self, Ideal.ofBits_def,
    Ideal.ofBits_zero_f32]
  -- both sides are now the same expression
  simp only [act, normRelu, var128, mean128, pre, proj, c128, ceps]

/-- Layer 1 (feature width 128). -/
theorem out1_8_apply (x0 x1 : Vec Ideal S2000x128 .f32) (x2 : Vec Ideal S128x128 .f32) (x3 : Vec Ideal S1x128 .f32)
    (x4 : Vec Ideal S128x128 .f32) (x5 x6 : Vec Ideal S1x128 .f32) (x7 : Vec Ideal S128x128 .f32) (p : Fin 2000) (q : Fin 128) :
    out1_8 (F := Ideal) x0 x1 x2 x3 x4 x5 x6 x7 (ix2 p q)
      = act (fun k => x0 (ix2 p k)) (fun k => x1 (ix2 p k)) (fun k j => x2 (ix2 k j)) (fun k j => x4 (ix2 k j))
          (fun j => x3 (ix2 (0 : Fin 1) j)) (fun j => x5 (ix2 (0 : Fin 1) j)) (fun j => x6 (ix2 (0 : Fin 1) j)) q
        + proj (fun k => x1 (ix2 p k)) (fun k j => x7 (ix2 k j)) q := by
  -- the one store covers the whole block and every load reads a whole block: the block is the stored payload of the blocks
  unfold out1_8
  rw [View.canon_unit_zero hz]
  simp only [View.ld_unit_zero (S := S2000x128) hz, View.ld_unit_zero (S := S128x128) hz, View.ld_unit_zero (S := S1x128) hz]
  -- the payload read operation by operation at entry (p, q); the zero word is 0
  unfold k1_pay1 k1_pay3 k1_pay2
  simp only [addf_apply, maximumf_apply, mulf_apply, subf_apply, divf_apply, broadcast_apply, truncf_apply, rsqrt_apply,
    rowBroadcast_apply, colBroadcast_apply, rowSumGen_apply, mm128_apply, shapeCast_self, Ideal.ofBits_def,
    Ideal.ofBits_zero_f32]
  -- both sides are now the same expression
  simp only [act, normRelu, var128, mean128, pre, proj, c128, ceps]

/-- Layer 2 (feature width 128). -/
theorem out2_8_apply (x0 x1 : Vec Ideal S2000x128 .f32) (x2 : Vec Ideal S128x128 .f32) (x3 : Vec Ideal S1x128 .f32)
    (x4 : Vec Ideal S128x128 .f32) (x5 x6 : Vec Ideal S1x128 .f32) (x7 : Vec Ideal S128x128 .f32) (p : Fin 2000) (q : Fin 128) :
    out2_8 (F := Ideal) x0 x1 x2 x3 x4 x5 x6 x7 (ix2 p q)
      = act (fun k => x0 (ix2 p k)) (fun k => x1 (ix2 p k)) (fun k j => x2 (ix2 k j)) (fun k j => x4 (ix2 k j))
          (fun j => x3 (ix2 (0 : Fin 1) j)) (fun j => x5 (ix2 (0 : Fin 1) j)) (fun j => x6 (ix2 (0 : Fin 1) j)) q
        + proj (fun k => x1 (ix2 p k)) (fun k j => x7 (ix2 k j)) q := by
  -- the one store covers the whole block and every load reads a whole block: the block is the stored payload of the blocks
  unfold out2_8
  rw [View.canon_unit_zero hz]
  simp only [View.ld_unit_zero (S := S2000x128) hz, View.ld_unit_zero (S := S128x128) hz, View.ld_unit_zero (S := S1x128) hz]
  -- the payload read operation by operation at entry (p, q); the zero word is 0
  unfold k2_pay1 k2_pay3 k2_pay2
  simp only [addf_apply, maximumf_apply, mulf_apply, subf_apply, divf_apply, broadcast_apply, truncf_apply, rsqrt_apply,
    rowBroadcast_apply, colBroadcast_apply, rowSumGen_apply, mm128_apply, shapeCast_self, Ideal.ofBits_def,
    Ideal.ofBits_zero_f32]
  -- both sides are now the same expression
  simp only [act, normRelu, var128, mean128, pre, proj, c128, ceps]

end Cert.KernelIdeal.BodyValue

end
-- ==== Proof.RefLayers.lean ====
/-
  The reference's three layers read at an entry: each layer's output at node `R`, column `q`, is the normalised,
  rectified activation of that node's row — from the row of mean-aggregated neighbour features and the node's own row
  of the layer's input — plus the residual (a projection of the input row in the first layer, the input entry itself
  in the other two).
-/
import proofs.«172658_j14405320311484_1_alg».proof.Proof.ReadP
import proofs.«172658_j14405320311484_1_alg».proof.Proof.LayerSpec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.ReadP Cert.LayerSpec

variable (x0 : (⟨S100000x32, .f32⟩ : BufTy).Contents (Elt Ideal)) (x1 : (⟨S2x1600000, .i32⟩ : BufTy).Contents (Elt Ideal))
  (x2 : (⟨S32x128, .f32⟩ : BufTy).Contents (Elt Ideal)) (x3 : (⟨S128, .f32⟩ : BufTy).Contents (Elt Ideal)) (x4 : (⟨S32x128, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal)) (x9 : (⟨S128x128, .f32⟩ : BufTy).Contents (Elt Ideal)) (x10 x11 : (⟨S128, .f32⟩ : BufTy).Contents (Elt Ideal))
  (x12 : (⟨S128x128, .f32⟩ : BufTy).Contents (Elt Ideal)) (x13 : (⟨S128, .f32⟩ : BufTy).Contents (Elt Ideal)) (x14 : (⟨S128x128, .f32⟩ : BufTy).Contents (Elt Ideal)) (x15 x16 : (⟨S128, .f32⟩ : BufTy).Contents (Elt Ideal))
  (x17 : (⟨S32x128, .f32⟩ : BufTy).Contents (Elt Ideal))

/-! ### Layer 0: the generated index functions at indices built from coordinates -/

private theorem i0_lidxL (R : Fin 100000) (j : Fin 128) (k : Fin 32) : lidx_main_v23 (ix2 R j) k = ix2 R k := funext fun a => Fin.ext (by match a with | ⟨0, _⟩ => rfl | ⟨1, _⟩ => rfl)
private theorem i0_ridxL (R : Fin 100000) (j : Fin 128) (k : Fin 32) : ridx_main_v23 (ix2 R j) k = ix2 k j := funext fun a => Fin.ext (by match a with | ⟨0, _⟩ => rfl | ⟨1, _⟩ => rfl)
private theorem i0_lidxR (R : Fin 100000) (j : Fin 128) (k : Fin 32) : lidx_main_v27 (ix2 R j) k = ix2 R k := funext fun a => Fin.ext (by match a with | ⟨0, _⟩ => rfl | ⟨1, _⟩ => rfl)
private theorem i0_ridxR (R : Fin 100000) (j : Fin 128) (k : Fin 32) : ridx_main_v27 (ix2 R j) k = ix2 k j := funext fun a => Fin.ext (by match a with | ⟨0, _⟩ => rfl | ⟨1, _⟩ => rfl)
private theorem i0_bb2 (R : Fin 100000) (j : Fin 128) : idx_main_v25 (ix2 R j) = ix2 (0 : Fin 1) j := funext fun a => Fin.ext (by match a with | ⟨0, _⟩ => rfl | ⟨1, _⟩ => rfl)
private theorem i0_bb1 (j : Fin 128) : idx_main_v24 (ix2 (0 : Fin 1) j) = ix1 j := funext fun a => Fin.ext (by match a with | ⟨0, _⟩ => rfl)
private theorem i0_g2 (R : Fin 100000) (j : Fin 128) : idx_main_v48 (ix2 R j) = ix2 (0 : Fin 1) j := funext fun a => Fin.ext (by match a with | ⟨0, _⟩ => rfl | ⟨1, _⟩ => rfl)
private theorem i0_g1 (j : Fin 128) : idx_main_v47 (ix2 (0 : Fin 1) j) = ix1 j := funext fun a => Fin.ext (by match a with | ⟨0, _⟩ => rfl)
private theorem i0_b2 (R : Fin 100000) (j : Fin 128) : idx_main_v51 (ix2 R j) = ix2 (0 : Fin 1) j := funext fun a => Fin.ext (by match a with | ⟨0, _⟩ => rfl | ⟨1, _⟩ => rfl)
private theorem i0_b1 (j : Fin 128) : idx_main_v50 (ix2 (0 : Fin 1) j) = ix1 j := funext fun a => Fin.ext (by match a with | ⟨0, _⟩ => rfl)
private theorem i0_bc1 (R : Fin 100000) : idx_main_v30 (ix2 R (0 : Fin 1)) = ix1 R := funext fun a => Fin.ext (by match a with | ⟨0, _⟩ => rfl)
private theorem i0_red1 (R : Fin 100000) (k : Fin 128) : idx_main_v29 (ix1 R) k = ix2 R k := funext fun a => Fin.ext (by match a with | ⟨0, _⟩ => rfl | ⟨1, _⟩ => rfl)
private theorem i0_bc2 (R : Fin 100000) : idx_main_v37 (ix2 R (0 : Fin 1)) = ix1 R := funext fun a => Fin.ext (by match a with | ⟨0, _⟩ => rfl)
private theorem i0_red2 (R : Fin 100000) (k : Fin 128) : idx_main_v36 (ix1 R) k = ix2 R k := funext fun a => Fin.ext (by match a with | ⟨0, _⟩ => rfl | ⟨1, _⟩ => rfl)
private theorem i0_bcm1 (R : Fin 100000) (j : Fin 128) : idx_main_v33 (ix2 R j) = ix2 R (0 : Fin 1) := funext fun a => Fin.ext (by match a with | ⟨0, _⟩ => rfl | ⟨1, _⟩ => rfl)
private theorem i0_bcm2 (R : Fin 100000) (j : Fin 128) : idx_main_v40 (ix2 R j) = ix2 R (0 : Fin 1) := funext fun a => Fin.ext (by match a with | ⟨0, _⟩ => rfl | ⟨1, _⟩ => rfl)
private theorem i0_bcr (R : Fin 100000) (j : Fin 128) : idx_main_v45 (ix2 R j) = ix2 R (0 : Fin 1) := funext fun a => Fin.ext (by match a with | ⟨0, _⟩ => rfl | ⟨1, _⟩ => rfl)

/-! ### Layer 0, stage by stage at node `R` -/

/-- The pre-activation of node `R` at column `j`: the two contractions and the bias. -/
private theorem l0_pre (R : Fin 100000) (j : Fin 128) :
    val_main_v28 (F := Ideal) x0 x1 x2 x3 x4 (ix2 R j)
      = pre (fun k => val_main_v22 (F := Ideal) x0 x1 (ix2 R k)) (fun k => x0 (ix2 R k))
          (fun k j => x2 (ix2 k j)) (fun k j => x4 (ix2 k j)) (fun j => x3 (ix1 j)) j := by
  rw [val_main_v28_apply, val_main_v26_apply, val_main_v23_apply, val_main_v25_apply, val_main_v24_apply, val_main_v27_apply]
  simp only [i0_lidxL, i0_ridxL, i0_lidxR, i0_ridxR, i0_bb2, i0_bb1, Ideal.addf_def]
  unfold pre
  with_reducible rfl

/-- The row mean: the sum over the 128 columns, from the zero word, divided by the word of 128. -/
private theorem l0_mean (R : Fin 100000) (s : Fin 128 → EReal)
    (hs : ∀ j, val_main_v28 (F := Ideal) x0 x1 x2 x3 x4 (ix2 R j) = s j) :
    val_main_v32 (F := Ideal) x0 x1 x2 x3 x4 (ix2 R (0 : Fin 1)) = mean128 s := by
  rw [val_main_v32_apply, val_main_v30_apply, val_main_v31_apply, val_main_cst_5_apply, val_main_v29_apply, val_main_cst_4_apply]
  simp only [i0_bc1, i0_red1, hs, Ideal.hostDivf_def, Ideal.ofBits_def, Ideal.ofBits_zero_f32, zero_add]
  unfold mean128 c128
  with_reducible rfl

/-- The deviation from the row mean (the copy that is squared). -/
private theorem l0_dev1 (R : Fin 100000) (s : Fin 128 → EReal)
    (hs : ∀ j, val_main_v28 (F := Ideal) x0 x1 x2 x3 x4 (ix2 R j) = s j) (j : Fin 128) :
    val_main_v34 (F := Ideal) x0 x1 x2 x3 x4 (ix2 R j) = s j - mean128 s := by
  rw [val_main_v34_apply, val_main_v33_apply, hs, i0_bcm1, l0_mean x0 x1 x2 x3 x4 R s hs, Ideal.subf_def]

/-- The deviation from the row mean (the copy that is normalised). -/
private theorem l0_dev2 (R : Fin 100000) (s : Fin 128 → EReal)
    (hs : ∀ j, val_main_v28 (F := Ideal) x0 x1 x2 x3 x4 (ix2 R j) = s j) (j : Fin 128) :
    val_main_v41 (F := Ideal) x0 x1 x2 x3 x4 (ix2 R j) = s j - mean128 s := by
  rw [val_main_v41_apply, val_main_v40_apply, hs, i0_bcm2, l0_mean x0 x1 x2 x3 x4 R s hs, Ideal.subf_def]

/-- The squared deviation at column `j`. -/
private theorem l0_sq (R : Fin 100000) (s : Fin 128 → EReal)
    (hs : ∀ j, val_main_v28 (F := Ideal) x0 x1 x2 x3 x4 (ix2 R j) = s j) (j : Fin 128) :
    val_main_v35 (F := Ideal) x0 x1 x2 x3 x4 (ix2 R j) = (s j - mean128 s) * (s j - mean128 s) := by
  rw [val_main_v35_apply, l0_dev1 x0 x1 x2 x3 x4 R s hs, Ideal.mulf_def]

/-- The row variance: the mean of the squared deviations. -/
private theorem l0_var (R : Fin 100000) (s : Fin 128 → EReal)
    (hs : ∀ j, val_main_v28 (F := Ideal) x0 x1 x2 x3 x4 (ix2 R j) = s j) :
    val_main_v39 (F := Ideal) x0 x1 x2 x3 x4 (ix2 R (0 : Fin 1)) = var128 s := by
  rw [val_main_v39_apply, val_main_v37_apply, val_main_v38_apply, val_main_cst_7_apply, val_main_v36_apply, val_main_cst_6_apply]
  simp only [i0_bc2, i0_red2, l0_sq x0 x1 x2 x3 x4 R s hs, Ideal.hostDivf_def, Ideal.ofBits_def, Ideal.ofBits_zero_f32, zero_add]
  unfold var128 mean128 c128
  with_reducible rfl

/-- The reciprocal square root of the variance plus ε. -/
private theorem l0_rs (R : Fin 100000) (s : Fin 128 → EReal)
    (hs : ∀ j, val_main_v28 (F := Ideal) x0 x1 x2 x3 x4 (ix2 R j) = s j) :
    val_main_v44 (F := Ideal) x0 x1 x2 x3 x4 (ix2 R (0 : Fin 1)) = Ideal.rsqrt (var128 s + ceps) := by
  rw [val_main_v44_apply, val_main_v43_apply, val_main_v42_apply, val_main_cst_8_apply, l0_var x0 x1 x2 x3 x4 R s hs,
    Ideal.hostUnary_rsqrt_def, Ideal.addf_def, Ideal.ofBits_def]
  unfold ceps
  with_reducible rfl

/-- The normalised, rectified activation at column `q`. -/
private theorem l0_relu (R : Fin 100000) (s : Fin 128 → EReal)
    (hs : ∀ j, val_main_v28 (F := Ideal) x0 x1 x2 x3 x4 (ix2 R j) = s j) (q : Fin 128) :
    val_main_v53 (F := Ideal) x0 x1 x2 x3 x4 x5 x6 (ix2 R q) = normRelu s (fun j => x5 (ix1 j)) (fun j => x6 (ix1 j)) q := by
  rw [val_main_v53_apply, val_main_call0_v0_apply, val_main_call0_cst_apply, val_main_v52_apply, val_main_v49_apply,
    val_main_v46_apply, val_main_v45_apply, val_main_v48_apply, val_main_v47_apply, val_main_v51_apply, val_main_v50_apply,
    i0_bcr, i0_g2, i0_g1, i0_b2, i0_b1, l0_dev2 x0 x1 x2 x3 x4 R s hs, l0_rs x0 x1 x2 x3 x4 R s hs]
  simp only [Ideal.maximumf_def, Ideal.addf_def, Ideal.mulf_def, Ideal.ofBits_def, Ideal.ofBits_zero_f32]
  unfold normRelu
  with_reducible rfl

private theorem i0_lidxP (R : Fin 100000) (j : Fin 128) (k : Fin 32) : lidx_main_v54 (ix2 R j) k = ix2 R k := funext fun a => Fin.ext (by match a with | ⟨0, _⟩ => rfl | ⟨1, _⟩ => rfl)
private theorem i0_ridxP (R : Fin 100000) (j : Fin 128) (k : Fin 32) : ridx_main_v54 (ix2 R j) k = ix2 k j := funext fun a => Fin.ext (by match a with | ⟨0, _⟩ => rfl | ⟨1, _⟩ => rfl)

/-- The first layer at node `R`, column `q`. -/
theorem layer0_apply (R : Fin 100000) (q : Fin 128) :
    val_main_v55 (F := Ideal) x0 x1 x2 x3 x4 x5 x6 x17 (ix2 R q)
      = act (fun k => val_main_v22 (F := Ideal) x0 x1 (ix2 R k)) (fun k => x0 (ix2 R k))
          (fun k j => x2 (ix2 k j)) (fun k j => x4 (ix2 k j)) (fun j => x3 (ix1 j)) (fun j => x5 (ix1 j)) (fun j => x6 (ix1 j)) q
        + proj (fun k => x0 (ix2 R k)) (fun k j => x17 (ix2 k j)) q := by
  rw [val_main_v55_apply, val_main_v54_apply, l0_relu x0 x1 x2 x3 x4 x5 x6 R _ (l0_pre x0 x1 x2 x3 x4 R) q, Ideal.addf_def]
  simp only [i0_lidxP, i0_ridxP]
  unfold act proj
  with_reducible rfl

/-! ### Layer 1: the generated index functions at indices built from coordinates -/

private theorem i1_lidxL (R : Fin 100000) (j : Fin 128) (k : Fin 128) : lidx_main_v75 (ix2 R j) k = ix2 R k := funext fun a => Fin.ext (by match a with | ⟨0, _⟩ => rfl | ⟨1, _⟩ => rfl)
private theorem i1_ridxL (R : Fin 100000) (j : Fin 128) (k : Fin 128) : ridx_main_v75 (ix2 R j) k = ix2 k j := funext fun a => Fin.ext (by match a with | ⟨0, _⟩ => rfl | ⟨1, _⟩ => rfl)
private theorem i1_lidxR (R : Fin 100000) (j : Fin 128) (k : Fin 128) : lidx_main_v79 (ix2 R j) k = ix2 R k := funext fun a => Fin.ext (by match a with | ⟨0, _⟩ => rfl | ⟨1, _⟩ => rfl)
private theorem i1_ridxR (R : Fin 100000) (j : Fin 128) (k : Fin 128) : ridx_main_v79 (ix2 R j) k = ix2 k j := funext fun a => Fin.ext (by match a with | ⟨0, _⟩ => rfl | ⟨1, _⟩ => rfl)
private theorem i1_bb2 (R : Fin 100000) (j : Fin 128) : idx_main_v77 (ix2 R j) = ix2 (0 : Fin 1) j := funext fun a => Fin.ext (by match a with | ⟨0, _⟩ => rfl | ⟨1, _⟩ => rfl)
private theorem i1_bb1 (j : Fin 128) : idx_main_v76 (ix2 (0 : Fin 1) j) = ix1 j := funext fun a => Fin.ext (by match a with | ⟨0, _⟩ => rfl)
private theorem i1_g2 (R : Fin 100000) (j : Fin 128) : idx_main_v100 (ix2 R j) = ix2 (0 : Fin 1) j := funext fun a => Fin.ext (by match a with | ⟨0, _⟩ => rfl | ⟨1, _⟩ => rfl)
private theorem i1_g1 (j : Fin 128) : idx_main_v99 (ix2 (0 : Fin 1) j) = ix1 j := funext fun a => Fin.ext (by match a with | ⟨0, _⟩ => rfl)
private theorem i1_b2 (R : Fin 100000) (j : Fin 128) : idx_main_v103 (ix2 R j) = ix2 (0 : Fin 1) j := funext fun a => Fin.ext (by match a with | ⟨0, _⟩ => rfl | ⟨1, _⟩ => rfl)
private theorem i1_b1 (j : Fin 128) : idx_main_v102 (ix2 (0 : Fin 1) j) = ix1 j := funext fun a => Fin.ext (by match a with | ⟨0, _⟩ => rfl)
private theorem i1_bc1 (R : Fin 100000) : idx_main_v82 (ix2 R (0 : Fin 1)) = ix1 R := funext fun a => Fin.ext (by match a with | ⟨0, _⟩ => rfl)
private theorem i1_red1 (R : Fin 100000) (k : Fin 128) : idx_main_v81 (ix1 R) k = ix2 R k := funext fun a => Fin.ext (by match a with | ⟨0, _⟩ => rfl | ⟨1, _⟩ => rfl)
private theorem i1_bc2 (R : Fin 100000) : idx_main_v89 (ix2 R (0 : Fin 1)) = ix1 R := funext fun a => Fin.ext (by match a with | ⟨0, _⟩ => rfl)
private theorem i1_red2 (R : Fin 100000) (k : Fin 128) : idx_main_v88 (ix1 R) k = ix2 R k := funext fun a => Fin.ext (by match a with | ⟨0, _⟩ => rfl | ⟨1, _⟩ => rfl)
private theorem i1_bcm1 (R : Fin 100000) (j : Fin 128) : idx_main_v85 (ix2 R j) = ix2 R (0 : Fin 1) := funext fun a => Fin.ext (by match a with | ⟨0, _⟩ => rfl | ⟨1, _⟩ => rfl)
private theorem i1_bcm2 (R : Fin 100000) (j : Fin 128) : idx_main_v92 (ix2 R j) = ix2 R (0 : Fin 1) := funext fun a => Fin.ext (by match a with | ⟨0, _⟩ => rfl | ⟨1, _⟩ => rfl)
private theorem i1_bcr (R : Fin 100000) (j : Fin 128) : idx_main_v97 (ix2 R j) = ix2 R (0 : Fin 1) := funext fun a => Fin.ext (by match a with | ⟨0, _⟩ => rfl | ⟨1, _⟩ => rfl)

/-! ### Layer 1, stage by stage at node `R` -/

/-- The pre-activation of node `R` at column `j`: the two contractions and the bias. -/
private theorem l1_pre (R : Fin 100000) (j : Fin 128) :
    val_main_v80 (F := Ideal) x0 x1 x2 x3 x4 x5 x6 x7 x8 x9 x17 (ix2 R j)
      = pre (fun k => val_main_v74 (F := Ideal) x0 x1 x2 x3 x4 x5 x6 x17 (ix2 R k)) (fun k => val_main_v55 (F := Ideal) x0 x1 x2 x3 x4 x5 x6 x17 (ix2 R k))
          (fun k j => x7 (ix2 k j)) (fun k j => x9 (ix2 k j)) (fun j => x8 (ix1 j)) j := by
  rw [val_main_v80_apply, val_main_v78_apply, val_main_v75_apply, val_main_v77_apply, val_main_v76_apply, val_main_v79_apply]
  simp only [i1_lidxL, i1_ridxL, i1_lidxR, i1_ridxR, i1_bb2, i1_bb1, Ideal.addf_def]
  unfold pre
  with_reducible rfl

/-- The row mean: the sum over the 128 columns, from the zero word, divided by the word of 128. -/
private theorem l1_mean (R : Fin 100000) (s : Fin 128 → EReal)
    (hs : ∀ j, val_main_v80 (F := Ideal) x0 x1 x2 x3 x4 x5 x6 x7 x8 x9 x17 (ix2 R j) = s j) :
    val_main_v84 (F := Ideal) x0 x1 x2 x3 x4 x5 x6 x7 x8 x9 x17 (ix2 R (0 : Fin 1)) = mean128 s := by
  rw [val_main_v84_apply, val_main_v82_apply, val_main_v83_apply, val_main_cst_16_apply, val_main_v81_apply, val_main_cst_15_apply]
  simp only [i1_bc1, i1_red1, hs, Ideal.hostDivf_def, Ideal.ofBits_def, Ideal.ofBits_zero_f32, zero_add]
  unfold mean128 c128
  with_reducible rfl

/-- The deviation from the row mean (the copy that is squared). -/
private theorem l1_dev1 (R : Fin 100000) (s : Fin 128 → EReal)
    (hs : ∀ j, val_main_v80 (F := Ideal) x0 x1 x2 x3 x4 x5 x6 x7 x8 x9 x17 (ix2 R j) = s j) (j : Fin 128) :
    val_main_v86 (F := Ideal) x0 x1 x2 x3 x4 x5 x6 x7 x8 x9 x17 (ix2 R j) = s j - mean128 s := by
  rw [val_main_v86_apply, val_main_v85_apply, hs, i1_bcm1, l1_mean x0 x1 x2 x3 x4 x5 x6 x7 x8 x9 x17 R s hs, Ideal.subf_def]

/-- The deviation from the row mean (the copy that is normalised). -/
private theorem l1_dev2 (R : Fin 100000) (s : Fin 128 → EReal)
    (hs : ∀ j, val_main_v80 (F := Ideal) x0 x1 x2 x3 x4 x5 x6 x7 x8 x9 x17 (ix2 R j) = s j) (j : Fin 128) :
    val_main_v93 (F := Ideal) x0 x1 x2 x3 x4 x5 x6 x7 x8 x9 x17 (ix2 R j) = s j - mean128 s := by
  rw [val_main_v93_apply, val_main_v92_apply, hs, i1_bcm2, l1_mean x0 x1 x2 x3 x4 x5 x6 x7 x8 x9 x17 R s hs, Ideal.subf_def]

/-- The squared deviation at column `j`. -/
private theorem l1_sq (R : Fin 100000) (s : Fin 128 → EReal)
    (hs : ∀ j, val_main_v80 (F := Ideal) x0 x1 x2 x3 x4 x5 x6 x7 x8 x9 x17 (ix2 R j) = s j) (j : Fin 128) :
    val_main_v87 (F := Ideal) x0 x1 x2 x3 x4 x5 x6 x7 x8 x9 x17 (ix2 R j) = (s j - mean128 s) * (s j - mean128 s) := by
  rw [val_main_v87_apply, l1_dev1 x0 x1 x2 x3 x4 x5 x6 x7 x8 x9 x17 R s hs, Ideal.mulf_def]

/-- The row variance: the mean of the squared deviations. -/
private theorem l1_var (R : Fin 100000) (s : Fin 128 → EReal)
    (hs : ∀ j, val_main_v80 (F := Ideal) x0 x1 x2 x3 x4 x5 x6 x7 x8 x9 x17 (ix2 R j) = s j) :
    val_main_v91 (F := Ideal) x0 x1 x2 x3 x4 x5 x6 x7 x8 x9 x17 (ix2 R (0 : Fin 1)) = var128 s := by
  rw [val_main_v91_apply, val_main_v89_apply, val_main_v90_apply, val_main_cst_18_apply, val_main_v88_apply, val_main_cst_17_apply]
  simp only [i1_bc2, i1_red2, l1_sq x0 x1 x2 x3 x4 x5 x6 x7 x8 x9 x17 R s hs, Ideal.hostDivf_def, Ideal.ofBits_def, Ideal.ofBits_zero_f32, zero_add]
  unfold var128 mean128 c128
  with_reducible rfl

/-- The reciprocal square root of the variance plus ε. -/
private theorem l1_rs (R : Fin 100000) (s : Fin 128 → EReal)
    (hs : ∀ j, val_main_v80 (F := Ideal) x0 x1 x2 x3 x4 x5 x6 x7 x8 x9 x17 (ix2 R j) = s j) :
    val_main_v96 (F := Ideal) x0 x1 x2 x3 x4 x5 x6 x7 x8 x9 x17 (ix2 R (0 : Fin 1)) = Ideal.rsqrt (var128 s + ceps) := by
  rw [val_main_v96_apply, val_main_v95_apply, val_main_v94_apply, val_main_cst_19_apply, l1_var x0 x1 x2 x3 x4 x5 x6 x7 x8 x9 x17 R s hs,
    Ideal.hostUnary_rsqrt_def, Ideal.addf_def, Ideal.ofBits_def]
  unfold ceps
  with_reducible rfl

/-- The normalised, rectified activation at column `q`. -/
private theorem l1_relu (R : Fin 100000) (s : Fin 128 → EReal)
    (hs : ∀ j, val_main_v80 (F := Ideal) x0 x1 x2 x3 x4 x5 x6 x7 x8 x9 x17 (ix2 R j) = s j) (q : Fin 128) :
    val_main_v105 (F := Ideal) x0 x1 x2 x3 x4 x5 x6 x7 x8 x9 x10 x11 x17 (ix2 R q) = normRelu s (fun j => x10 (ix1 j)) (fun j => x11 (ix1 j)) q := by
  rw [val_main_v105_apply, val_main_call1_v0_apply, val_main_call1_cst_apply, val_main_v104_apply, val_main_v101_apply,
    val_main_v98_apply, val_main_v97_apply, val_main_v100_apply, val_main_v99_apply, val_main_v103_apply, val_main_v102_apply,
    i1_bcr, i1_g2, i1_g1, i1_b2, i1_b1, l1_dev2 x0 x1 x2 x3 x4 x5 x6 x7 x8 x9 x17 R s hs, l1_rs x0 x1 x2 x3 x4 x5 x6 x7 x8 x9 x17 R s hs]
  simp only [Ideal.maximumf_def, Ideal.addf_def, Ideal.mulf_def, Ideal.ofBits_def, Ideal.ofBits_zero_f32]
  unfold normRelu
  with_reducible rfl

/-- The second layer at node `R`, column `q`. -/
theorem layer1_apply (R : Fin 100000) (q : Fin 128) :
    val_main_v106 (F := Ideal) x0 x1 x2 x3 x4 x5 x6 x7 x8 x9 x10 x11 x17 (ix2 R q)
      = act (fun k => val_main_v74 (F := Ideal) x0 x1 x2 x3 x4 x5 x6 x17 (ix2 R k)) (fun k => val_main_v55 (F := Ideal) x0 x1 x2 x3 x4 x5 x6 x17 (ix2 R k))
          (fun k j => x7 (ix2 k j)) (fun k j => x9 (ix2 k j)) (fun j => x8 (ix1 j)) (fun j => x10 (ix1 j)) (fun j => x11 (ix1 j)) q
        + val_main_v55 (F := Ideal) x0 x1 x2 x3 x4 x5 x6 x17 (ix2 R q) := by
  rw [val_main_v106_apply, l1_relu x0 x1 x2 x3 x4 x5 x6 x7 x8 x9 x10 x11 x17 R _ (l1_pre x0 x1 x2 x3 x4 x5 x6 x7 x8 x9 x17 R) q, Ideal.addf_def]
  unfold act
  with_reducible rfl

/-! ### Layer 2: the generated index functions at indices built from coordinates -/

private theorem i2_lidxL (R : Fin 100000) (j : Fin 128) (k : Fin 128) : lidx_main_v126 (ix2 R j) k = ix2 R k := funext fun a => Fin.ext (by match a with | ⟨0, _⟩ => rfl | ⟨1, _⟩ => rfl)
private theorem i2_ridxL (R : Fin 100000) (j : Fin 128) (k : Fin 128) : ridx_main_v126 (ix2 R j) k = ix2 k j := funext fun a => Fin.ext (by match a with | ⟨0, _⟩ => rfl | ⟨1, _⟩ => rfl)
private theorem i2_lidxR (R : Fin 100000) (j : Fin 128) (k : Fin 128) : lidx_main_v130 (ix2 R j) k = ix2 R k := funext fun a => Fin.ext (by match a with | ⟨0, _⟩ => rfl | ⟨1, _⟩ => rfl)
private theorem i2_ridxR (R : Fin 100000) (j : Fin 128) (k : Fin 128) : ridx_main_v130 (ix2 R j) k = ix2 k j := funext fun a => Fin.ext (by match a with | ⟨0, _⟩ => rfl | ⟨1, _⟩ => rfl)
private theorem i2_bb2 (R : Fin 100000) (j : Fin 128) : idx_main_v128 (ix2 R j) = ix2 (0 : Fin 1) j := funext fun a => Fin.ext (by match a with | ⟨0, _⟩ => rfl | ⟨1, _⟩ => rfl)
private theorem i2_bb1 (j : Fin 128) : idx_main_v127 (ix2 (0 : Fin 1) j) = ix1 j := funext fun a => Fin.ext (by match a with | ⟨0, _⟩ => rfl)
private theorem i2_g2 (R : Fin 100000) (j : Fin 128) : idx_main_v151 (ix2 R j) = ix2 (0 : Fin 1) j := funext fun a => Fin.ext (by match a with | ⟨0, _⟩ => rfl | ⟨1, _⟩ => rfl)
private theorem i2_g1 (j : Fin 128) : idx_main_v150 (ix2 (0 : Fin 1) j) = ix1 j := funext fun a => Fin.ext (by match a with | ⟨0, _⟩ => rfl)
private theorem i2_b2 (R : Fin 100000) (j : Fin 128) : idx_main_v154 (ix2 R j) = ix2 (0 : Fin 1) j := funext fun a => Fin.ext (by match a with | ⟨0, _⟩ => rfl | ⟨1, _⟩ => rfl)
private theorem i2_b1 (j : Fin 128) : idx_main_v153 (ix2 (0 : Fin 1) j) = ix1 j := funext fun a => Fin.ext (by match a with | ⟨0, _⟩ => rfl)
private theorem i2_bc1 (R : Fin 100000) : idx_main_v133 (ix2 R (0 : Fin 1)) = ix1 R := funext fun a => Fin.ext (by match a with | ⟨0, _⟩ => rfl)
private theorem i2_red1 (R : Fin 100000) (k : Fin 128) : idx_main_v132 (ix1 R) k = ix2 R k := funext fun a => Fin.ext (by match a with | ⟨0, _⟩ => rfl | ⟨1, _⟩ => rfl)
private theorem i2_bc2 (R : Fin 100000) : idx_main_v140 (ix2 R (0 : Fin 1)) = ix1 R := funext fun a => Fin.ext (by match a with | ⟨0, _⟩ => rfl)
private theorem i2_red2 (R : Fin 100000) (k : Fin 128) : idx_main_v139 (ix1 R) k = ix2 R k := funext fun a => Fin.ext (by match a with | ⟨0, _⟩ => rfl | ⟨1, _⟩ => rfl)
private theorem i2_bcm1 (R : Fin 100000) (j : Fin 128) : idx_main_v136 (ix2 R j) = ix2 R (0 : Fin 1) := funext fun a => Fin.ext (by match a with | ⟨0, _⟩ => rfl | ⟨1, _⟩ => rfl)
private theorem i2_bcm2 (R : Fin 100000) (j : Fin 128) : idx_main_v143 (ix2 R j) = ix2 R (0 : Fin 1) := funext fun a => Fin.ext (by match a with | ⟨0, _⟩ => rfl | ⟨1, _⟩ => rfl)
private theorem i2_bcr (R : Fin 100000) (j : Fin 128) : idx_main_v148 (ix2 R j) = ix2 R (0 : Fin 1) := funext fun a => Fin.ext (by match a with | ⟨0, _⟩ => rfl | ⟨1, _⟩ => rfl)

/-! ### Layer 2, stage by stage at node `R` -/

/-- The pre-activation of node `R` at column `j`: the two contractions and the bias. -/
private theorem l2_pre (R : Fin 100000) (j : Fin 128) :
    val_main_v131 (F := Ideal) x0 x1 x2 x3 x4 x5 x6 x7 x8 x9 x10 x11 x12 x13 x14 x17 (ix2 R j)
      = pre (fun k => val_main_v125 (F := Ideal) x0 x1 x2 x3 x4 x5 x6 x7 x8 x9 x10 x11 x17 (ix2 R k)) (fun k => val_main_v106 (F := Ideal) x0 x1 x2 x3 x4 x5 x6 x7 x8 x9 x10 x11 x17 (ix2 R k))
          (fun k j => x12 (ix2 k j)) (fun k j => x14 (ix2 k j)) (fun j => x13 (ix1 j)) j := by
  rw [val_main_v131_apply, val_main_v129_apply, val_main_v126_apply, val_main_v128_apply, val_main_v127_apply, val_main_v130_apply]
  simp only [i2_lidxL, i2_ridxL, i2_lidxR, i2_ridxR, i2_bb2, i2_bb1, Ideal.addf_def]
  unfold pre
  with_reducible rfl

/-- The row mean: the sum over the 128 columns, from the zero word, divided by the word of 128. -/
private theorem l2_mean (R : Fin 100000) (s : Fin 128 → EReal)
    (hs : ∀ j, val_main_v131 (F := Ideal) x0 x1 x2 x3 x4 x5 x6 x7 x8 x9 x10 x11 x12 x13 x14 x17 (ix2 R j) = s j) :
    val_main_v135 (F := Ideal) x0 x1 x2 x3 x4 x5 x6 x7 x8 x9 x10 x11 x12 x13 x14 x17 (ix2 R (0 : Fin 1)) = mean128 s := by
  rw [val_main_v135_apply, val_main_v133_apply, val_main_v134_apply, val_main_cst_27_apply, val_main_v132_apply, val_main_cst_26_apply]
  simp only [i2_bc1, i2_red1, hs, Ideal.hostDivf_def, Ideal.ofBits_def, Ideal.ofBits_zero_f32, zero_add]
  unfold mean128 c128
  with_reducible rfl

/-- The deviation from the row mean (the copy that is squared). -/
private theorem l2_dev1 (R : Fin 100000) (s : Fin 128 → EReal)
    (hs : ∀ j, val_main_v131 (F := Ideal) x0 x1 x2 x3 x4 x5 x6 x7 x8 x9 x10 x11 x12 x13 x14 x17 (ix2 R j) = s j) (j : Fin 128) :
    val_main_v137 (F := Ideal) x0 x1 x2 x3 x4 x5 x6 x7 x8 x9 x10 x11 x12 x13 x14 x17 (ix2 R j) = s j - mean128 s := by
  rw [val_main_v137_apply, val_main_v136_apply, hs, i2_bcm1, l2_mean x0 x1 x2 x3 x4 x5 x6 x7 x8 x9 x10 x11 x12 x13 x14 x17 R s hs, Ideal.subf_def]

/-- The deviation from the row mean (the copy that is normalised). -/
private theorem l2_dev2 (R : Fin 100000) (s : Fin 128 → EReal)
    (hs : ∀ j, val_main_v131 (F := Ideal) x0 x1 x2 x3 x4 x5 x6 x7 x8 x9 x10 x11 x12 x13 x14 x17 (ix2 R j) = s j) (j : Fin 128) :
    val_main_v144 (F := Ideal) x0 x1 x2 x3 x4 x5 x6 x7 x8 x9 x10 x11 x12 x13 x14 x17 (ix2 R j) = s j - mean128 s := by
  rw [val_main_v144_apply, val_main_v143_apply, hs, i2_bcm2, l2_mean x0 x1 x2 x3 x4 x5 x6 x7 x8 x9 x10 x11 x12 x13 x14 x17 R s hs, Ideal.subf_def]

/-- The squared deviation at column `j`. -/
private theorem l2_sq (R : Fin 100000) (s : Fin 128 → EReal)
    (hs : ∀ j, val_main_v131 (F := Ideal) x0 x1 x2 x3 x4 x5 x6 x7 x8 x9 x10 x11 x12 x13 x14 x17 (ix2 R j) = s j) (j : Fin 128) :
    val_main_v138 (F := Ideal) x0 x1 x2 x3 x4 x5 x6 x7 x8 x9 x10 x11 x12 x13 x14 x17 (ix2 R j) = (s j - mean128 s) * (s j - mean128 s) := by
  rw [val_main_v138_apply, l2_dev1 x0 x1 x2 x3 x4 x5 x6 x7 x8 x9 x10 x11 x12 x13 x14 x17 R s hs, Ideal.mulf_def]

/-- The row variance: the mean of the squared deviations. -/
private theorem l2_var (R : Fin 100000) (s : Fin 128 → EReal)
    (hs : ∀ j, val_main_v131 (F := Ideal) x0 x1 x2 x3 x4 x5 x6 x7 x8 x9 x10 x11 x12 x13 x14 x17 (ix2 R j) = s j) :
    val_main_v142 (F := Ideal) x0 x1 x2 x3 x4 x5 x6 x7 x8 x9 x10 x11 x12 x13 x14 x17 (ix2 R (0 : Fin 1)) = var128 s := by
  rw [val_main_v142_apply, val_main_v140_apply, val_main_v141_apply, val_main_cst_29_apply, val_main_v139_apply, val_main_cst_28_apply]
  simp only [i2_bc2, i2_red2, l2_sq x0 x1 x2 x3 x4 x5 x6 x7 x8 x9 x10 x11 x12 x13 x14 x17 R s hs, Ideal.hostDivf_def, Ideal.ofBits_def, Ideal.ofBits_zero_f32, zero_add]
  unfold var128 mean128 c128
  with_reducible rfl

/-- The reciprocal square root of the variance plus ε. -/
private theorem l2_rs (R : Fin 100000) (s : Fin 128 → EReal)
    (hs : ∀ j, val_main_v131 (F := Ideal) x0 x1 x2 x3 x4 x5 x6 x7 x8 x9 x10 x11 x12 x13 x14 x17 (ix2 R j) = s j) :
    val_main_v147 (F := Ideal) x0 x1 x2 x3 x4 x5 x6 x7 x8 x9 x10 x11 x12 x13 x14 x17 (ix2 R (0 : Fin 1)) = Ideal.rsqrt (var128 s + ceps) := by
  rw [val_main_v147_apply, val_main_v146_apply, val_main_v145_apply, val_main_cst_30_apply, l2_var x0 x1 x2 x3 x4 x5 x6 x7 x8 x9 x10 x11 x12 x13 x14 x17 R s hs,
    Ideal.hostUnary_rsqrt_def, Ideal.addf_def, Ideal.ofBits_def]
  unfold ceps
  with_reducible rfl

/-- The normalised, rectified activation at column `q`. -/
private theorem l2_relu (R : Fin 100000) (s : Fin 128 → EReal)
    (hs : ∀ j, val_main_v131 (F := Ideal) x0 x1 x2 x3 x4 x5 x6 x7 x8 x9 x10 x11 x12 x13 x14 x17 (ix2 R j) = s j) (q : Fin 128) :
    val_main_v156 (F := Ideal) x0 x1 x2 x3 x4 x5 x6 x7 x8 x9 x10 x11 x12 x13 x14 x15 x16 x17 (ix2 R q) = normRelu s (fun j => x15 (ix1 j)) (fun j => x16 (ix1 j)) q := by
  rw [val_main_v156_apply, val_main_call2_v0_apply, val_main_call2_cst_apply, val_main_v155_apply, val_main_v152_apply,
    val_main_v149_apply, val_main_v148_apply, val_main_v151_apply, val_main_v150_apply, val_main_v154_apply, val_main_v153_apply,
    i2_bcr, i2_g2, i2_g1, i2_b2, i2_b1, l2_dev2 x0 x1 x2 x3 x4 x5 x6 x7 x8 x9 x10 x11 x12 x13 x14 x17 R s hs, l2_rs x0 x1 x2 x3 x4 x5 x6 x7 x8 x9 x10 x11 x12 x13 x14 x17 R s hs]
  simp only [Ideal.maximumf_def, Ideal.addf_def, Ideal.mulf_def, Ideal.ofBits_def, Ideal.ofBits_zero_f32]
  unfold normRelu
  with_reducible rfl

/-- The third layer at node `R`, column `q`. -/
theorem layer2_apply (R : Fin 100000) (q : Fin 128) :
    val_main_v157 (F := Ideal) x0 x1 x2 x3 x4 x5 x6 x7 x8 x9 x10 x11 x12 x13 x14 x15 x16 x17 (ix2 R q)
      = act (fun k => val_main_v125 (F := Ideal) x0 x1 x2 x3 x4 x5 x6 x7 x8 x9 x10 x11 x17 (ix2 R k)) (fun k => val_main_v106 (F := Ideal) x0 x1 x2 x3 x4 x5 x6 x7 x8 x9 x10 x11 x17 (ix2 R k))
          (fun k j => x12 (ix2 k j)) (fun k j => x14 (ix2 k j)) (fun j => x13 (ix1 j)) (fun j => x15 (ix1 j)) (fun j => x16 (ix1 j)) q
        + val_main_v106 (F := Ideal) x0 x1 x2 x3 x4 x5 x6 x7 x8 x9 x10 x11 x17 (ix2 R q) := by
  rw [val_main_v157_apply, l2_relu x0 x1 x2 x3 x4 x5 x6 x7 x8 x9 x10 x11 x12 x13 x14 x15 x16 x17 R _ (l2_pre x0 x1 x2 x3 x4 x5 x6 x7 x8 x9 x10 x11 x12 x13 x14 x17 R) q, Ideal.addf_def]
  unfold act
  with_reducible rfl

end Cert.ReferenceIdeal.RefValue

end
-- ==== Proof.Bridge1.lean ====
/-
  The idealized kernel's three layers and its two results, against the reference's stages.

  Each region's output array is the layer's function of the arrays the region finds; those arrays are, stage by
  stage, the reference's: the argument arrays and the parameter rows are kept from the first stretch of host operations,
  the features are the previous layer's output, and the mean-aggregated features are the same gather and scatter-add
  of the same features, times the reciprocal clamped degree where the reference divides by the clamped degree. In the
  second and third layers the residual is a product with the identity matrix, which is the feature itself. The first
  result is the last layer's output; the second is the same head (a product with the head weights, a bias, a re-lay)
  of it in both programs.
-/
import proofs.«172658_j14405320311484_1_alg».proof.Proof.Bridge0
import proofs.«172658_j14405320311484_1_alg».proof.Proof.LayerArray0
import proofs.«172658_j14405320311484_1_alg».proof.Proof.LayerArray1
import proofs.«172658_j14405320311484_1_alg».proof.Proof.LayerArray2
import proofs.«172658_j14405320311484_1_alg».proof.Proof.BodyValue
import proofs.«172658_j14405320311484_1_alg».proof.Proof.RefLayers

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.ReferenceIdeal.ReadP

variable (m : (ℓ : Loc nD τ sig) → Buf (Elt Ideal) ℓ) (ρ : Dev nD → PrngReg) (c : Dev nD)

/-- The neighbour mean of a feature array of width 128 as the kernel's host operations compute it: gather the source
    rows, scatter-add them by destination, multiply by the reciprocal column. -/
def aggr (h : FVec Ideal S100000x128 .f32) (src dst : (⟨S1600000, .i32⟩ : BufTy).Contents (Elt Ideal)) (rc : FVec Ideal S100000x1 .f32) :
    FVec Ideal S100000x128 .f32 :=
  mulf (Host.scatterAdd scatter_S100000x128_S1600000x1_S1600000x128_1_0_0_1 (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 rc)

/-! ## Layer 0 -/

/-- The first region's output array is the reference's first layer. -/
theorem out0_eq : ((dat0 (F := Ideal) (V1 m ρ) c).arrAt 8 cfg0.N : S100000x128.Idx → EReal)
    = val_main_v55 (F := Ideal) (a0 m c) (a1 m c) (a2 m c) (a3 m c) (a4 m c) (a5 m c) (a6 m c) (a17 m c) := by
  funext i
  obtain ⟨R, q, rfl⟩ : ∃ (R : Fin 100000) (q : Fin 128), i = ix2 R q := ⟨i 0, i 1, eq_ix2 i⟩
  rw [Cert.KernelIdeal.LayerArray0.final_apply (V1 m ρ) Cert.KernelIdeal.BodyValue.out0_8_apply c R q,
    Cert.ReferenceIdeal.RefValue.layer0_apply]
  unfold Cert.KernelIdeal.LayerArray0.row
  rw [show (V1 m ρ c main_v39 : S100000x32.Idx → EReal) = val_main_v22 (F := Ideal) (a0 m c) (a1 m c) from agg0 m ρ c,
    show (V1 m ρ c main_arg0 : S100000x32.Idx → EReal) = a0 m c from Cert.KernelIdeal.Folds.keepH0 m ρ c main_arg0 (by decide),
    show (V1 m ρ c main_arg2 : S32x128.Idx → EReal) = a2 m c from Cert.KernelIdeal.Folds.keepH0 m ρ c main_arg2 (by decide),
    show (V1 m ρ c main_arg4 : S32x128.Idx → EReal) = a4 m c from Cert.KernelIdeal.Folds.keepH0 m ρ c main_arg4 (by decide),
    show (V1 m ρ c main_arg17 : S32x128.Idx → EReal) = a17 m c from Cert.KernelIdeal.Folds.keepH0 m ρ c main_arg17 (by decide),
    show (V1 m ρ c main_v19 : S1x128.Idx → EReal) = shapeCast S1x128 (a3 m c) shapeCasts_S128_S1x128 from W1_v19 m ρ c,
    show (V1 m ρ c main_v20 : S1x128.Idx → EReal) = shapeCast S1x128 (a5 m c) shapeCasts_S128_S1x128 from W1_v20 m ρ c,
    show (V1 m ρ c main_v21 : S1x128.Idx → EReal) = shapeCast S1x128 (a6 m c) shapeCasts_S128_S1x128 from W1_v21 m ρ c]
  simp only [row_apply]

/-! ## Layer 1 -/

set_option maxHeartbeats 4000000 in
theorem W3_v52 : W3 m ρ c (Proc.devRef .tc main_v52)
    = aggr (W2 m ρ c (Proc.devRef .tc main_v40)) (W2 m ρ c (Proc.devRef .tc main_v1)) (W2 m ρ c (Proc.devRef .tc main_v3))
        (W2 m ρ c (Proc.devRef .tc main_v12)) := by
  show StableHlo.after hostOps1 (W2 m ρ c) (Proc.devRef .tc main_v52) = _
  after_results_simp
  rfl

/-- The mean-aggregated features of a width-128 feature array are the reference's quotient form, entry by entry. -/
theorem aggr_eq (h : FVec Ideal S100000x128 .f32) (x1 : (⟨S2x1600000, .i32⟩ : BufTy).Contents (Elt Ideal))
    (sc : FVec Ideal S100000x128 .f32) (dv : FVec Ideal S100000x128 .f32)
    (hsc : Host.scatterAdd scatter_S100000x128_S1600000x1_S1600000x128_1_0_0_1 (broadcastInDim S100000x128 ![] bcast_S_S100000x128 (constant (F := Ideal) S_ .f32 0x00000000#32))
        (broadcastInDim S1600000x1 ![0] bcast_S1600000_S1600000x1_0 (val_main_v3 (F := Ideal) x1))
        (Host.gather gather_S100000x128_S1600000x1_S1600000x128_1_0_n_n_0_1_1128 h
          (broadcastInDim S1600000x1 ![0] bcast_S1600000_S1600000x1_0
            (select (cmpi .slt (val_main_v1 (F := Ideal) x1) (broadcastInDim S1600000 ![] bcast_S_S1600000 (constantI S_ 32 0#32)))
              (addi (val_main_v1 (F := Ideal) x1) (broadcastInDim S1600000 ![] bcast_S_S1600000 (constantI S_ 32 100000#32)))
              (val_main_v1 (F := Ideal) x1)))) = sc)
    (hdv : Host.divf (F := Ideal) sc (broadcastInDim S100000x128 ![0, 1] bcast_S100000x1_S100000x128_0_1
        (broadcastInDim S100000x1 ![0] bcast_S100000_S100000x1_0
          (maximumf (val_main_v17 (F := Ideal) x1) (broadcastInDim S100000 ![] bcast_S_S100000 (constant (F := Ideal) S_ .f32 0x3F800000#32))))) = dv) :
    aggr h (val_main_v1 (F := Ideal) x1) (val_main_v3 (F := Ideal) x1) (recipCol (val_main_v17 (F := Ideal) x1)) = dv := by
  subst hdv
  unfold aggr
  rw [hsc]
  funext i
  obtain ⟨R, k, rfl⟩ : ∃ (R : Fin 100000) (k : Fin 128), i = ix2 R k := ⟨i 0, i 1, eq_ix2 i⟩
  exact Cert.MeanAgg.mul_recip_eq_div sc (val_main_v17 (F := Ideal) x1)
    bcast_S_S100000 bcast_S100000_S100000x1_0 bcast_S100000x1_S100000x128_0_1 R k

theorem V3_v40 : (V3 m ρ c main_v40 : S100000x128.Idx → EReal) = val_main_v55 (F := Ideal) (a0 m c) (a1 m c) (a2 m c) (a3 m c) (a4 m c) (a5 m c) (a6 m c) (a17 m c) :=
  (Cert.KernelIdeal.Folds.keepH1 m ρ c main_v40 (by decide)).trans ((Cert.KernelIdeal.Folds.out0 m ρ c).trans (out0_eq m ρ c))

theorem agg1 : (V3 m ρ c main_v52 : S100000x128.Idx → EReal) = val_main_v74 (F := Ideal) (a0 m c) (a1 m c) (a2 m c) (a3 m c) (a4 m c) (a5 m c) (a6 m c) (a17 m c) := by
  show W3 m ρ c (Proc.devRef .tc main_v52) = _
  rw [W3_v52,
    show W2 m ρ c (Proc.devRef .tc main_v40) = val_main_v55 (F := Ideal) (a0 m c) (a1 m c) (a2 m c) (a3 m c) (a4 m c) (a5 m c) (a6 m c) (a17 m c) from (Cert.KernelIdeal.Folds.out0 m ρ c).trans (out0_eq m ρ c),
    show W2 m ρ c (Proc.devRef .tc main_v1) = val_main_v1 (F := Ideal) (a1 m c) from (Cert.KernelIdeal.Folds.late2 m ρ c main_v1 (by decide)).trans (W1_v1 m ρ c),
    show W2 m ρ c (Proc.devRef .tc main_v3) = val_main_v3 (F := Ideal) (a1 m c) from (Cert.KernelIdeal.Folds.late2 m ρ c main_v3 (by decide)).trans (W1_v3 m ρ c),
    show W2 m ρ c (Proc.devRef .tc main_v12) = recipCol (val_main_v17 (F := Ideal) (a1 m c)) from (Cert.KernelIdeal.Folds.late2 m ρ c main_v12 (by decide)).trans (W1_v12 m ρ c)]
  exact aggr_eq _ (a1 m c) (val_main_v65 (F := Ideal) (a0 m c) (a1 m c) (a2 m c) (a3 m c) (a4 m c) (a5 m c) (a6 m c) (a17 m c)) _ rfl rfl

/-- The second region's output array is the reference's second layer. -/
theorem out1_eq : ((dat1 (F := Ideal) (V3 m ρ) c).arrAt 8 cfg1.N : S100000x128.Idx → EReal)
    = val_main_v106 (F := Ideal) (a0 m c) (a1 m c) (a2 m c) (a3 m c) (a4 m c) (a5 m c) (a6 m c) (a7 m c) (a8 m c) (a9 m c) (a10 m c) (a11 m c) (a17 m c) := by
  funext i
  obtain ⟨R, q, rfl⟩ : ∃ (R : Fin 100000) (q : Fin 128), i = ix2 R q := ⟨i 0, i 1, eq_ix2 i⟩
  rw [Cert.KernelIdeal.LayerArray1.final_apply (V3 m ρ) Cert.KernelIdeal.BodyValue.out1_8_apply c R q,
    Cert.ReferenceIdeal.RefValue.layer1_apply]
  unfold Cert.KernelIdeal.LayerArray1.row
  rw [agg1 m ρ c, V3_v40 m ρ c,
    show (V3 m ρ c main_arg7 : S128x128.Idx → EReal) = a7 m c from (Cert.KernelIdeal.Folds.late3 m ρ c main_arg7 (by decide) (by decide)).trans (Cert.KernelIdeal.Folds.keepH0 m ρ c main_arg7 (by decide)),
    show (V3 m ρ c main_arg9 : S128x128.Idx → EReal) = a9 m c from (Cert.KernelIdeal.Folds.late3 m ρ c main_arg9 (by decide) (by decide)).trans (Cert.KernelIdeal.Folds.keepH0 m ρ c main_arg9 (by decide)),
    show (V3 m ρ c main_v22 : S1x128.Idx → EReal) = shapeCast S1x128 (a8 m c) shapeCasts_S128_S1x128 from (Cert.KernelIdeal.Folds.late3 m ρ c main_v22 (by decide) (by decide)).trans (W1_v22 m ρ c),
    show (V3 m ρ c main_v23 : S1x128.Idx → EReal) = shapeCast S1x128 (a10 m c) shapeCasts_S128_S1x128 from (Cert.KernelIdeal.Folds.late3 m ρ c main_v23 (by decide) (by decide)).trans (W1_v23 m ρ c),
    show (V3 m ρ c main_v24 : S1x128.Idx → EReal) = shapeCast S1x128 (a11 m c) shapeCasts_S128_S1x128 from (Cert.KernelIdeal.Folds.late3 m ρ c main_v24 (by decide) (by decide)).trans (W1_v24 m ρ c),
    show (V3 m ρ c main_v18 : S128x128.Idx → EReal) = eyeM from (Cert.KernelIdeal.Folds.late3 m ρ c main_v18 (by decide) (by decide)).trans (W1_v18 m ρ c)]
  simp only [row_apply]
  rw [Cert.LayerSpec.proj_identity _ (fun k j => eyeM (ix2 k j)) (fun k j => eyeM_apply k j) q]

/-! ## Layer 2 -/

set_option maxHeartbeats 4000000 in
theorem W5_v65 : W5 m ρ c (Proc.devRef .tc main_v65)
    = aggr (W4 m ρ c (Proc.devRef .tc main_v53)) (W4 m ρ c (Proc.devRef .tc main_v1)) (W4 m ρ c (Proc.devRef .tc main_v3))
        (W4 m ρ c (Proc.devRef .tc main_v12)) := by
  show StableHlo.after hostOps2 (W4 m ρ c) (Proc.devRef .tc main_v65) = _
  after_results_simp
  rfl

theorem V5_v53 : (V5 m ρ c main_v53 : S100000x128.Idx → EReal) = val_main_v106 (F := Ideal) (a0 m c) (a1 m c) (a2 m c) (a3 m c) (a4 m c) (a5 m c) (a6 m c) (a7 m c) (a8 m c) (a9 m c) (a10 m c) (a11 m c) (a17 m c) :=
  (Cert.KernelIdeal.Folds.keepH2 m ρ c main_v53 (by decide)).trans ((Cert.KernelIdeal.Folds.out1 m ρ c).trans (out1_eq m ρ c))

theorem agg2 : (V5 m ρ c main_v65 : S100000x128.Idx → EReal) = val_main_v125 (F := Ideal) (a0 m c) (a1 m c) (a2 m c) (a3 m c) (a4 m c) (a5 m c) (a6 m c) (a7 m c) (a8 m c) (a9 m c) (a10 m c) (a11 m c) (a17 m c) := by
  show W5 m ρ c (Proc.devRef .tc main_v65) = _
  rw [W5_v65,
    show W4 m ρ c (Proc.devRef .tc main_v53) = val_main_v106 (F := Ideal) (a0 m c) (a1 m c) (a2 m c) (a3 m c) (a4 m c) (a5 m c) (a6 m c) (a7 m c) (a8 m c) (a9 m c) (a10 m c) (a11 m c) (a17 m c) from (Cert.KernelIdeal.Folds.out1 m ρ c).trans (out1_eq m ρ c),
    show W4 m ρ c (Proc.devRef .tc main_v1) = val_main_v1 (F := Ideal) (a1 m c) from (Cert.KernelIdeal.Folds.late4 m ρ c main_v1 (by decide) (by decide) (by decide)).trans (W1_v1 m ρ c),
    show W4 m ρ c (Proc.devRef .tc main_v3) = val_main_v3 (F := Ideal) (a1 m c) from (Cert.KernelIdeal.Folds.late4 m ρ c main_v3 (by decide) (by decide) (by decide)).trans (W1_v3 m ρ c),
    show W4 m ρ c (Proc.devRef .tc main_v12) = recipCol (val_main_v17 (F := Ideal) (a1 m c)) from (Cert.KernelIdeal.Folds.late4 m ρ c main_v12 (by decide) (by decide) (by decide)).trans (W1_v12 m ρ c)]
  exact aggr_eq _ (a1 m c) (val_main_v116 (F := Ideal) (a0 m c) (a1 m c) (a2 m c) (a3 m c) (a4 m c) (a5 m c) (a6 m c) (a7 m c) (a8 m c) (a9 m c) (a10 m c) (a11 m c) (a17 m c)) _ rfl rfl

/-- The third region's output array is the reference's third layer. -/
theorem out2_eq : ((dat2 (F := Ideal) (V5 m ρ) c).arrAt 8 cfg2.N : S100000x128.Idx → EReal)
    = val_main_v157 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  funext i
  obtain ⟨R, q, rfl⟩ : ∃ (R : Fin 100000) (q : Fin 128), i = ix2 R q := ⟨i 0, i 1, eq_ix2 i⟩
  rw [Cert.KernelIdeal.LayerArray2.final_apply (V5 m ρ) Cert.KernelIdeal.BodyValue.out2_8_apply c R q,
    Cert.ReferenceIdeal.RefValue.layer2_apply]
  unfold Cert.KernelIdeal.LayerArray2.row
  rw [agg2 m ρ c, V5_v53 m ρ c,
    show (V5 m ρ c main_arg12 : S128x128.Idx → EReal) = a12 m c from (Cert.KernelIdeal.Folds.late5 m ρ c main_arg12 (by decide) (by decide) (by decide) (by decide)).trans (Cert.KernelIdeal.Folds.keepH0 m ρ c main_arg12 (by decide)),
    show (V5 m ρ c main_arg14 : S128x128.Idx → EReal) = a14 m c from (Cert.KernelIdeal.Folds.late5 m ρ c main_arg14 (by decide) (by decide) (by decide) (by decide)).trans (Cert.KernelIdeal.Folds.keepH0 m ρ c main_arg14 (by decide)),
    show (V5 m ρ c main_v25 : S1x128.Idx → EReal) = shapeCast S1x128 (a13 m c) shapeCasts_S128_S1x128 from (Cert.KernelIdeal.Folds.late5 m ρ c main_v25 (by decide) (by decide) (by decide) (by decide)).trans (W1_v25 m ρ c),
    show (V5 m ρ c main_v26 : S1x128.Idx → EReal) = shapeCast S1x128 (a15 m c) shapeCasts_S128_S1x128 from (Cert.KernelIdeal.Folds.late5 m ρ c main_v26 (by decide) (by decide) (by decide) (by decide)).trans (W1_v26 m ρ c),
    show (V5 m ρ c main_v27 : S1x128.Idx → EReal) = shapeCast S1x128 (a16 m c) shapeCasts_S128_S1x128 from (Cert.KernelIdeal.Folds.late5 m ρ c main_v27 (by decide) (by decide) (by decide) (by decide)).trans (W1_v27 m ρ c),
    show (V5 m ρ c main_v18 : S128x128.Idx → EReal) = eyeM from (Cert.KernelIdeal.Folds.late5 m ρ c main_v18 (by decide) (by decide) (by decide) (by decide)).trans (W1_v18 m ρ c)]
  simp only [row_apply]
  rw [Cert.LayerSpec.proj_identity _ (fun k j => eyeM (ix2 k j)) (fun k j => eyeM_apply k j) q]

/-! ## The two results -/

/-- The second result (the last layer's output) is the reference's. -/
theorem result1 : W7 m ρ c (Proc.devRef .tc main_v66) = val_main_v157 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) :=
  (Cert.KernelIdeal.Folds.keepH3 m ρ c main_v66 (by decide)).trans ((Cert.KernelIdeal.Folds.out2 m ρ c).trans (out2_eq m ρ c))

/-- The head: the product with the head weights, plus the bias, re-laid as a list. -/
def head (h : FVec Ideal S100000x128 .f32) (w : FVec Ideal S128x1 .f32) (b : FVec Ideal S1 .f32) : FVec Ideal S100000 .f32 :=
  shapeCast S100000 (addf (Host.dotGeneral (F := Ideal) dot_S100000x128_S128x1_S100000x1_1_0_0_1_n_n none h w)
      (broadcastInDim S100000x1 ![0, 1] bcast_S1x1_S100000x1_0_1 (broadcastInDim S1x1 ![1] bcast_S1_S1x1_1 b)))
    shapeCasts_S100000x1_S100000

theorem W7_v71 : W7 m ρ c (Proc.devRef .tc main_v71)
    = head (W6 m ρ c (Proc.devRef .tc main_v66)) (W6 m ρ c (Proc.devRef .tc main_arg18)) (W6 m ρ c (Proc.devRef .tc main_arg19)) := by
  show StableHlo.after hostOps3 (W6 m ρ c) (Proc.devRef .tc main_v71) = _
  after_results
  rfl

/-- The first result (the head applied to the last layer's output) is the reference's. -/
theorem result0 : W7 m ρ c (Proc.devRef .tc main_v71) = val_main_v162 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) := by
  rw [W7_v71,
    show W6 m ρ c (Proc.devRef .tc main_v66) = val_main_v157 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) from (Cert.KernelIdeal.Folds.out2 m ρ c).trans (out2_eq m ρ c),
    show W6 m ρ c (Proc.devRef .tc main_arg18) = a18 m c from (Cert.KernelIdeal.Folds.late6 m ρ c main_arg18 (by decide) (by decide) (by decide) (by decide) (by decide)).trans (Cert.KernelIdeal.Folds.keepH0 m ρ c main_arg18 (by decide)),
    show W6 m ρ c (Proc.devRef .tc main_arg19) = a19 m c from (Cert.KernelIdeal.Folds.late6 m ρ c main_arg19 (by decide) (by decide) (by decide) (by decide) (by decide)).trans (Cert.KernelIdeal.Folds.keepH0 m ρ c main_arg19 (by decide))]
  rfl

end Cert.Bridge

end
-- ==== Proof.lean ====
/-
  The proof of `Cert.Claim`: a three-layer mean-aggregating graph convolution (gather, scatter-add, mean by the clamped
  in-degree; two matrix products and a bias; layer normalisation with gain and shift; a rectifier; a residual), with a
  linear head, as three pipelined layer kernels among host operations, against its plain reference.

  * The three frames: the kernel's two are the generated frame certificates; the reference's is its run with the
    results dropped (`Proof/RefRun`: the reference's 202 host operations read one at a time at the final valuation).
  * `preserves`: the idealized kernel is the kernel's own text read at the ideal values; nothing was rewritten.
  * `algebraic`: at the ideal values the kernel's run ends with every unscoped buffer at the fold of the program's
    segments (`Proof/NamedRun`). Each region's output array is the layer's function, entry by entry, of the arrays the
    region finds (`Proof/BodyValue`: one grid point's block; `Proof/LayerArray0/1/2`: the fifty blocks tile the
    array). The reference's layers are the same function of its own stages (`Proof/RefLayers`). The arrays a region
    finds are the reference's stages (`Proof/Folds`, `Proof/Bridge0`, `Proof/Bridge1`): the gathers and scatter-adds
    are the same operations of the same operands; the neighbour mean is a product with `1 / max deg 1` on one side and a
    quotient by `max deg 1` on the other, equal on every extended real because `max deg 1` is never zero
    (`Proof/MeanAgg`); and the identity residual of the second and third layers is a product with the identity matrix,
    which is the feature itself, a product with zero being zero also at the infinities (`Proof/EyeMatrix`,
    `LayerSpec.proj_identity`). No input needs to be finite for any of this: the precondition is never opened.
  `Proof/Assembly` puts the five claims together.
-/
import proofs.«172658_j14405320311484_1_alg».proof.Defs
import proofs.«172658_j14405320311484_1_alg».proof.Proof.Assembly
import proofs.«172658_j14405320311484_1_alg».proof.Proof.RefRun
import proofs.«172658_j14405320311484_1_alg».proof.Proof.Bridge1
import Idealize.ShloMosaic.Adequacy
import Idealize.ShloMosaic.Init

noncomputable section

namespace Cert.Proof

open Idealize.ShloMosaic Idealize.SL.Sem

theorem claim : Cert.Claim :=
  Cert.Proof.Assembly.claim_of
    (fun m ρ => Cert.ReferenceIdeal.RefRun.run (F := Ideal) m ρ)
    (fun m ρ c => Cert.Bridge.result0 m ρ c)
    (fun m ρ c => Cert.Bridge.result1 m ρ c)

end Cert.Proof

end
